-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v356_1)) (v1 : (c : Dev Cert.KernelIdeal.nD) → Buf (Elt Ideal) ((c.tc : Thread Cert.KernelIdeal.nD Cert.KernelIdeal.τ).loc Cert.KernelIdeal.main_v357)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v356_1) = v0 c
          ∧ r.2.mem ((c.tc : Thread Cert.KernelIdeal.nD Cert.KernelIdeal.τ).loc Cert.KernelIdeal.main_v357) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v372) = v0 c
          ∧ r.2.mem ((c.tc : Thread Cert.ReferenceIdeal.nD Cert.ReferenceIdeal.τ).loc Cert.ReferenceIdeal.main_v360) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x3 : Shape := ⟨2, ![1048576, 3]⟩
abbrev S32x256x256 : Shape := ⟨3, ![32, 256, 256]⟩
abbrev S3 : Shape := ⟨1, ![3]⟩
abbrev S96x64 : Shape := ⟨2, ![96, 64]⟩
abbrev S64x16 : Shape := ⟨2, ![64, 16]⟩
abbrev S15x64 : Shape := ⟨2, ![15, 64]⟩
abbrev S64x64 : Shape := ⟨2, ![64, 64]⟩
abbrev S64x3 : Shape := ⟨2, ![64, 3]⟩
abbrev S_ : Shape := ⟨0, ![]⟩

class Facts : Prop where
  bcast_S_S1048576x3 : S_.BroadcastsInDim S1048576x3 (![] : Fin 0 → Fin S1048576x3.rank)
  reducesTo_S1048576x3_S_d0_1 : S1048576x3.ReducesTo [0, 1] S_
  h_S_ : 0 < S_.numel
  bcast_S_S32x256x256 : S_.BroadcastsInDim S32x256x256 (![] : Fin 0 → Fin S32x256x256.rank)
  reducesTo_S32x256x256_S_d0_1_2 : S32x256x256.ReducesTo [0, 1, 2] S_
  bcast_S_S3 : S_.BroadcastsInDim S3 (![] : Fin 0 → Fin S3.rank)
  reducesTo_S3_S_d0 : S3.ReducesTo [0] S_
  bcast_S_S96x64 : S_.BroadcastsInDim S96x64 (![] : Fin 0 → Fin S96x64.rank)
  reducesTo_S96x64_S_d0_1 : S96x64.ReducesTo [0, 1] S_
  bcast_S_S64x16 : S_.BroadcastsInDim S64x16 (![] : Fin 0 → Fin S64x16.rank)
  reducesTo_S64x16_S_d0_1 : S64x16.ReducesTo [0, 1] S_
  bcast_S_S15x64 : S_.BroadcastsInDim S15x64 (![] : Fin 0 → Fin S15x64.rank)
  reducesTo_S15x64_S_d0_1 : S15x64.ReducesTo [0, 1] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_

variable [Facts]

def fn_part3 {F : FTy → Type} [FloatOps F] (main_arg11 : FVec F S64x3 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x3 .f32 := Host.absf main_arg11
  let main_cst_20 : FVec F S_ .f32 := constant S_ .f32 0x7F800000#32
  let main_v55 : FVec F S64x3 .f32 := broadcastInDim S64x3 ![] bcast_S_S64x3 main_cst_20
  let main_v56 : IVec S64x3 1 := cmpf .olt main_v54 main_v55
  let main_c_21 : IVec S_ 1 := constantI S_ 1 1#1
  let main_v57 : IVec S_ 1 := (fun x v => Host.reduce IntOp.andi x v reducesTo_S64x3_S_d0_1 h_S_) main_v56 main_c_21
  let main_v58 : IVec S_ 1 := andi main_v53 main_v57
  main_v58

def fn_part2 {F : FTy → Type} [FloatOps F] (main_arg7 : FVec F S96x64 .f32) (main_arg8 : FVec F S64x16 .f32) (main_arg9 : FVec F S15x64 .f32) (main_arg10 : FVec F S64x64 .f32) (main_arg11 : FVec F S64x3 .f32) (main_v33 : IVec S_ 1) : IVec S_ 1 :=
  let main_v34 : FVec F S96x64 .f32 := Host.absf main_arg7
  let main_cst_12 : FVec F S_ .f32 := constant S_ .f32 0x7F800000#32
  let main_v35 : FVec F S96x64 .f32 := broadcastInDim S96x64 ![] bcast_S_S96x64 main_cst_12
  let main_v36 : IVec S96x64 1 := cmpf .olt main_v34 main_v35
  let main_c_13 : IVec S_ 1 := constantI S_ 1 1#1
  let main_v37 : IVec S_ 1 := (fun x v => Host.reduce IntOp.andi x v reducesTo_S96x64_S_d0_1 h_S_) main_v36 main_c_13
  let main_v38 : IVec S_ 1 := andi main_v33 main_v37
  let main_v39 : FVec F S64x16 .f32 := Host.absf main_arg8
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S15x64 .f32 := Host.absf main_arg9
  let main_cst_16 : FVec F S_ .f32 := constant S_ .f32 0x7F800000#32
  let main_v45 : FVec F S15x64 .f32 := broadcastInDim S15x64 ![] bcast_S_S15x64 main_cst_16
  let main_v46 : IVec S15x64 1 := cmpf .olt main_v44 main_v45
  let main_c_17 : IVec S_ 1 := constantI S_ 1 1#1
  let main_v47 : IVec S_ 1 := (fun x v => Host.reduce IntOp.andi x v reducesTo_S15x64_S_d0_1 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_v48 main_v49 main_v50

def fn_part1 {F : FTy → Type} [FloatOps F] (main_arg4 : FVec F S32x256x256 .f32) (main_arg5 : FVec F S3 .f32) (main_arg6 : FVec F S3 .f32) (main_arg7 : FVec F S96x64 .f32) (main_arg8 : FVec F S64x16 .f32) (main_arg9 : FVec F S15x64 .f32) (main_arg10 : FVec F S64x64 .f32) (main_arg11 : FVec F S64x3 .f32) (main_v13 : IVec S_ 1) (main_v16 : IVec S32x256x256 1) : IVec S_ 1 :=
  let main_c_5 : IVec S_ 1 := constantI S_ 1 1#1
  let main_v17 : IVec S_ 1 := (fun x v => Host.reduce IntOp.andi x v reducesTo_S32x256x256_S_d0_1_2 h_S_) main_v16 main_c_5
  let main_v18 : IVec S_ 1 := andi main_v13 main_v17
  let main_v19 : FVec F S32x256x256 .f32 := Host.absf main_arg4
  let main_cst_6 : FVec F S_ .f32 := constant S_ .f32 0x7F800000#32
  let main_v20 : FVec F S32x256x256 .f32 := broadcastInDim S32x256x256 ![] bcast_S_S32x256x256 main_cst_6
  let main_v21 : IVec S32x256x256 1 := cmpf .olt main_v19 main_v20
  let main_c_7 : IVec S_ 1 := constantI S_ 1 1#1
  let main_v22 : IVec S_ 1 := (fun x v => Host.reduce IntOp.andi x v reducesTo_S32x256x256_S_d0_1_2 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1048576x3 .f32) (main_arg1 : FVec F S1048576x3 .f32) (main_arg2 : FVec F S32x256x256 .f32) (main_arg3 : FVec F S32x256x256 .f32) (main_arg4 : FVec F S32x256x256 .f32) (main_arg5 : FVec F S3 .f32) (main_arg6 : FVec F S3 .f32) (main_arg7 : FVec F S96x64 .f32) (main_arg8 : FVec F S64x16 .f32) (main_arg9 : FVec F S15x64 .f32) (main_arg10 : FVec F S64x64 .f32) (main_arg11 : FVec F S64x3 .f32) : IVec S_ 1 :=
  let main_v0 : FVec F S1048576x3 .f32 := Host.absf main_arg0
  let main_cst : FVec F S_ .f32 := constant S_ .f32 0x7F800000#32
  let main_v1 : FVec F S1048576x3 .f32 := broadcastInDim S1048576x3 ![] bcast_S_S1048576x3 main_cst
  let main_v2 : IVec S1048576x3 1 := cmpf .olt main_v0 main_v1
  let main_c : IVec S_ 1 := constantI S_ 1 1#1
  let main_v3 : IVec S_ 1 := (fun x v => Host.reduce IntOp.andi x v reducesTo_S1048576x3_S_d0_1 h_S_) main_v2 main_c
  let main_v4 : FVec F S1048576x3 .f32 := Host.absf main_arg1
  let main_cst_0 : FVec F S_ .f32 := constant S_ .f32 0x7F800000#32
  let main_v5 : FVec F S1048576x3 .f32 := broadcastInDim S1048576x3 ![] bcast_S_S1048576x3 main_cst_0
  let main_v6 : IVec S1048576x3 1 := cmpf .olt main_v4 main_v5
  let main_c_1 : IVec S_ 1 := constantI S_ 1 1#1
  let main_v7 : IVec S_ 1 := (fun x v => Host.reduce IntOp.andi x v reducesTo_S1048576x3_S_d0_1 h_S_) main_v6 main_c_1
  let main_v8 : IVec S_ 1 := andi main_v3 main_v7
  let main_v9 : FVec F S32x256x256 .f32 := Host.absf main_arg2
  let main_cst_2 : FVec F S_ .f32 := constant S_ .f32 0x7F800000#32
  let main_v10 : FVec F S32x256x256 .f32 := broadcastInDim S32x256x256 ![] bcast_S_S32x256x256 main_cst_2
  let main_v11 : IVec S32x256x256 1 := cmpf .olt main_v9 main_v10
  let main_c_3 : IVec S_ 1 := constantI S_ 1 1#1
  let main_v12 : IVec S_ 1 := (fun x v => Host.reduce IntOp.andi x v reducesTo_S32x256x256_S_d0_1_2 h_S_) main_v11 main_c_3
  let main_v13 : IVec S_ 1 := andi main_v8 main_v12
  let main_v14 : FVec F S32x256x256 .f32 := Host.absf main_arg3
  let main_cst_4 : FVec F S_ .f32 := constant S_ .f32 0x7F800000#32
  let main_v15 : FVec F S32x256x256 .f32 := broadcastInDim S32x256x256 ![] bcast_S_S32x256x256 main_cst_4
  let main_v16 : IVec S32x256x256 1 := cmpf .olt main_v14 main_v15
  fn_part1 (F := F) main_arg4 main_arg5 main_arg6 main_arg7 main_arg8 main_arg9 main_arg10 main_arg11 main_v13 main_v16
-- ==== Kernel.lean ====
abbrev S1048576x3 : Shape := ⟨2, ![1048576, 3]⟩
abbrev S32x256x256 : Shape := ⟨3, ![32, 256, 256]⟩
abbrev S3 : Shape := ⟨1, ![3]⟩
abbrev S96x64 : Shape := ⟨2, ![96, 64]⟩
abbrev S64x16 : Shape := ⟨2, ![64, 16]⟩
abbrev S15x64 : Shape := ⟨2, ![15, 64]⟩
abbrev S64x64 : Shape := ⟨2, ![64, 64]⟩
abbrev S64x3 : Shape := ⟨2, ![64, 3]⟩
abbrev S1x3 : Shape := ⟨2, ![1, 3]⟩
abbrev S_ : Shape := ⟨0, ![]⟩
abbrev S1048576x1 : Shape := ⟨2, ![1048576, 1]⟩
abbrev S1048576 : Shape := ⟨1, ![1048576]⟩
abbrev S1x1048576 : Shape := ⟨2, ![1, 1048576]⟩
abbrev S1048576x2 : Shape := ⟨2, ![1048576, 2]⟩
abbrev S32x1048576 : Shape := ⟨2, ![32, 1048576]⟩
abbrev S1048576x32 : Shape := ⟨2, ![1048576, 32]⟩
abbrev S1048576x96 : Shape := ⟨2, ![1048576, 96]⟩
abbrev S8192x96 : Shape := ⟨2, ![8192, 96]⟩
abbrev S8192x1 : Shape := ⟨2, ![8192, 1]⟩
abbrev S8192x3 : Shape := ⟨2, ![8192, 3]⟩
abbrev S8192x64 : Shape := ⟨2, ![8192, 64]⟩
abbrev S8192x16 : Shape := ⟨2, ![8192, 16]⟩
abbrev S8192x15 : Shape := ⟨2, ![8192, 15]⟩

abbrev nBuf : Space → Nat
  | .hbm => 549
  | .vmem => 11
  | .smem => 0
  | _ => 0

abbrev hbmTy0_0 (i : Nat) : BufTy := match i % 128 with
  | 0 => ⟨S1048576x3, .f32⟩
  | 1 => ⟨S1048576x3, .f32⟩
  | 2 => ⟨S32x256x256, .f32⟩
  | 3 => ⟨S32x256x256, .f32⟩
  | 4 => ⟨S32x256x256, .f32⟩
  | 5 => ⟨S3, .f32⟩
  | 6 => ⟨S3, .f32⟩
  | 7 => ⟨S96x64, .f32⟩
  | 8 => ⟨S64x16, .f32⟩
  | 9 => ⟨S15x64, .f32⟩
  | 10 => ⟨S64x64, .f32⟩
  | 11 => ⟨S64x3, .f32⟩
  | 12 => ⟨S1x3, .f32⟩
  | 13 => ⟨S1048576x3, .f32⟩
  | 14 => ⟨S1048576x3, .f32⟩
  | 15 => ⟨S1x3, .f32⟩
  | 16 => ⟨S1048576x3, .f32⟩
  | 17 => ⟨S1048576x3, .f32⟩
  | 18 => ⟨S_, .f32⟩
  | 19 => ⟨S1048576x3, .f32⟩
  | 20 => ⟨S1048576x3, .f32⟩
  | 21 => ⟨S_, .f32⟩
  | 22 => ⟨S_, .f32⟩
  | 23 => ⟨S_, .f32⟩
  | 24 => ⟨S1048576x3, .f32⟩
  | 25 => ⟨S1048576x3, .f32⟩
  | 26 => ⟨S_, .f32⟩
  | 27 => ⟨S1048576x3, .f32⟩
  | 28 => ⟨S1048576x3, .f32⟩
  | 29 => ⟨S_, .f32⟩
  | 30 => ⟨S1048576x3, .f32⟩
  | 31 => ⟨S1048576x3, .f32⟩
  | 32 => ⟨S_, .f32⟩
  | 33 => ⟨S1048576x3, .f32⟩
  | 34 => ⟨S1048576x3, .f32⟩
  | 35 => ⟨S1048576x1, .f32⟩
  | 36 => ⟨S1048576, .f32⟩
  | 37 => ⟨S1048576x1, .f32⟩
  | 38 => ⟨S1048576, .f32⟩
  | 39 => ⟨S1048576x1, .f32⟩
  | 40 => ⟨S1048576, .f32⟩
  | 41 => ⟨S_, .f32⟩
  | 42 => ⟨S1048576, .f32⟩
  | 43 => ⟨S1048576, .f32⟩
  | 44 => ⟨S_, .f32⟩
  | 45 => ⟨S1048576, .f32⟩
  | 46 => ⟨S1048576, .f32⟩
  | 47 => ⟨S_, .f32⟩
  | 48 => ⟨S1048576, .f32⟩
  | 49 => ⟨S1048576, .f32⟩
  | 50 => ⟨S_, .f32⟩
  | 51 => ⟨S1048576, .f32⟩
  | 52 => ⟨S1048576, .f32⟩
  | 53 => ⟨S_, .f32⟩
  | 54 => ⟨S1048576, .f32⟩
  | 55 => ⟨S1048576, .f32⟩
  | 56 => ⟨S_, .f32⟩
  | 57 => ⟨S1048576, .f32⟩
  | 58 => ⟨S1048576, .f32⟩
  | 59 => ⟨S1048576, .f32⟩
  | 60 => ⟨S1048576, .f32⟩
  | 61 => ⟨S1048576, .f32⟩
  | 62 => ⟨S1x1048576, .f32⟩
  | 63 => ⟨S1048576, .f32⟩
  | 64 => ⟨S1x1048576, .f32⟩
  | 65 => ⟨S1048576, .i32⟩
  | 66 => ⟨S_, .i32⟩
  | 67 => ⟨S_, .i32⟩
  | 68 => ⟨S_, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S_, .i32⟩
  | 75 => ⟨S1048576, .i32⟩
  | 76 => ⟨S1048576, .i32⟩
  | 77 => ⟨S_, .i32⟩
  | 78 => ⟨S_, .i32⟩
  | 79 => ⟨S_, .i32⟩
  | 80 => ⟨S1048576, .i32⟩
  | 81 => ⟨S1048576, .i32⟩
  | 82 => ⟨S_, .i32⟩
  | 83 => ⟨S1048576, .i32⟩
  | 84 => ⟨S1048576, .i32⟩
  | 85 => ⟨S1048576, .i32⟩
  | 86 => ⟨S_, .i32⟩
  | 87 => ⟨S_, .i32⟩
  | 88 => ⟨S_, .i32⟩
  | 89 => ⟨S1048576, .i32⟩
  | 90 => ⟨S1048576, .i32⟩
  | 91 => ⟨S_, .i32⟩
  | 92 => ⟨S1048576, .i32⟩
  | 93 => ⟨S1048576, .i32⟩
  | 94 => ⟨S_, .i32⟩
  | 95 => ⟨S1048576, .i32⟩
  | 96 => ⟨S1048576, .i32⟩
  | 97 => ⟨S_, .i32⟩
  | 98 => ⟨S_, .i32⟩
  | 99 => ⟨S_, .i32⟩
  | 100 => ⟨S1048576, .i32⟩
  | 101 => ⟨S1048576, .i32⟩
  | 102 => ⟨S_, .i32⟩
  | 103 => ⟨S1048576, .i32⟩
  | 104 => ⟨S1048576, .i32⟩
  | 105 => ⟨S_, .i32⟩
  | 106 => ⟨S1048576, .i32⟩
  | 107 => ⟨S1048576, .i1⟩
  | 108 => ⟨S_, .i32⟩
  | 109 => ⟨S1048576, .i32⟩
  | 110 => ⟨S1048576, .i32⟩
  | 111 => ⟨S1048576, .i32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S1048576x1, .i32⟩
  | 120 => ⟨S1048576x1, .i32⟩
  | 121 => ⟨S1048576x2, .i32⟩
  | 122 => ⟨S32x1048576, .f32⟩
  | 123 => ⟨S_, .i32⟩
  | 124 => ⟨S1048576, .i32⟩
  | 125 => ⟨S1048576, .i1⟩
  | 126 => ⟨S_, .i32⟩
  | 127 => ⟨S1048576, .i32⟩
  | _ => ⟨S1048576x3, .f32⟩

abbrev hbmTy0_1 (i : Nat) : BufTy := match i % 128 with
  | 0 => ⟨S1048576, .i32⟩
  | 1 => ⟨S1048576, .i32⟩
  | 2 => ⟨S_, .i32⟩
  | 3 => ⟨S1048576, .i32⟩
  | 4 => ⟨S1048576, .i1⟩
  | 5 => ⟨S_, .i32⟩
  | 6 => ⟨S1048576, .i32⟩
  | 7 => ⟨S1048576, .i32⟩
  | 8 => ⟨S1048576, .i32⟩
  | 9 => ⟨S1048576x1, .i32⟩
  | 10 => ⟨S1048576x1, .i32⟩
  | 11 => ⟨S1048576x2, .i32⟩
  | 12 => ⟨S32x1048576, .f32⟩
  | 13 => ⟨S_, .i32⟩
  | 14 => ⟨S1048576, .i32⟩
  | 15 => ⟨S1048576, .i1⟩
  | 16 => ⟨S_, .i32⟩
  | 17 => ⟨S1048576, .i32⟩
  | 18 => ⟨S1048576, .i32⟩
  | 19 => ⟨S1048576, .i32⟩
  | 20 => ⟨S_, .i32⟩
  | 21 => ⟨S1048576, .i32⟩
  | 22 => ⟨S1048576, .i1⟩
  | 23 => ⟨S_, .i32⟩
  | 24 => ⟨S1048576, .i32⟩
  | 25 => ⟨S1048576, .i32⟩
  | 26 => ⟨S1048576, .i32⟩
  | 27 => ⟨S1048576x1, .i32⟩
  | 28 => ⟨S1048576x1, .i32⟩
  | 29 => ⟨S1048576x2, .i32⟩
  | 30 => ⟨S32x1048576, .f32⟩
  | 31 => ⟨S_, .i32⟩
  | 32 => ⟨S1048576, .i32⟩
  | 33 => ⟨S1048576, .i1⟩
  | 34 => ⟨S_, .i32⟩
  | 35 => ⟨S1048576, .i32⟩
  | 36 => ⟨S1048576, .i32⟩
  | 37 => ⟨S1048576, .i32⟩
  | 38 => ⟨S_, .i32⟩
  | 39 => ⟨S1048576, .i32⟩
  | 40 => ⟨S1048576, .i1⟩
  | 41 => ⟨S_, .i32⟩
  | 42 => ⟨S1048576, .i32⟩
  | 43 => ⟨S1048576, .i32⟩
  | 44 => ⟨S1048576, .i32⟩
  | 45 => ⟨S1048576x1, .i32⟩
  | 46 => ⟨S1048576x1, .i32⟩
  | 47 => ⟨S1048576x2, .i32⟩
  | 48 => ⟨S32x1048576, .f32⟩
  | 49 => ⟨S_, .f32⟩
  | 50 => ⟨S1x1048576, .f32⟩
  | 51 => ⟨S1x1048576, .f32⟩
  | 52 => ⟨S32x1048576, .f32⟩
  | 53 => ⟨S32x1048576, .f32⟩
  | 54 => ⟨S_, .f32⟩
  | 55 => ⟨S1x1048576, .f32⟩
  | 56 => ⟨S1x1048576, .f32⟩
  | 57 => ⟨S32x1048576, .f32⟩
  | 58 => ⟨S32x1048576, .f32⟩
  | 59 => ⟨S32x1048576, .f32⟩
  | 60 => ⟨S32x1048576, .f32⟩
  | 61 => ⟨S_, .f32⟩
  | 62 => ⟨S1x1048576, .f32⟩
  | 63 => ⟨S1x1048576, .f32⟩
  | 64 => ⟨S32x1048576, .f32⟩
  | 65 => ⟨S32x1048576, .f32⟩
  | 66 => ⟨S32x1048576, .f32⟩
  | 67 => ⟨S_, .f32⟩
  | 68 => ⟨S1x1048576, .f32⟩
  | 69 => ⟨S1x1048576, .f32⟩
  | 70 => ⟨S32x1048576, .f32⟩
  | 71 => ⟨S32x1048576, .f32⟩
  | 72 => ⟨S32x1048576, .f32⟩
  | 73 => ⟨S32x1048576, .f32⟩
  | 74 => ⟨S32x1048576, .f32⟩
  | 75 => ⟨S32x1048576, .f32⟩
  | 76 => ⟨S32x1048576, .f32⟩
  | 77 => ⟨S32x1048576, .f32⟩
  | 78 => ⟨S32x1048576, .f32⟩
  | 79 => ⟨S32x1048576, .f32⟩
  | 80 => ⟨S1048576x32, .f32⟩
  | 81 => ⟨S_, .f32⟩
  | 82 => ⟨S1048576, .f32⟩
  | 83 => ⟨S1048576, .f32⟩
  | 84 => ⟨S_, .f32⟩
  | 85 => ⟨S1048576, .f32⟩
  | 86 => ⟨S1048576, .f32⟩
  | 87 => ⟨S_, .f32⟩
  | 88 => ⟨S1048576, .f32⟩
  | 89 => ⟨S1048576, .f32⟩
  | 90 => ⟨S_, .f32⟩
  | 91 => ⟨S1048576, .f32⟩
  | 92 => ⟨S1048576, .f32⟩
  | 93 => ⟨S_, .f32⟩
  | 94 => ⟨S1048576, .f32⟩
  | 95 => ⟨S1048576, .f32⟩
  | 96 => ⟨S_, .f32⟩
  | 97 => ⟨S1048576, .f32⟩
  | 98 => ⟨S1048576, .f32⟩
  | 99 => ⟨S1048576, .f32⟩
  | 100 => ⟨S1048576, .f32⟩
  | 101 => ⟨S1048576, .f32⟩
  | 102 => ⟨S1x1048576, .f32⟩
  | 103 => ⟨S1048576, .f32⟩
  | 104 => ⟨S1x1048576, .f32⟩
  | 105 => ⟨S1048576, .i32⟩
  | 106 => ⟨S_, .i32⟩
  | 107 => ⟨S_, .i32⟩
  | 108 => ⟨S_, .i32⟩
  | 109 => ⟨S1048576, .i32⟩
  | 110 => ⟨S1048576, .i32⟩
  | 111 => ⟨S_, .i32⟩
  | 112 => ⟨S1048576, .i32⟩
  | 113 => ⟨S1048576, .i32⟩
  | 114 => ⟨S_, .i32⟩
  | 115 => ⟨S1048576, .i32⟩
  | 116 => ⟨S1048576, .i32⟩
  | 117 => ⟨S_, .i32⟩
  | 118 => ⟨S_, .i32⟩
  | 119 => ⟨S_, .i32⟩
  | 120 => ⟨S1048576, .i32⟩
  | 121 => ⟨S1048576, .i32⟩
  | 122 => ⟨S_, .i32⟩
  | 123 => ⟨S1048576, .i32⟩
  | 124 => ⟨S1048576, .i32⟩
  | 125 => ⟨S1048576, .i32⟩
  | 126 => ⟨S_, .i32⟩
  | 127 => ⟨S_, .i32⟩
  | _ => ⟨S1048576x3, .f32⟩

abbrev hbmTy0_2 (i : Nat) : BufTy := match i % 128 with
  | 0 => ⟨S_, .i32⟩
  | 1 => ⟨S1048576, .i32⟩
  | 2 => ⟨S1048576, .i32⟩
  | 3 => ⟨S_, .i32⟩
  | 4 => ⟨S1048576, .i32⟩
  | 5 => ⟨S1048576, .i32⟩
  | 6 => ⟨S_, .i32⟩
  | 7 => ⟨S1048576, .i32⟩
  | 8 => ⟨S1048576, .i32⟩
  | 9 => ⟨S_, .i32⟩
  | 10 => ⟨S_, .i32⟩
  | 11 => ⟨S_, .i32⟩
  | 12 => ⟨S1048576, .i32⟩
  | 13 => ⟨S1048576, .i32⟩
  | 14 => ⟨S_, .i32⟩
  | 15 => ⟨S1048576, .i32⟩
  | 16 => ⟨S1048576, .i32⟩
  | 17 => ⟨S_, .i32⟩
  | 18 => ⟨S1048576, .i32⟩
  | 19 => ⟨S1048576, .i1⟩
  | 20 => ⟨S_, .i32⟩
  | 21 => ⟨S1048576, .i32⟩
  | 22 => ⟨S1048576, .i32⟩
  | 23 => ⟨S1048576, .i32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i32⟩
  | 30 => ⟨S1048576, .i32⟩
  | 31 => ⟨S1048576x1, .i32⟩
  | 32 => ⟨S1048576x1, .i32⟩
  | 33 => ⟨S1048576x2, .i32⟩
  | 34 => ⟨S32x1048576, .f32⟩
  | 35 => ⟨S_, .i32⟩
  | 36 => ⟨S1048576, .i32⟩
  | 37 => ⟨S1048576, .i1⟩
  | 38 => ⟨S_, .i32⟩
  | 39 => ⟨S1048576, .i32⟩
  | 40 => ⟨S1048576, .i32⟩
  | 41 => ⟨S1048576, .i32⟩
  | 42 => ⟨S_, .i32⟩
  | 43 => ⟨S1048576, .i32⟩
  | 44 => ⟨S1048576, .i1⟩
  | 45 => ⟨S_, .i32⟩
  | 46 => ⟨S1048576, .i32⟩
  | 47 => ⟨S1048576, .i32⟩
  | 48 => ⟨S1048576, .i32⟩
  | 49 => ⟨S1048576x1, .i32⟩
  | 50 => ⟨S1048576x1, .i32⟩
  | 51 => ⟨S1048576x2, .i32⟩
  | 52 => ⟨S32x1048576, .f32⟩
  | 53 => ⟨S_, .i32⟩
  | 54 => ⟨S1048576, .i32⟩
  | 55 => ⟨S1048576, .i1⟩
  | 56 => ⟨S_, .i32⟩
  | 57 => ⟨S1048576, .i32⟩
  | 58 => ⟨S1048576, .i32⟩
  | 59 => ⟨S1048576, .i32⟩
  | 60 => ⟨S_, .i32⟩
  | 61 => ⟨S1048576, .i32⟩
  | 62 => ⟨S1048576, .i1⟩
  | 63 => ⟨S_, .i32⟩
  | 64 => ⟨S1048576, .i32⟩
  | 65 => ⟨S1048576, .i32⟩
  | 66 => ⟨S1048576, .i32⟩
  | 67 => ⟨S1048576x1, .i32⟩
  | 68 => ⟨S1048576x1, .i32⟩
  | 69 => ⟨S1048576x2, .i32⟩
  | 70 => ⟨S32x1048576, .f32⟩
  | 71 => ⟨S_, .i32⟩
  | 72 => ⟨S1048576, .i32⟩
  | 73 => ⟨S1048576, .i1⟩
  | 74 => ⟨S_, .i32⟩
  | 75 => ⟨S1048576, .i32⟩
  | 76 => ⟨S1048576, .i32⟩
  | 77 => ⟨S1048576, .i32⟩
  | 78 => ⟨S_, .i32⟩
  | 79 => ⟨S1048576, .i32⟩
  | 80 => ⟨S1048576, .i1⟩
  | 81 => ⟨S_, .i32⟩
  | 82 => ⟨S1048576, .i32⟩
  | 83 => ⟨S1048576, .i32⟩
  | 84 => ⟨S1048576, .i32⟩
  | 85 => ⟨S1048576x1, .i32⟩
  | 86 => ⟨S1048576x1, .i32⟩
  | 87 => ⟨S1048576x2, .i32⟩
  | 88 => ⟨S32x1048576, .f32⟩
  | 89 => ⟨S_, .f32⟩
  | 90 => ⟨S1x1048576, .f32⟩
  | 91 => ⟨S1x1048576, .f32⟩
  | 92 => ⟨S32x1048576, .f32⟩
  | 93 => ⟨S32x1048576, .f32⟩
  | 94 => ⟨S_, .f32⟩
  | 95 => ⟨S1x1048576, .f32⟩
  | 96 => ⟨S1x1048576, .f32⟩
  | 97 => ⟨S32x1048576, .f32⟩
  | 98 => ⟨S32x1048576, .f32⟩
  | 99 => ⟨S32x1048576, .f32⟩
  | 100 => ⟨S32x1048576, .f32⟩
  | 101 => ⟨S_, .f32⟩
  | 102 => ⟨S1x1048576, .f32⟩
  | 103 => ⟨S1x1048576, .f32⟩
  | 104 => ⟨S32x1048576, .f32⟩
  | 105 => ⟨S32x1048576, .f32⟩
  | 106 => ⟨S32x1048576, .f32⟩
  | 107 => ⟨S_, .f32⟩
  | 108 => ⟨S1x1048576, .f32⟩
  | 109 => ⟨S1x1048576, .f32⟩
  | 110 => ⟨S32x1048576, .f32⟩
  | 111 => ⟨S32x1048576, .f32⟩
  | 112 => ⟨S32x1048576, .f32⟩
  | 113 => ⟨S32x1048576, .f32⟩
  | 114 => ⟨S32x1048576, .f32⟩
  | 115 => ⟨S32x1048576, .f32⟩
  | 116 => ⟨S32x1048576, .f32⟩
  | 117 => ⟨S32x1048576, .f32⟩
  | 118 => ⟨S32x1048576, .f32⟩
  | 119 => ⟨S32x1048576, .f32⟩
  | 120 => ⟨S1048576x32, .f32⟩
  | 121 => ⟨S_, .f32⟩
  | 122 => ⟨S1048576, .f32⟩
  | 123 => ⟨S1048576, .f32⟩
  | 124 => ⟨S_, .f32⟩
  | 125 => ⟨S1048576, .f32⟩
  | 126 => ⟨S1048576, .f32⟩
  | 127 => ⟨S_, .f32⟩
  | _ => ⟨S1048576x3, .f32⟩

abbrev hbmTy0_3 (i : Nat) : BufTy := match i % 128 with
  | 0 => ⟨S1048576, .f32⟩
  | 1 => ⟨S1048576, .f32⟩
  | 2 => ⟨S_, .f32⟩
  | 3 => ⟨S1048576, .f32⟩
  | 4 => ⟨S1048576, .f32⟩
  | 5 => ⟨S_, .f32⟩
  | 6 => ⟨S1048576, .f32⟩
  | 7 => ⟨S1048576, .f32⟩
  | 8 => ⟨S_, .f32⟩
  | 9 => ⟨S1048576, .f32⟩
  | 10 => ⟨S1048576, .f32⟩
  | 11 => ⟨S1048576, .f32⟩
  | 12 => ⟨S1048576, .f32⟩
  | 13 => ⟨S1048576, .f32⟩
  | 14 => ⟨S1x1048576, .f32⟩
  | 15 => ⟨S1048576, .f32⟩
  | 16 => ⟨S1x1048576, .f32⟩
  | 17 => ⟨S1048576, .i32⟩
  | 18 => ⟨S_, .i32⟩
  | 19 => ⟨S_, .i32⟩
  | 20 => ⟨S_, .i32⟩
  | 21 => ⟨S1048576, .i32⟩
  | 22 => ⟨S1048576, .i32⟩
  | 23 => ⟨S_, .i32⟩
  | 24 => ⟨S1048576, .i32⟩
  | 25 => ⟨S1048576, .i32⟩
  | 26 => ⟨S_, .i32⟩
  | 27 => ⟨S1048576, .i32⟩
  | 28 => ⟨S1048576, .i32⟩
  | 29 => ⟨S_, .i32⟩
  | 30 => ⟨S_, .i32⟩
  | 31 => ⟨S_, .i32⟩
  | 32 => ⟨S1048576, .i32⟩
  | 33 => ⟨S1048576, .i32⟩
  | 34 => ⟨S_, .i32⟩
  | 35 => ⟨S1048576, .i32⟩
  | 36 => ⟨S1048576, .i32⟩
  | 37 => ⟨S1048576, .i32⟩
  | 38 => ⟨S_, .i32⟩
  | 39 => ⟨S_, .i32⟩
  | 40 => ⟨S_, .i32⟩
  | 41 => ⟨S1048576, .i32⟩
  | 42 => ⟨S1048576, .i32⟩
  | 43 => ⟨S_, .i32⟩
  | 44 => ⟨S1048576, .i32⟩
  | 45 => ⟨S1048576, .i32⟩
  | 46 => ⟨S_, .i32⟩
  | 47 => ⟨S1048576, .i32⟩
  | 48 => ⟨S1048576, .i32⟩
  | 49 => ⟨S_, .i32⟩
  | 50 => ⟨S_, .i32⟩
  | 51 => ⟨S_, .i32⟩
  | 52 => ⟨S1048576, .i32⟩
  | 53 => ⟨S1048576, .i32⟩
  | 54 => ⟨S_, .i32⟩
  | 55 => ⟨S1048576, .i32⟩
  | 56 => ⟨S1048576, .i32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i32⟩
  | 63 => ⟨S1048576, .i32⟩
  | 64 => ⟨S_, .i32⟩
  | 65 => ⟨S1048576, .i32⟩
  | 66 => ⟨S1048576, .i1⟩
  | 67 => ⟨S_, .i32⟩
  | 68 => ⟨S1048576, .i32⟩
  | 69 => ⟨S1048576, .i32⟩
  | 70 => ⟨S1048576, .i32⟩
  | 71 => ⟨S1048576x1, .i32⟩
  | 72 => ⟨S1048576x1, .i32⟩
  | 73 => ⟨S1048576x2, .i32⟩
  | 74 => ⟨S32x1048576, .f32⟩
  | 75 => ⟨S_, .i32⟩
  | 76 => ⟨S1048576, .i32⟩
  | 77 => ⟨S1048576, .i1⟩
  | 78 => ⟨S_, .i32⟩
  | 79 => ⟨S1048576, .i32⟩
  | 80 => ⟨S1048576, .i32⟩
  | 81 => ⟨S1048576, .i32⟩
  | 82 => ⟨S_, .i32⟩
  | 83 => ⟨S1048576, .i32⟩
  | 84 => ⟨S1048576, .i1⟩
  | 85 => ⟨S_, .i32⟩
  | 86 => ⟨S1048576, .i32⟩
  | 87 => ⟨S1048576, .i32⟩
  | 88 => ⟨S1048576, .i32⟩
  | 89 => ⟨S1048576x1, .i32⟩
  | 90 => ⟨S1048576x1, .i32⟩
  | 91 => ⟨S1048576x2, .i32⟩
  | 92 => ⟨S32x1048576, .f32⟩
  | 93 => ⟨S_, .i32⟩
  | 94 => ⟨S1048576, .i32⟩
  | 95 => ⟨S1048576, .i1⟩
  | 96 => ⟨S_, .i32⟩
  | 97 => ⟨S1048576, .i32⟩
  | 98 => ⟨S1048576, .i32⟩
  | 99 => ⟨S1048576, .i32⟩
  | 100 => ⟨S_, .i32⟩
  | 101 => ⟨S1048576, .i32⟩
  | 102 => ⟨S1048576, .i1⟩
  | 103 => ⟨S_, .i32⟩
  | 104 => ⟨S1048576, .i32⟩
  | 105 => ⟨S1048576, .i32⟩
  | 106 => ⟨S1048576, .i32⟩
  | 107 => ⟨S1048576x1, .i32⟩
  | 108 => ⟨S1048576x1, .i32⟩
  | 109 => ⟨S1048576x2, .i32⟩
  | 110 => ⟨S32x1048576, .f32⟩
  | 111 => ⟨S_, .i32⟩
  | 112 => ⟨S1048576, .i32⟩
  | 113 => ⟨S1048576, .i1⟩
  | 114 => ⟨S_, .i32⟩
  | 115 => ⟨S1048576, .i32⟩
  | 116 => ⟨S1048576, .i32⟩
  | 117 => ⟨S1048576, .i32⟩
  | 118 => ⟨S_, .i32⟩
  | 119 => ⟨S1048576, .i32⟩
  | 120 => ⟨S1048576, .i1⟩
  | 121 => ⟨S_, .i32⟩
  | 122 => ⟨S1048576, .i32⟩
  | 123 => ⟨S1048576, .i32⟩
  | 124 => ⟨S1048576, .i32⟩
  | 125 => ⟨S1048576x1, .i32⟩
  | 126 => ⟨S1048576x1, .i32⟩
  | 127 => ⟨S1048576x2, .i32⟩
  | _ => ⟨S1048576x3, .f32⟩

abbrev hbmTy0_4 (i : Nat) : BufTy := match i % 128 with
  | 0 => ⟨S32x1048576, .f32⟩
  | 1 => ⟨S_, .f32⟩
  | 2 => ⟨S1x1048576, .f32⟩
  | 3 => ⟨S1x1048576, .f32⟩
  | 4 => ⟨S32x1048576, .f32⟩
  | 5 => ⟨S32x1048576, .f32⟩
  | 6 => ⟨S_, .f32⟩
  | 7 => ⟨S1x1048576, .f32⟩
  | 8 => ⟨S1x1048576, .f32⟩
  | 9 => ⟨S32x1048576, .f32⟩
  | 10 => ⟨S32x1048576, .f32⟩
  | 11 => ⟨S32x1048576, .f32⟩
  | 12 => ⟨S32x1048576, .f32⟩
  | 13 => ⟨S_, .f32⟩
  | 14 => ⟨S1x1048576, .f32⟩
  | 15 => ⟨S1x1048576, .f32⟩
  | 16 => ⟨S32x1048576, .f32⟩
  | 17 => ⟨S32x1048576, .f32⟩
  | 18 => ⟨S32x1048576, .f32⟩
  | 19 => ⟨S_, .f32⟩
  | 20 => ⟨S1x1048576, .f32⟩
  | 21 => ⟨S1x1048576, .f32⟩
  | 22 => ⟨S32x1048576, .f32⟩
  | 23 => ⟨S32x1048576, .f32⟩
  | 24 => ⟨S32x1048576, .f32⟩
  | 25 => ⟨S32x1048576, .f32⟩
  | 26 => ⟨S32x1048576, .f32⟩
  | 27 => ⟨S32x1048576, .f32⟩
  | 28 => ⟨S32x1048576, .f32⟩
  | 29 => ⟨S32x1048576, .f32⟩
  | 30 => ⟨S32x1048576, .f32⟩
  | 31 => ⟨S32x1048576, .f32⟩
  | 32 => ⟨S1048576x32, .f32⟩
  | 33 => ⟨S1048576x96, .f32⟩
  | 34 => ⟨S1048576x1, .f32⟩
  | 35 => ⟨S1048576x3, .f32⟩
  | 36 => ⟨S1048576, .f32⟩
  | _ => ⟨S1048576x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1048576x3, .f32⟩

abbrev bufTy : (tb : Table) → Fin (tcTables nBuf tb) → BufTy
  | .hbm, ⟨i, _⟩ => hbmTy i
  | .local _ .vmem, ⟨0, _⟩ => ⟨S8192x96, .f32⟩
  | .local _ .vmem, ⟨1, _⟩ => ⟨S8192x96, .f32⟩
  | .local _ .vmem, ⟨2, _⟩ => ⟨S96x64, .f32⟩
  | .local _ .vmem, ⟨3, _⟩ => ⟨S64x16, .f32⟩
  | .local _ .vmem, ⟨4, _⟩ => ⟨S15x64, .f32⟩
  | .local _ .vmem, ⟨5, _⟩ => ⟨S64x64, .f32⟩
  | .local _ .vmem, ⟨6, _⟩ => ⟨S64x3, .f32⟩
  | .local _ .vmem, ⟨7, _⟩ => ⟨S8192x1, .f32⟩
  | .local _ .vmem, ⟨8, _⟩ => ⟨S8192x1, .f32⟩
  | .local _ .vmem, ⟨9, _⟩ => ⟨S8192x3, .f32⟩
  | .local _ .vmem, ⟨10, _⟩ => ⟨S8192x3, .f32⟩
  | _, _ => ⟨S1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_cst_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_cst_7 : Ref sig .tc := ⟨.hbm, 50, rfl⟩
abbrev main_v25 : Ref sig .tc := ⟨.hbm, 51, rfl⟩
abbrev main_v26 : Ref sig .tc := ⟨.hbm, 52, rfl⟩
abbrev main_cst_8 : Ref sig .tc := ⟨.hbm, 53, rfl⟩
abbrev main_v27 : Ref sig .tc := ⟨.hbm, 54, rfl⟩
abbrev main_v28 : Ref sig .tc := ⟨.hbm, 55, rfl⟩
abbrev main_cst_9 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c : Ref sig .tc := ⟨.hbm, 66, rfl⟩
abbrev main_c_10 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v38 : Ref sig .tc := ⟨.hbm, 73, rfl⟩
abbrev main_c_11 : Ref sig .tc := ⟨.hbm, 74, rfl⟩
abbrev main_v39 : Ref sig .tc := ⟨.hbm, 75, rfl⟩
abbrev main_v40 : Ref sig .tc := ⟨.hbm, 76, rfl⟩
abbrev main_c_12 : Ref sig .tc := ⟨.hbm, 77, rfl⟩
abbrev main_c_13 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v41 : Ref sig .tc := ⟨.hbm, 84, rfl⟩
abbrev main_v42 : Ref sig .tc := ⟨.hbm, 85, rfl⟩
abbrev main_c_14 : Ref sig .tc := ⟨.hbm, 86, rfl⟩
abbrev main_c_15 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_v43 : Ref sig .tc := ⟨.hbm, 93, rfl⟩
abbrev main_c_16 : Ref sig .tc := ⟨.hbm, 94, rfl⟩
abbrev main_v44 : Ref sig .tc := ⟨.hbm, 95, rfl⟩
abbrev main_v45 : Ref sig .tc := ⟨.hbm, 96, rfl⟩
abbrev main_c_17 : Ref sig .tc := ⟨.hbm, 97, rfl⟩
abbrev main_c_18 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_v46 : Ref sig .tc := ⟨.hbm, 104, rfl⟩
abbrev main_c_19 : Ref sig .tc := ⟨.hbm, 105, rfl⟩
abbrev main_v47 : Ref sig .tc := ⟨.hbm, 106, rfl⟩
abbrev main_v48 : Ref sig .tc := ⟨.hbm, 107, rfl⟩
abbrev main_c_20 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_c_21 : Ref sig .tc := ⟨.hbm, 112, rfl⟩
abbrev main_v52 : Ref sig .tc := ⟨.hbm, 113, rfl⟩
abbrev main_v53 : Ref sig .tc := ⟨.hbm, 114, rfl⟩
abbrev main_c_22 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_c_23 : Ref sig .tc := ⟨.hbm, 123, rfl⟩
abbrev main_v61 : Ref sig .tc := ⟨.hbm, 124, rfl⟩
abbrev main_v62 : Ref sig .tc := ⟨.hbm, 125, rfl⟩
abbrev main_c_24 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_c_25 : Ref sig .tc := ⟨.hbm, 130, rfl⟩
abbrev main_v66 : Ref sig .tc := ⟨.hbm, 131, rfl⟩
abbrev main_v67 : Ref sig .tc := ⟨.hbm, 132, rfl⟩
abbrev main_c_26 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_c_27 : Ref sig .tc := ⟨.hbm, 141, rfl⟩
abbrev main_v75 : Ref sig .tc := ⟨.hbm, 142, rfl⟩
abbrev main_v76 : Ref sig .tc := ⟨.hbm, 143, rfl⟩
abbrev main_c_28 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_c_29 : Ref sig .tc := ⟨.hbm, 148, rfl⟩
abbrev main_v80 : Ref sig .tc := ⟨.hbm, 149, rfl⟩
abbrev main_v81 : Ref sig .tc := ⟨.hbm, 150, rfl⟩
abbrev main_c_30 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_c_31 : Ref sig .tc := ⟨.hbm, 159, rfl⟩
abbrev main_v89 : Ref sig .tc := ⟨.hbm, 160, rfl⟩
abbrev main_v90 : Ref sig .tc := ⟨.hbm, 161, rfl⟩
abbrev main_c_32 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_c_33 : Ref sig .tc := ⟨.hbm, 166, rfl⟩
abbrev main_v94 : Ref sig .tc := ⟨.hbm, 167, rfl⟩
abbrev main_v95 : Ref sig .tc := ⟨.hbm, 168, rfl⟩
abbrev main_c_34 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_cst_35 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_cst_36 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_cst_37 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_cst_38 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_cst_39 : Ref sig .tc := ⟨.hbm, 209, rfl⟩
abbrev main_v131 : Ref sig .tc := ⟨.hbm, 210, rfl⟩
abbrev main_v132 : Ref sig .tc := ⟨.hbm, 211, rfl⟩
abbrev main_cst_40 : Ref sig .tc := ⟨.hbm, 212, rfl⟩
abbrev main_v133 : Ref sig .tc := ⟨.hbm, 213, rfl⟩
abbrev main_v134 : Ref sig .tc := ⟨.hbm, 214, rfl⟩
abbrev main_cst_41 : Ref sig .tc := ⟨.hbm, 215, rfl⟩
abbrev main_v135 : Ref sig .tc := ⟨.hbm, 216, rfl⟩
abbrev main_v136 : Ref sig .tc := ⟨.hbm, 217, rfl⟩
abbrev main_cst_42 : Ref sig .tc := ⟨.hbm, 218, rfl⟩
abbrev main_v137 : Ref sig .tc := ⟨.hbm, 219, rfl⟩
abbrev main_v138 : Ref sig .tc := ⟨.hbm, 220, rfl⟩
abbrev main_cst_43 : Ref sig .tc := ⟨.hbm, 221, rfl⟩
abbrev main_v139 : Ref sig .tc := ⟨.hbm, 222, rfl⟩
abbrev main_v140 : Ref sig .tc := ⟨.hbm, 223, rfl⟩
abbrev main_cst_44 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_c_45 : Ref sig .tc := ⟨.hbm, 234, rfl⟩
abbrev main_c_46 : Ref sig .tc := ⟨.hbm, 235, rfl⟩
abbrev main_call5_v0 : Ref sig .tc := ⟨.hbm, 236, rfl⟩
abbrev main_call5_v1 : Ref sig .tc := ⟨.hbm, 237, rfl⟩
abbrev main_call5_v2 : Ref sig .tc := ⟨.hbm, 238, rfl⟩
abbrev main_call5_v3 : Ref sig .tc := ⟨.hbm, 239, rfl⟩
abbrev main_call5_v4 : Ref sig .tc := ⟨.hbm, 240, rfl⟩
abbrev main_v150 : Ref sig .tc := ⟨.hbm, 241, rfl⟩
abbrev main_c_47 : Ref sig .tc := ⟨.hbm, 242, rfl⟩
abbrev main_v151 : Ref sig .tc := ⟨.hbm, 243, rfl⟩
abbrev main_v152 : Ref sig .tc := ⟨.hbm, 244, rfl⟩
abbrev main_c_48 : Ref sig .tc := ⟨.hbm, 245, rfl⟩
abbrev main_c_49 : Ref sig .tc := ⟨.hbm, 246, rfl⟩
abbrev main_call6_v0 : Ref sig .tc := ⟨.hbm, 247, rfl⟩
abbrev main_call6_v1 : Ref sig .tc := ⟨.hbm, 248, rfl⟩
abbrev main_call6_v2 : Ref sig .tc := ⟨.hbm, 249, rfl⟩
abbrev main_call6_v3 : Ref sig .tc := ⟨.hbm, 250, rfl⟩
abbrev main_call6_v4 : Ref sig .tc := ⟨.hbm, 251, rfl⟩
abbrev main_v153 : Ref sig .tc := ⟨.hbm, 252, rfl⟩
abbrev main_v154 : Ref sig .tc := ⟨.hbm, 253, rfl⟩
abbrev main_c_50 : Ref sig .tc := ⟨.hbm, 254, rfl⟩
abbrev main_c_51 : Ref sig .tc := ⟨.hbm, 255, rfl⟩
abbrev main_call7_v0 : Ref sig .tc := ⟨.hbm, 256, rfl⟩
abbrev main_call7_v1 : Ref sig .tc := ⟨.hbm, 257, rfl⟩
abbrev main_call7_v2 : Ref sig .tc := ⟨.hbm, 258, rfl⟩
abbrev main_call7_v3 : Ref sig .tc := ⟨.hbm, 259, rfl⟩
abbrev main_call7_v4 : Ref sig .tc := ⟨.hbm, 260, rfl⟩
abbrev main_v155 : Ref sig .tc := ⟨.hbm, 261, rfl⟩
abbrev main_c_52 : Ref sig .tc := ⟨.hbm, 262, rfl⟩
abbrev main_v156 : Ref sig .tc := ⟨.hbm, 263, rfl⟩
abbrev main_v157 : Ref sig .tc := ⟨.hbm, 264, rfl⟩
abbrev main_c_53 : Ref sig .tc := ⟨.hbm, 265, rfl⟩
abbrev main_c_54 : Ref sig .tc := ⟨.hbm, 266, rfl⟩
abbrev main_call8_v0 : Ref sig .tc := ⟨.hbm, 267, rfl⟩
abbrev main_call8_v1 : Ref sig .tc := ⟨.hbm, 268, rfl⟩
abbrev main_call8_v2 : Ref sig .tc := ⟨.hbm, 269, rfl⟩
abbrev main_call8_v3 : Ref sig .tc := ⟨.hbm, 270, rfl⟩
abbrev main_call8_v4 : Ref sig .tc := ⟨.hbm, 271, rfl⟩
abbrev main_v158 : Ref sig .tc := ⟨.hbm, 272, rfl⟩
abbrev main_c_55 : Ref sig .tc := ⟨.hbm, 273, rfl⟩
abbrev main_v159 : Ref sig .tc := ⟨.hbm, 274, rfl⟩
abbrev main_v160 : Ref sig .tc := ⟨.hbm, 275, rfl⟩
abbrev main_c_56 : Ref sig .tc := ⟨.hbm, 276, rfl⟩
abbrev main_v161 : Ref sig .tc := ⟨.hbm, 277, rfl⟩
abbrev main_v162 : Ref sig .tc := ⟨.hbm, 278, rfl⟩
abbrev main_v163 : Ref sig .tc := ⟨.hbm, 279, rfl⟩
abbrev main_c_57 : Ref sig .tc := ⟨.hbm, 280, rfl⟩
abbrev main_v164 : Ref sig .tc := ⟨.hbm, 281, rfl⟩
abbrev main_v165 : Ref sig .tc := ⟨.hbm, 282, rfl⟩
abbrev main_c_58 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_c_59 : Ref sig .tc := ⟨.hbm, 291, rfl⟩
abbrev main_v173 : Ref sig .tc := ⟨.hbm, 292, rfl⟩
abbrev main_v174 : Ref sig .tc := ⟨.hbm, 293, rfl⟩
abbrev main_c_60 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_c_61 : Ref sig .tc := ⟨.hbm, 298, rfl⟩
abbrev main_v178 : Ref sig .tc := ⟨.hbm, 299, rfl⟩
abbrev main_v179 : Ref sig .tc := ⟨.hbm, 300, rfl⟩
abbrev main_c_62 : Ref sig .tc := ⟨.hbm, 301, rfl⟩
abbrev main_v180 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_c_63 : Ref sig .tc := ⟨.hbm, 309, rfl⟩
abbrev main_v187 : Ref sig .tc := ⟨.hbm, 310, rfl⟩
abbrev main_v188 : Ref sig .tc := ⟨.hbm, 311, rfl⟩
abbrev main_c_64 : Ref sig .tc := ⟨.hbm, 312, rfl⟩
abbrev main_v189 : Ref sig .tc := ⟨.hbm, 313, rfl⟩
abbrev main_v190 : Ref sig .tc := ⟨.hbm, 314, rfl⟩
abbrev main_v191 : Ref sig .tc := ⟨.hbm, 315, rfl⟩
abbrev main_c_65 : Ref sig .tc := ⟨.hbm, 316, rfl⟩
abbrev main_v192 : Ref sig .tc := ⟨.hbm, 317, rfl⟩
abbrev main_v193 : Ref sig .tc := ⟨.hbm, 318, rfl⟩
abbrev main_c_66 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_v197 : Ref sig .tc := ⟨.hbm, 323, rfl⟩
abbrev main_v198 : Ref sig .tc := ⟨.hbm, 324, rfl⟩
abbrev main_v199 : Ref sig .tc := ⟨.hbm, 325, rfl⟩
abbrev main_v200 : Ref sig .tc := ⟨.hbm, 326, rfl⟩
abbrev main_c_67 : Ref sig .tc := ⟨.hbm, 327, rfl⟩
abbrev main_v201 : Ref sig .tc := ⟨.hbm, 328, rfl⟩
abbrev main_v202 : Ref sig .tc := ⟨.hbm, 329, rfl⟩
abbrev main_c_68 : Ref sig .tc := ⟨.hbm, 330, rfl⟩
abbrev main_v203 : Ref sig .tc := ⟨.hbm, 331, rfl⟩
abbrev main_v204 : Ref sig .tc := ⟨.hbm, 332, rfl⟩
abbrev main_v205 : Ref sig .tc := ⟨.hbm, 333, rfl⟩
abbrev main_c_69 : Ref sig .tc := ⟨.hbm, 334, rfl⟩
abbrev main_v206 : Ref sig .tc := ⟨.hbm, 335, rfl⟩
abbrev main_v207 : Ref sig .tc := ⟨.hbm, 336, rfl⟩
abbrev main_c_70 : Ref sig .tc := ⟨.hbm, 337, rfl⟩
abbrev main_v208 : Ref sig .tc := ⟨.hbm, 338, rfl⟩
abbrev main_v209 : Ref sig .tc := ⟨.hbm, 339, rfl⟩
abbrev main_v210 : Ref sig .tc := ⟨.hbm, 340, rfl⟩
abbrev main_v211 : Ref sig .tc := ⟨.hbm, 341, rfl⟩
abbrev main_v212 : Ref sig .tc := ⟨.hbm, 342, rfl⟩
abbrev main_v213 : Ref sig .tc := ⟨.hbm, 343, rfl⟩
abbrev main_v214 : Ref sig .tc := ⟨.hbm, 344, rfl⟩
abbrev main_cst_71 : Ref sig .tc := ⟨.hbm, 345, rfl⟩
abbrev main_v215 : Ref sig .tc := ⟨.hbm, 346, rfl⟩
abbrev main_v216 : Ref sig .tc := ⟨.hbm, 347, rfl⟩
abbrev main_v217 : Ref sig .tc := ⟨.hbm, 348, rfl⟩
abbrev main_v218 : Ref sig .tc := ⟨.hbm, 349, rfl⟩
abbrev main_cst_72 : Ref sig .tc := ⟨.hbm, 350, rfl⟩
abbrev main_v219 : Ref sig .tc := ⟨.hbm, 351, rfl⟩
abbrev main_v220 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_v224 : Ref sig .tc := ⟨.hbm, 356, rfl⟩
abbrev main_cst_73 : Ref sig .tc := ⟨.hbm, 357, rfl⟩
abbrev main_v225 : Ref sig .tc := ⟨.hbm, 358, rfl⟩
abbrev main_v226 : Ref sig .tc := ⟨.hbm, 359, rfl⟩
abbrev main_v227 : Ref sig .tc := ⟨.hbm, 360, rfl⟩
abbrev main_v228 : Ref sig .tc := ⟨.hbm, 361, rfl⟩
abbrev main_v229 : Ref sig .tc := ⟨.hbm, 362, rfl⟩
abbrev main_cst_74 : Ref sig .tc := ⟨.hbm, 363, rfl⟩
abbrev main_v230 : Ref sig .tc := ⟨.hbm, 364, rfl⟩
abbrev main_v231 : Ref sig .tc := ⟨.hbm, 365, rfl⟩
abbrev main_v232 : Ref sig .tc := ⟨.hbm, 366, rfl⟩
abbrev main_v233 : Ref sig .tc := ⟨.hbm, 367, rfl⟩
abbrev main_v234 : Ref sig .tc := ⟨.hbm, 368, rfl⟩
abbrev main_v235 : Ref sig .tc := ⟨.hbm, 369, rfl⟩
abbrev main_v236 : Ref sig .tc := ⟨.hbm, 370, rfl⟩
abbrev main_v237 : Ref sig .tc := ⟨.hbm, 371, rfl⟩
abbrev main_v238 : Ref sig .tc := ⟨.hbm, 372, rfl⟩
abbrev main_v239 : Ref sig .tc := ⟨.hbm, 373, rfl⟩
abbrev main_v240 : Ref sig .tc := ⟨.hbm, 374, rfl⟩
abbrev main_v241 : Ref sig .tc := ⟨.hbm, 375, rfl⟩
abbrev main_v242 : Ref sig .tc := ⟨.hbm, 376, rfl⟩
abbrev main_cst_75 : Ref sig .tc := ⟨.hbm, 377, rfl⟩
abbrev main_v243 : Ref sig .tc := ⟨.hbm, 378, rfl⟩
abbrev main_v244 : Ref sig .tc := ⟨.hbm, 379, rfl⟩
abbrev main_cst_76 : Ref sig .tc := ⟨.hbm, 380, rfl⟩
abbrev main_v245 : Ref sig .tc := ⟨.hbm, 381, rfl⟩
abbrev main_v246 : Ref sig .tc := ⟨.hbm, 382, rfl⟩
abbrev main_cst_77 : Ref sig .tc := ⟨.hbm, 383, rfl⟩
abbrev main_v247 : Ref sig .tc := ⟨.hbm, 384, rfl⟩
abbrev main_v248 : Ref sig .tc := ⟨.hbm, 385, rfl⟩
abbrev main_cst_78 : Ref sig .tc := ⟨.hbm, 386, rfl⟩
abbrev main_v249 : Ref sig .tc := ⟨.hbm, 387, rfl⟩
abbrev main_v250 : Ref sig .tc := ⟨.hbm, 388, rfl⟩
abbrev main_cst_79 : Ref sig .tc := ⟨.hbm, 389, rfl⟩
abbrev main_v251 : Ref sig .tc := ⟨.hbm, 390, rfl⟩
abbrev main_v252 : Ref sig .tc := ⟨.hbm, 391, rfl⟩
abbrev main_cst_80 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_v256 : Ref sig .tc := ⟨.hbm, 396, rfl⟩
abbrev main_v257 : Ref sig .tc := ⟨.hbm, 397, rfl⟩
abbrev main_v258 : Ref sig .tc := ⟨.hbm, 398, rfl⟩
abbrev main_v259 : Ref sig .tc := ⟨.hbm, 399, rfl⟩
abbrev main_v260 : Ref sig .tc := ⟨.hbm, 400, rfl⟩
abbrev main_v261 : Ref sig .tc := ⟨.hbm, 401, rfl⟩
abbrev main_c_81 : Ref sig .tc := ⟨.hbm, 402, rfl⟩
abbrev main_c_82 : Ref sig .tc := ⟨.hbm, 403, rfl⟩
abbrev main_call9_v0 : Ref sig .tc := ⟨.hbm, 404, rfl⟩
abbrev main_call9_v1 : Ref sig .tc := ⟨.hbm, 405, rfl⟩
abbrev main_call9_v2 : Ref sig .tc := ⟨.hbm, 406, rfl⟩
abbrev main_call9_v3 : Ref sig .tc := ⟨.hbm, 407, rfl⟩
abbrev main_call9_v4 : Ref sig .tc := ⟨.hbm, 408, rfl⟩
abbrev main_v262 : Ref sig .tc := ⟨.hbm, 409, rfl⟩
abbrev main_c_83 : Ref sig .tc := ⟨.hbm, 410, rfl⟩
abbrev main_v263 : Ref sig .tc := ⟨.hbm, 411, rfl⟩
abbrev main_v264 : Ref sig .tc := ⟨.hbm, 412, rfl⟩
abbrev main_c_84 : Ref sig .tc := ⟨.hbm, 413, rfl⟩
abbrev main_c_85 : Ref sig .tc := ⟨.hbm, 414, rfl⟩
abbrev main_call10_v0 : Ref sig .tc := ⟨.hbm, 415, rfl⟩
abbrev main_call10_v1 : Ref sig .tc := ⟨.hbm, 416, rfl⟩
abbrev main_call10_v2 : Ref sig .tc := ⟨.hbm, 417, rfl⟩
abbrev main_call10_v3 : Ref sig .tc := ⟨.hbm, 418, rfl⟩
abbrev main_call10_v4 : Ref sig .tc := ⟨.hbm, 419, rfl⟩
abbrev main_v265 : Ref sig .tc := ⟨.hbm, 420, rfl⟩
abbrev main_v266 : Ref sig .tc := ⟨.hbm, 421, rfl⟩
abbrev main_c_86 : Ref sig .tc := ⟨.hbm, 422, rfl⟩
abbrev main_c_87 : Ref sig .tc := ⟨.hbm, 423, rfl⟩
abbrev main_call11_v0 : Ref sig .tc := ⟨.hbm, 424, rfl⟩
abbrev main_call11_v1 : Ref sig .tc := ⟨.hbm, 425, rfl⟩
abbrev main_call11_v2 : Ref sig .tc := ⟨.hbm, 426, rfl⟩
abbrev main_call11_v3 : Ref sig .tc := ⟨.hbm, 427, rfl⟩
abbrev main_call11_v4 : Ref sig .tc := ⟨.hbm, 428, rfl⟩
abbrev main_v267 : Ref sig .tc := ⟨.hbm, 429, rfl⟩
abbrev main_c_88 : Ref sig .tc := ⟨.hbm, 430, rfl⟩
abbrev main_v268 : Ref sig .tc := ⟨.hbm, 431, rfl⟩
abbrev main_v269 : Ref sig .tc := ⟨.hbm, 432, rfl⟩
abbrev main_c_89 : Ref sig .tc := ⟨.hbm, 433, rfl⟩
abbrev main_c_90 : Ref sig .tc := ⟨.hbm, 434, rfl⟩
abbrev main_call12_v0 : Ref sig .tc := ⟨.hbm, 435, rfl⟩
abbrev main_call12_v1 : Ref sig .tc := ⟨.hbm, 436, rfl⟩
abbrev main_call12_v2 : Ref sig .tc := ⟨.hbm, 437, rfl⟩
abbrev main_call12_v3 : Ref sig .tc := ⟨.hbm, 438, rfl⟩
abbrev main_call12_v4 : Ref sig .tc := ⟨.hbm, 439, rfl⟩
abbrev main_v270 : Ref sig .tc := ⟨.hbm, 440, rfl⟩
abbrev main_c_91 : Ref sig .tc := ⟨.hbm, 441, rfl⟩
abbrev main_v271 : Ref sig .tc := ⟨.hbm, 442, rfl⟩
abbrev main_v272 : Ref sig .tc := ⟨.hbm, 443, rfl⟩
abbrev main_c_92 : Ref sig .tc := ⟨.hbm, 444, rfl⟩
abbrev main_v273 : Ref sig .tc := ⟨.hbm, 445, rfl⟩
abbrev main_v274 : Ref sig .tc := ⟨.hbm, 446, rfl⟩
abbrev main_v275 : Ref sig .tc := ⟨.hbm, 447, rfl⟩
abbrev main_c_93 : Ref sig .tc := ⟨.hbm, 448, rfl⟩
abbrev main_v276 : Ref sig .tc := ⟨.hbm, 449, rfl⟩
abbrev main_v277 : Ref sig .tc := ⟨.hbm, 450, rfl⟩
abbrev main_c_94 : Ref sig .tc := ⟨.hbm, 451, rfl⟩
abbrev main_v278 : Ref sig .tc := ⟨.hbm, 452, rfl⟩
abbrev main_v279 : Ref sig .tc := ⟨.hbm, 453, rfl⟩
abbrev main_v280 : Ref sig .tc := ⟨.hbm, 454, rfl⟩
abbrev main_v281 : Ref sig .tc := ⟨.hbm, 455, rfl⟩
abbrev main_v282 : Ref sig .tc := ⟨.hbm, 456, rfl⟩
abbrev main_v283 : Ref sig .tc := ⟨.hbm, 457, rfl⟩
abbrev main_v284 : Ref sig .tc := ⟨.hbm, 458, rfl⟩
abbrev main_c_95 : Ref sig .tc := ⟨.hbm, 459, rfl⟩
abbrev main_v285 : Ref sig .tc := ⟨.hbm, 460, rfl⟩
abbrev main_v286 : Ref sig .tc := ⟨.hbm, 461, rfl⟩
abbrev main_c_96 : Ref sig .tc := ⟨.hbm, 462, rfl⟩
abbrev main_v287 : Ref sig .tc := ⟨.hbm, 463, rfl⟩
abbrev main_v288 : Ref sig .tc := ⟨.hbm, 464, rfl⟩
abbrev main_v289 : Ref sig .tc := ⟨.hbm, 465, rfl⟩
abbrev main_c_97 : Ref sig .tc := ⟨.hbm, 466, rfl⟩
abbrev main_v290 : Ref sig .tc := ⟨.hbm, 467, rfl⟩
abbrev main_v291 : Ref sig .tc := ⟨.hbm, 468, rfl⟩
abbrev main_c_98 : Ref sig .tc := ⟨.hbm, 469, rfl⟩
abbrev main_v292 : Ref sig .tc := ⟨.hbm, 470, rfl⟩
abbrev main_v293 : Ref sig .tc := ⟨.hbm, 471, rfl⟩
abbrev main_v294 : Ref sig .tc := ⟨.hbm, 472, rfl⟩
abbrev main_v295 : Ref sig .tc := ⟨.hbm, 473, rfl⟩
abbrev main_v296 : Ref sig .tc := ⟨.hbm, 474, rfl⟩
abbrev main_v297 : Ref sig .tc := ⟨.hbm, 475, rfl⟩
abbrev main_v298 : Ref sig .tc := ⟨.hbm, 476, rfl⟩
abbrev main_c_99 : Ref sig .tc := ⟨.hbm, 477, rfl⟩
abbrev main_v299 : Ref sig .tc := ⟨.hbm, 478, rfl⟩
abbrev main_v300 : Ref sig .tc := ⟨.hbm, 479, rfl⟩
abbrev main_c_100 : Ref sig .tc := ⟨.hbm, 480, rfl⟩
abbrev main_v301 : Ref sig .tc := ⟨.hbm, 481, rfl⟩
abbrev main_v302 : Ref sig .tc := ⟨.hbm, 482, rfl⟩
abbrev main_v303 : Ref sig .tc := ⟨.hbm, 483, rfl⟩
abbrev main_c_101 : Ref sig .tc := ⟨.hbm, 484, rfl⟩
abbrev main_v304 : Ref sig .tc := ⟨.hbm, 485, rfl⟩
abbrev main_v305 : Ref sig .tc := ⟨.hbm, 486, rfl⟩
abbrev main_c_102 : Ref sig .tc := ⟨.hbm, 487, rfl⟩
abbrev main_v306 : Ref sig .tc := ⟨.hbm, 488, rfl⟩
abbrev main_v307 : Ref sig .tc := ⟨.hbm, 489, rfl⟩
abbrev main_v308 : Ref sig .tc := ⟨.hbm, 490, rfl⟩
abbrev main_v309 : Ref sig .tc := ⟨.hbm, 491, rfl⟩
abbrev main_v310 : Ref sig .tc := ⟨.hbm, 492, rfl⟩
abbrev main_v311 : Ref sig .tc := ⟨.hbm, 493, rfl⟩
abbrev main_v312 : Ref sig .tc := ⟨.hbm, 494, rfl⟩
abbrev main_c_103 : Ref sig .tc := ⟨.hbm, 495, rfl⟩
abbrev main_v313 : Ref sig .tc := ⟨.hbm, 496, rfl⟩
abbrev main_v314 : Ref sig .tc := ⟨.hbm, 497, rfl⟩
abbrev main_c_104 : Ref sig .tc := ⟨.hbm, 498, rfl⟩
abbrev main_v315 : Ref sig .tc := ⟨.hbm, 499, rfl⟩
abbrev main_v316 : Ref sig .tc := ⟨.hbm, 500, rfl⟩
abbrev main_v317 : Ref sig .tc := ⟨.hbm, 501, rfl⟩
abbrev main_c_105 : Ref sig .tc := ⟨.hbm, 502, rfl⟩
abbrev main_v318 : Ref sig .tc := ⟨.hbm, 503, rfl⟩
abbrev main_v319 : Ref sig .tc := ⟨.hbm, 504, rfl⟩
abbrev main_c_106 : Ref sig .tc := ⟨.hbm, 505, rfl⟩
abbrev main_v320 : Ref sig .tc := ⟨.hbm, 506, rfl⟩
abbrev main_v321 : Ref sig .tc := ⟨.hbm, 507, rfl⟩
abbrev main_v322 : Ref sig .tc := ⟨.hbm, 508, rfl⟩
abbrev main_v323 : Ref sig .tc := ⟨.hbm, 509, rfl⟩
abbrev main_v324 : Ref sig .tc := ⟨.hbm, 510, rfl⟩
abbrev main_v325 : Ref sig .tc := ⟨.hbm, 511, rfl⟩
abbrev main_v326 : Ref sig .tc := ⟨.hbm, 512, rfl⟩
abbrev main_cst_107 : Ref sig .tc := ⟨.hbm, 513, rfl⟩
abbrev main_v327 : Ref sig .tc := ⟨.hbm, 514, rfl⟩
abbrev main_v328 : Ref sig .tc := ⟨.hbm, 515, rfl⟩
abbrev main_v329 : Ref sig .tc := ⟨.hbm, 516, rfl⟩
abbrev main_v330 : Ref sig .tc := ⟨.hbm, 517, rfl⟩
abbrev main_cst_108 : Ref sig .tc := ⟨.hbm, 518, rfl⟩
abbrev main_v331 : Ref sig .tc := ⟨.hbm, 519, rfl⟩
abbrev main_v332 : Ref sig .tc := ⟨.hbm, 520, rfl⟩
abbrev main_v333 : Ref sig .tc := ⟨.hbm, 521, rfl⟩
abbrev main_v334 : Ref sig .tc := ⟨.hbm, 522, rfl⟩
abbrev main_v335 : Ref sig .tc := ⟨.hbm, 523, rfl⟩
abbrev main_v336 : Ref sig .tc := ⟨.hbm, 524, rfl⟩
abbrev main_cst_109 : Ref sig .tc := ⟨.hbm, 525, rfl⟩
abbrev main_v337 : Ref sig .tc := ⟨.hbm, 526, rfl⟩
abbrev main_v338 : Ref sig .tc := ⟨.hbm, 527, rfl⟩
abbrev main_v339 : Ref sig .tc := ⟨.hbm, 528, rfl⟩
abbrev main_v340 : Ref sig .tc := ⟨.hbm, 529, rfl⟩
abbrev main_v341 : Ref sig .tc := ⟨.hbm, 530, rfl⟩
abbrev main_cst_110 : Ref sig .tc := ⟨.hbm, 531, rfl⟩
abbrev main_v342 : Ref sig .tc := ⟨.hbm, 532, rfl⟩
abbrev main_v343 : Ref sig .tc := ⟨.hbm, 533, rfl⟩
abbrev main_v344 : Ref sig .tc := ⟨.hbm, 534, rfl⟩
abbrev main_v345 : Ref sig .tc := ⟨.hbm, 535, rfl⟩
abbrev main_v346 : Ref sig .tc := ⟨.hbm, 536, rfl⟩
abbrev main_v347 : Ref sig .tc := ⟨.hbm, 537, rfl⟩
abbrev main_v348 : Ref sig .tc := ⟨.hbm, 538, rfl⟩
abbrev main_v349 : Ref sig .tc := ⟨.hbm, 539, rfl⟩
abbrev main_v350 : Ref sig .tc := ⟨.hbm, 540, rfl⟩
abbrev main_v351 : Ref sig .tc := ⟨.hbm, 541, rfl⟩
abbrev main_v352 : Ref sig .tc := ⟨.hbm, 542, rfl⟩
abbrev main_v353 : Ref sig .tc := ⟨.hbm, 543, rfl⟩
abbrev main_v354 : Ref sig .tc := ⟨.hbm, 544, rfl⟩
abbrev main_v355 : Ref sig .tc := ⟨.hbm, 545, rfl⟩
abbrev main_v356_0 : Ref sig .tc := ⟨.hbm, 546, rfl⟩
abbrev main_v356_1 : Ref sig .tc := ⟨.hbm, 547, rfl⟩
abbrev main_v357 : Ref sig .tc := ⟨.hbm, 548, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  bcast_S_S1048576x3 : S_.BroadcastsInDim S1048576x3 (![] : Fin 0 → Fin S1048576x3.rank)
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  bcast_S_S1048576 : S_.BroadcastsInDim S1048576 (![] : Fin 0 → Fin S1048576.rank)
  bcast_S1048576_S1x1048576_1 : S1048576.BroadcastsInDim S1x1048576 (![1] : Fin 1 → Fin S1x1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  bcast_S_S1x1048576 : S_.BroadcastsInDim S1x1048576 (![] : Fin 0 → Fin S1x1048576.rank)
  bcast_S1x1048576_S32x1048576_0_1 : S1x1048576.BroadcastsInDim S32x1048576 (![0, 1] : Fin 2 → Fin S32x1048576.rank)
  transposes_S32x1048576_S1048576x32_1_0 : S32x1048576.Transposes [1, 0] S1048576x32
  concatenates_S1048576x32_S1048576x32_S1048576x32_S1048576x96_d1 : Shape.Concatenates [S1048576x32, S1048576x32, S1048576x32] S1048576x96 1
  inb_S8192x96_S8192x96_0_0 : ∀ a, (![0, 0] : Fin 2 → Nat) a + S8192x96.size a ≤ S8192x96.size a
  h_S8192x96 : 0 < S8192x96.numel
  shapeCasts_S8192x96_S8192x96 : S8192x96.ShapeCasts S8192x96
  bitsLt_bf16_f32 : FTy.bits .bf16 < FTy.bits .f32
  inb_S96x64_S96x64_0_0 : ∀ a, (![0, 0] : Fin 2 → Nat) a + S96x64.size a ≤ S96x64.size a
  h_S96x64 : 0 < S96x64.numel
  inb_S64x16_S64x16_0_0 : ∀ a, (![0, 0] : Fin 2 → Nat) a + S64x16.size a ≤ S64x16.size a
  h_S64x16 : 0 < S64x16.numel
  slices_S8192x16_o0_0_S8192x1 : S8192x16.Slices ![0, 0] S8192x1
  inb_S8192x1_S8192x1_0_0 : ∀ a, (![0, 0] : Fin 2 → Nat) a + S8192x1.size a ≤ S8192x1.size a
  h_S8192x1 : 0 < S8192x1.numel
  slices_S8192x16_o0_1_S8192x15 : S8192x16.Slices ![0, 1] S8192x15
  inb_S15x64_S15x64_0_0 : ∀ a, (![0, 0] : Fin 2 → Nat) a + S15x64.size a ≤ S15x64.size a
  h_S15x64 : 0 < S15x64.numel
  inb_S64x64_S64x64_0_0 : ∀ a, (![0, 0] : Fin 2 → Nat) a + S64x64.size a ≤ S64x64.size a
  h_S64x64 : 0 < S64x64.numel
  inb_S64x3_S64x3_0_0 : ∀ a, (![0, 0] : Fin 2 → Nat) a + S64x3.size a ≤ S64x3.size a
  h_S64x3 : 0 < S64x3.numel
  inb_S8192x3_S8192x3_0_0 : ∀ a, (![0, 0] : Fin 2 → Nat) a + S8192x3.size a ≤ S8192x3.size a
  h_S8192x3 : 0 < S8192x3.numel
  gather_S32x256x256_S1048576x2_S32x1048576_0_12_n_n_12_1_3211_wf : GatherDims.WF S32x256x256 S1048576x2 S32x1048576 [0] [1, 2] [] [1, 2] [] 1 ![32, 1, 1]
  dot_S8192x96_S96x64_S8192x64_1_0_0_1_n_n_wf : DotDims.WF S8192x96 S96x64 S8192x64 [1] [0] [0] [1] [] []
  dot_S8192x64_S64x16_S8192x16_1_0_0_1_n_n_wf : DotDims.WF S8192x64 S64x16 S8192x16 [1] [0] [0] [1] [] []
  dot_S8192x15_S15x64_S8192x64_1_0_0_1_n_n_wf : DotDims.WF S8192x15 S15x64 S8192x64 [1] [0] [0] [1] [] []
  dot_S8192x64_S64x64_S8192x64_1_0_0_1_n_n_wf : DotDims.WF S8192x64 S64x64 S8192x64 [1] [0] [0] [1] [] []
  dot_S8192x64_S64x3_S8192x3_1_0_0_1_n_n_wf : DotDims.WF S8192x64 S64x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x96.size a ≤ S1048576x96.size a
  hwx0_0 : ∀ i : grid0.Coords, EltTy.bits .f32 = 32 ∨ (Rect.block (s := S1048576x96) S8192x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x64.size a ≤ S96x64.size a
  hwx0_1 : ∀ i : grid0.Coords, EltTy.bits .f32 = 32 ∨ (Rect.block (s := S96x64) S96x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15x64.size a ≤ S15x64.size a
  hwx0_3 : ∀ i : grid0.Coords, EltTy.bits .f32 = 32 ∨ (Rect.block (s := S15x64) S15x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x3.size a ≤ S64x3.size a
  hwx0_5 : ∀ i : grid0.Coords, EltTy.bits .f32 = 32 ∨ (Rect.block (s := S64x3) S64x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x1.size a ≤ S1048576x1.size a
  hwx0_6 : ∀ i : grid0.Coords, EltTy.bits .f32 = 32 ∨ (Rect.block (s := S1048576x1) S8192x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x3.size a ≤ S1048576x3.size a
  hwx0_7 : ∀ i : grid0.Coords, EltTy.bits .f32 = 32 ∨ (Rect.block (s := S1048576x3) S8192x3.size (cc0_transform_7 i) (hinb0_7 i)).WholeWords (EltTy.packing .f32)

variable [Facts₀]

def gather_S32x256x256_S1048576x2_S32x1048576_0_12_n_n_12_1_3211 : GatherDims S32x256x256 S1048576x2 S32x1048576 where
  offsetDims := [0]
  collapsedSliceDims := [1, 2]
  operandBatchingDims := []
  startIndicesBatchingDims := []
  startIndexMap := [1, 2]
  indexVectorDim := 1
  sliceSizes := ![32, 1, 1]
  wf := gather_S32x256x256_S1048576x2_S32x1048576_0_12_n_n_12_1_3211_wf
def dot_S8192x96_S96x64_S8192x64_1_0_0_1_n_n : DotDims S8192x96 S96x64 S8192x64 where
  lhsContracting := [1]
  rhsContracting := [0]
  lhsNonContracting := [0]
  rhsNonContracting := [1]
  lhsBatch := []
  rhsBatch := []
  wf := dot_S8192x96_S96x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S8192x15_S15x64_S8192x64_1_0_0_1_n_n : DotDims S8192x15 S15x64 S8192x64 where
  lhsContracting := [1]
  rhsContracting := [0]
  lhsNonContracting := [0]
  rhsNonContracting := [1]
  lhsBatch := []
  rhsBatch := []
  wf := dot_S8192x15_S15x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x3_S8192x3_1_0_0_1_n_n : DotDims S8192x64 S64x3 S8192x3 where
  lhsContracting := [1]
  rhsContracting := [0]
  lhsNonContracting := [0]
  rhsNonContracting := [1]
  lhsBatch := []
  rhsBatch := []
  wf := dot_S8192x64_S64x3_S8192x3_1_0_0_1_n_n_wf

abbrev win0_0 : Pipeline.Window sig grid0 :=
  Pipeline.Window.ofSpec (Memref.whole main_v355) S8192x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S96x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S15x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S64x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v356_0) S8192x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v356_1) S8192x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x3 : Shape := ⟨2, ![1048576, 3]⟩
abbrev S32x256x256 : Shape := ⟨3, ![32, 256, 256]⟩
abbrev S3 : Shape := ⟨1, ![3]⟩
abbrev S96x64 : Shape := ⟨2, ![96, 64]⟩
abbrev S64x16 : Shape := ⟨2, ![64, 16]⟩
abbrev S15x64 : Shape := ⟨2, ![15, 64]⟩
abbrev S64x64 : Shape := ⟨2, ![64, 64]⟩
abbrev S64x3 : Shape := ⟨2, ![64, 3]⟩
abbrev S1x3 : Shape := ⟨2, ![1, 3]⟩
abbrev S_ : Shape := ⟨0, ![]⟩
abbrev S1048576x1 : Shape := ⟨2, ![1048576, 1]⟩
abbrev S1048576 : Shape := ⟨1, ![1048576]⟩
abbrev S1x1048576 : Shape := ⟨2, ![1, 1048576]⟩
abbrev S1048576x2 : Shape := ⟨2, ![1048576, 2]⟩
abbrev S32x1048576 : Shape := ⟨2, ![32, 1048576]⟩
abbrev S1048576x32 : Shape := ⟨2, ![1048576, 32]⟩
abbrev S1048576x96 : Shape := ⟨2, ![1048576, 96]⟩
abbrev S1048576x64 : Shape := ⟨2, ![1048576, 64]⟩
abbrev S1048576x16 : Shape := ⟨2, ![1048576, 16]⟩
abbrev S1048576x15 : Shape := ⟨2, ![1048576, 15]⟩

abbrev nBuf : Space → Nat
  | .hbm => 571
  | .vmem => 0
  | .smem => 0
  | _ => 0

abbrev hbmTy0_0 (i : Nat) : BufTy := match i % 128 with
  | 0 => ⟨S1048576x3, .f32⟩
  | 1 => ⟨S1048576x3, .f32⟩
  | 2 => ⟨S32x256x256, .f32⟩
  | 3 => ⟨S32x256x256, .f32⟩
  | 4 => ⟨S32x256x256, .f32⟩
  | 5 => ⟨S3, .f32⟩
  | 6 => ⟨S3, .f32⟩
  | 7 => ⟨S96x64, .f32⟩
  | 8 => ⟨S64x16, .f32⟩
  | 9 => ⟨S15x64, .f32⟩
  | 10 => ⟨S64x64, .f32⟩
  | 11 => ⟨S64x3, .f32⟩
  | 12 => ⟨S1x3, .f32⟩
  | 13 => ⟨S1048576x3, .f32⟩
  | 14 => ⟨S1048576x3, .f32⟩
  | 15 => ⟨S1x3, .f32⟩
  | 16 => ⟨S1048576x3, .f32⟩
  | 17 => ⟨S1048576x3, .f32⟩
  | 18 => ⟨S_, .f32⟩
  | 19 => ⟨S1048576x3, .f32⟩
  | 20 => ⟨S1048576x3, .f32⟩
  | 21 => ⟨S_, .f32⟩
  | 22 => ⟨S_, .f32⟩
  | 23 => ⟨S_, .f32⟩
  | 24 => ⟨S1048576x3, .f32⟩
  | 25 => ⟨S1048576x3, .f32⟩
  | 26 => ⟨S_, .f32⟩
  | 27 => ⟨S1048576x3, .f32⟩
  | 28 => ⟨S1048576x3, .f32⟩
  | 29 => ⟨S_, .f32⟩
  | 30 => ⟨S1048576x3, .f32⟩
  | 31 => ⟨S1048576x3, .f32⟩
  | 32 => ⟨S_, .f32⟩
  | 33 => ⟨S1048576x3, .f32⟩
  | 34 => ⟨S1048576x3, .f32⟩
  | 35 => ⟨S1048576x1, .f32⟩
  | 36 => ⟨S1048576, .f32⟩
  | 37 => ⟨S1048576x1, .f32⟩
  | 38 => ⟨S1048576, .f32⟩
  | 39 => ⟨S1048576x1, .f32⟩
  | 40 => ⟨S1048576, .f32⟩
  | 41 => ⟨S_, .f32⟩
  | 42 => ⟨S1048576, .f32⟩
  | 43 => ⟨S1048576, .f32⟩
  | 44 => ⟨S_, .f32⟩
  | 45 => ⟨S1048576, .f32⟩
  | 46 => ⟨S1048576, .f32⟩
  | 47 => ⟨S_, .f32⟩
  | 48 => ⟨S1048576, .f32⟩
  | 49 => ⟨S1048576, .f32⟩
  | 50 => ⟨S_, .f32⟩
  | 51 => ⟨S1048576, .f32⟩
  | 52 => ⟨S1048576, .f32⟩
  | 53 => ⟨S_, .f32⟩
  | 54 => ⟨S1048576, .f32⟩
  | 55 => ⟨S1048576, .f32⟩
  | 56 => ⟨S_, .f32⟩
  | 57 => ⟨S1048576, .f32⟩
  | 58 => ⟨S1048576, .f32⟩
  | 59 => ⟨S1048576, .f32⟩
  | 60 => ⟨S1048576, .f32⟩
  | 61 => ⟨S1048576, .f32⟩
  | 62 => ⟨S1x1048576, .f32⟩
  | 63 => ⟨S1048576, .f32⟩
  | 64 => ⟨S1x1048576, .f32⟩
  | 65 => ⟨S1048576, .i32⟩
  | 66 => ⟨S_, .i32⟩
  | 67 => ⟨S_, .i32⟩
  | 68 => ⟨S_, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S_, .i32⟩
  | 75 => ⟨S1048576, .i32⟩
  | 76 => ⟨S1048576, .i32⟩
  | 77 => ⟨S_, .i32⟩
  | 78 => ⟨S_, .i32⟩
  | 79 => ⟨S_, .i32⟩
  | 80 => ⟨S1048576, .i32⟩
  | 81 => ⟨S1048576, .i32⟩
  | 82 => ⟨S_, .i32⟩
  | 83 => ⟨S1048576, .i32⟩
  | 84 => ⟨S1048576, .i32⟩
  | 85 => ⟨S1048576, .i32⟩
  | 86 => ⟨S_, .i32⟩
  | 87 => ⟨S_, .i32⟩
  | 88 => ⟨S_, .i32⟩
  | 89 => ⟨S1048576, .i32⟩
  | 90 => ⟨S1048576, .i32⟩
  | 91 => ⟨S_, .i32⟩
  | 92 => ⟨S1048576, .i32⟩
  | 93 => ⟨S1048576, .i32⟩
  | 94 => ⟨S_, .i32⟩
  | 95 => ⟨S1048576, .i32⟩
  | 96 => ⟨S1048576, .i32⟩
  | 97 => ⟨S_, .i32⟩
  | 98 => ⟨S_, .i32⟩
  | 99 => ⟨S_, .i32⟩
  | 100 => ⟨S1048576, .i32⟩
  | 101 => ⟨S1048576, .i32⟩
  | 102 => ⟨S_, .i32⟩
  | 103 => ⟨S1048576, .i32⟩
  | 104 => ⟨S1048576, .i32⟩
  | 105 => ⟨S_, .i32⟩
  | 106 => ⟨S1048576, .i32⟩
  | 107 => ⟨S1048576, .i1⟩
  | 108 => ⟨S_, .i32⟩
  | 109 => ⟨S1048576, .i32⟩
  | 110 => ⟨S1048576, .i32⟩
  | 111 => ⟨S1048576, .i32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S1048576x1, .i32⟩
  | 120 => ⟨S1048576x1, .i32⟩
  | 121 => ⟨S1048576x2, .i32⟩
  | 122 => ⟨S32x1048576, .f32⟩
  | 123 => ⟨S_, .i32⟩
  | 124 => ⟨S1048576, .i32⟩
  | 125 => ⟨S1048576, .i1⟩
  | 126 => ⟨S_, .i32⟩
  | 127 => ⟨S1048576, .i32⟩
  | _ => ⟨S1048576x3, .f32⟩

abbrev hbmTy0_1 (i : Nat) : BufTy := match i % 128 with
  | 0 => ⟨S1048576, .i32⟩
  | 1 => ⟨S1048576, .i32⟩
  | 2 => ⟨S_, .i32⟩
  | 3 => ⟨S1048576, .i32⟩
  | 4 => ⟨S1048576, .i1⟩
  | 5 => ⟨S_, .i32⟩
  | 6 => ⟨S1048576, .i32⟩
  | 7 => ⟨S1048576, .i32⟩
  | 8 => ⟨S1048576, .i32⟩
  | 9 => ⟨S1048576x1, .i32⟩
  | 10 => ⟨S1048576x1, .i32⟩
  | 11 => ⟨S1048576x2, .i32⟩
  | 12 => ⟨S32x1048576, .f32⟩
  | 13 => ⟨S_, .i32⟩
  | 14 => ⟨S1048576, .i32⟩
  | 15 => ⟨S1048576, .i1⟩
  | 16 => ⟨S_, .i32⟩
  | 17 => ⟨S1048576, .i32⟩
  | 18 => ⟨S1048576, .i32⟩
  | 19 => ⟨S1048576, .i32⟩
  | 20 => ⟨S_, .i32⟩
  | 21 => ⟨S1048576, .i32⟩
  | 22 => ⟨S1048576, .i1⟩
  | 23 => ⟨S_, .i32⟩
  | 24 => ⟨S1048576, .i32⟩
  | 25 => ⟨S1048576, .i32⟩
  | 26 => ⟨S1048576, .i32⟩
  | 27 => ⟨S1048576x1, .i32⟩
  | 28 => ⟨S1048576x1, .i32⟩
  | 29 => ⟨S1048576x2, .i32⟩
  | 30 => ⟨S32x1048576, .f32⟩
  | 31 => ⟨S_, .i32⟩
  | 32 => ⟨S1048576, .i32⟩
  | 33 => ⟨S1048576, .i1⟩
  | 34 => ⟨S_, .i32⟩
  | 35 => ⟨S1048576, .i32⟩
  | 36 => ⟨S1048576, .i32⟩
  | 37 => ⟨S1048576, .i32⟩
  | 38 => ⟨S_, .i32⟩
  | 39 => ⟨S1048576, .i32⟩
  | 40 => ⟨S1048576, .i1⟩
  | 41 => ⟨S_, .i32⟩
  | 42 => ⟨S1048576, .i32⟩
  | 43 => ⟨S1048576, .i32⟩
  | 44 => ⟨S1048576, .i32⟩
  | 45 => ⟨S1048576x1, .i32⟩
  | 46 => ⟨S1048576x1, .i32⟩
  | 47 => ⟨S1048576x2, .i32⟩
  | 48 => ⟨S32x1048576, .f32⟩
  | 49 => ⟨S_, .f32⟩
  | 50 => ⟨S1x1048576, .f32⟩
  | 51 => ⟨S1x1048576, .f32⟩
  | 52 => ⟨S32x1048576, .f32⟩
  | 53 => ⟨S32x1048576, .f32⟩
  | 54 => ⟨S_, .f32⟩
  | 55 => ⟨S1x1048576, .f32⟩
  | 56 => ⟨S1x1048576, .f32⟩
  | 57 => ⟨S32x1048576, .f32⟩
  | 58 => ⟨S32x1048576, .f32⟩
  | 59 => ⟨S32x1048576, .f32⟩
  | 60 => ⟨S32x1048576, .f32⟩
  | 61 => ⟨S_, .f32⟩
  | 62 => ⟨S1x1048576, .f32⟩
  | 63 => ⟨S1x1048576, .f32⟩
  | 64 => ⟨S32x1048576, .f32⟩
  | 65 => ⟨S32x1048576, .f32⟩
  | 66 => ⟨S32x1048576, .f32⟩
  | 67 => ⟨S_, .f32⟩
  | 68 => ⟨S1x1048576, .f32⟩
  | 69 => ⟨S1x1048576, .f32⟩
  | 70 => ⟨S32x1048576, .f32⟩
  | 71 => ⟨S32x1048576, .f32⟩
  | 72 => ⟨S32x1048576, .f32⟩
  | 73 => ⟨S32x1048576, .f32⟩
  | 74 => ⟨S32x1048576, .f32⟩
  | 75 => ⟨S32x1048576, .f32⟩
  | 76 => ⟨S32x1048576, .f32⟩
  | 77 => ⟨S32x1048576, .f32⟩
  | 78 => ⟨S32x1048576, .f32⟩
  | 79 => ⟨S32x1048576, .f32⟩
  | 80 => ⟨S1048576x32, .f32⟩
  | 81 => ⟨S_, .f32⟩
  | 82 => ⟨S1048576, .f32⟩
  | 83 => ⟨S1048576, .f32⟩
  | 84 => ⟨S_, .f32⟩
  | 85 => ⟨S1048576, .f32⟩
  | 86 => ⟨S1048576, .f32⟩
  | 87 => ⟨S_, .f32⟩
  | 88 => ⟨S1048576, .f32⟩
  | 89 => ⟨S1048576, .f32⟩
  | 90 => ⟨S_, .f32⟩
  | 91 => ⟨S1048576, .f32⟩
  | 92 => ⟨S1048576, .f32⟩
  | 93 => ⟨S_, .f32⟩
  | 94 => ⟨S1048576, .f32⟩
  | 95 => ⟨S1048576, .f32⟩
  | 96 => ⟨S_, .f32⟩
  | 97 => ⟨S1048576, .f32⟩
  | 98 => ⟨S1048576, .f32⟩
  | 99 => ⟨S1048576, .f32⟩
  | 100 => ⟨S1048576, .f32⟩
  | 101 => ⟨S1048576, .f32⟩
  | 102 => ⟨S1x1048576, .f32⟩
  | 103 => ⟨S1048576, .f32⟩
  | 104 => ⟨S1x1048576, .f32⟩
  | 105 => ⟨S1048576, .i32⟩
  | 106 => ⟨S_, .i32⟩
  | 107 => ⟨S_, .i32⟩
  | 108 => ⟨S_, .i32⟩
  | 109 => ⟨S1048576, .i32⟩
  | 110 => ⟨S1048576, .i32⟩
  | 111 => ⟨S_, .i32⟩
  | 112 => ⟨S1048576, .i32⟩
  | 113 => ⟨S1048576, .i32⟩
  | 114 => ⟨S_, .i32⟩
  | 115 => ⟨S1048576, .i32⟩
  | 116 => ⟨S1048576, .i32⟩
  | 117 => ⟨S_, .i32⟩
  | 118 => ⟨S_, .i32⟩
  | 119 => ⟨S_, .i32⟩
  | 120 => ⟨S1048576, .i32⟩
  | 121 => ⟨S1048576, .i32⟩
  | 122 => ⟨S_, .i32⟩
  | 123 => ⟨S1048576, .i32⟩
  | 124 => ⟨S1048576, .i32⟩
  | 125 => ⟨S1048576, .i32⟩
  | 126 => ⟨S_, .i32⟩
  | 127 => ⟨S_, .i32⟩
  | _ => ⟨S1048576x3, .f32⟩

abbrev hbmTy0_2 (i : Nat) : BufTy := match i % 128 with
  | 0 => ⟨S_, .i32⟩
  | 1 => ⟨S1048576, .i32⟩
  | 2 => ⟨S1048576, .i32⟩
  | 3 => ⟨S_, .i32⟩
  | 4 => ⟨S1048576, .i32⟩
  | 5 => ⟨S1048576, .i32⟩
  | 6 => ⟨S_, .i32⟩
  | 7 => ⟨S1048576, .i32⟩
  | 8 => ⟨S1048576, .i32⟩
  | 9 => ⟨S_, .i32⟩
  | 10 => ⟨S_, .i32⟩
  | 11 => ⟨S_, .i32⟩
  | 12 => ⟨S1048576, .i32⟩
  | 13 => ⟨S1048576, .i32⟩
  | 14 => ⟨S_, .i32⟩
  | 15 => ⟨S1048576, .i32⟩
  | 16 => ⟨S1048576, .i32⟩
  | 17 => ⟨S_, .i32⟩
  | 18 => ⟨S1048576, .i32⟩
  | 19 => ⟨S1048576, .i1⟩
  | 20 => ⟨S_, .i32⟩
  | 21 => ⟨S1048576, .i32⟩
  | 22 => ⟨S1048576, .i32⟩
  | 23 => ⟨S1048576, .i32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i32⟩
  | 30 => ⟨S1048576, .i32⟩
  | 31 => ⟨S1048576x1, .i32⟩
  | 32 => ⟨S1048576x1, .i32⟩
  | 33 => ⟨S1048576x2, .i32⟩
  | 34 => ⟨S32x1048576, .f32⟩
  | 35 => ⟨S_, .i32⟩
  | 36 => ⟨S1048576, .i32⟩
  | 37 => ⟨S1048576, .i1⟩
  | 38 => ⟨S_, .i32⟩
  | 39 => ⟨S1048576, .i32⟩
  | 40 => ⟨S1048576, .i32⟩
  | 41 => ⟨S1048576, .i32⟩
  | 42 => ⟨S_, .i32⟩
  | 43 => ⟨S1048576, .i32⟩
  | 44 => ⟨S1048576, .i1⟩
  | 45 => ⟨S_, .i32⟩
  | 46 => ⟨S1048576, .i32⟩
  | 47 => ⟨S1048576, .i32⟩
  | 48 => ⟨S1048576, .i32⟩
  | 49 => ⟨S1048576x1, .i32⟩
  | 50 => ⟨S1048576x1, .i32⟩
  | 51 => ⟨S1048576x2, .i32⟩
  | 52 => ⟨S32x1048576, .f32⟩
  | 53 => ⟨S_, .i32⟩
  | 54 => ⟨S1048576, .i32⟩
  | 55 => ⟨S1048576, .i1⟩
  | 56 => ⟨S_, .i32⟩
  | 57 => ⟨S1048576, .i32⟩
  | 58 => ⟨S1048576, .i32⟩
  | 59 => ⟨S1048576, .i32⟩
  | 60 => ⟨S_, .i32⟩
  | 61 => ⟨S1048576, .i32⟩
  | 62 => ⟨S1048576, .i1⟩
  | 63 => ⟨S_, .i32⟩
  | 64 => ⟨S1048576, .i32⟩
  | 65 => ⟨S1048576, .i32⟩
  | 66 => ⟨S1048576, .i32⟩
  | 67 => ⟨S1048576x1, .i32⟩
  | 68 => ⟨S1048576x1, .i32⟩
  | 69 => ⟨S1048576x2, .i32⟩
  | 70 => ⟨S32x1048576, .f32⟩
  | 71 => ⟨S_, .i32⟩
  | 72 => ⟨S1048576, .i32⟩
  | 73 => ⟨S1048576, .i1⟩
  | 74 => ⟨S_, .i32⟩
  | 75 => ⟨S1048576, .i32⟩
  | 76 => ⟨S1048576, .i32⟩
  | 77 => ⟨S1048576, .i32⟩
  | 78 => ⟨S_, .i32⟩
  | 79 => ⟨S1048576, .i32⟩
  | 80 => ⟨S1048576, .i1⟩
  | 81 => ⟨S_, .i32⟩
  | 82 => ⟨S1048576, .i32⟩
  | 83 => ⟨S1048576, .i32⟩
  | 84 => ⟨S1048576, .i32⟩
  | 85 => ⟨S1048576x1, .i32⟩
  | 86 => ⟨S1048576x1, .i32⟩
  | 87 => ⟨S1048576x2, .i32⟩
  | 88 => ⟨S32x1048576, .f32⟩
  | 89 => ⟨S_, .f32⟩
  | 90 => ⟨S1x1048576, .f32⟩
  | 91 => ⟨S1x1048576, .f32⟩
  | 92 => ⟨S32x1048576, .f32⟩
  | 93 => ⟨S32x1048576, .f32⟩
  | 94 => ⟨S_, .f32⟩
  | 95 => ⟨S1x1048576, .f32⟩
  | 96 => ⟨S1x1048576, .f32⟩
  | 97 => ⟨S32x1048576, .f32⟩
  | 98 => ⟨S32x1048576, .f32⟩
  | 99 => ⟨S32x1048576, .f32⟩
  | 100 => ⟨S32x1048576, .f32⟩
  | 101 => ⟨S_, .f32⟩
  | 102 => ⟨S1x1048576, .f32⟩
  | 103 => ⟨S1x1048576, .f32⟩
  | 104 => ⟨S32x1048576, .f32⟩
  | 105 => ⟨S32x1048576, .f32⟩
  | 106 => ⟨S32x1048576, .f32⟩
  | 107 => ⟨S_, .f32⟩
  | 108 => ⟨S1x1048576, .f32⟩
  | 109 => ⟨S1x1048576, .f32⟩
  | 110 => ⟨S32x1048576, .f32⟩
  | 111 => ⟨S32x1048576, .f32⟩
  | 112 => ⟨S32x1048576, .f32⟩
  | 113 => ⟨S32x1048576, .f32⟩
  | 114 => ⟨S32x1048576, .f32⟩
  | 115 => ⟨S32x1048576, .f32⟩
  | 116 => ⟨S32x1048576, .f32⟩
  | 117 => ⟨S32x1048576, .f32⟩
  | 118 => ⟨S32x1048576, .f32⟩
  | 119 => ⟨S32x1048576, .f32⟩
  | 120 => ⟨S1048576x32, .f32⟩
  | 121 => ⟨S_, .f32⟩
  | 122 => ⟨S1048576, .f32⟩
  | 123 => ⟨S1048576, .f32⟩
  | 124 => ⟨S_, .f32⟩
  | 125 => ⟨S1048576, .f32⟩
  | 126 => ⟨S1048576, .f32⟩
  | 127 => ⟨S_, .f32⟩
  | _ => ⟨S1048576x3, .f32⟩

abbrev hbmTy0_3 (i : Nat) : BufTy := match i % 128 with
  | 0 => ⟨S1048576, .f32⟩
  | 1 => ⟨S1048576, .f32⟩
  | 2 => ⟨S_, .f32⟩
  | 3 => ⟨S1048576, .f32⟩
  | 4 => ⟨S1048576, .f32⟩
  | 5 => ⟨S_, .f32⟩
  | 6 => ⟨S1048576, .f32⟩
  | 7 => ⟨S1048576, .f32⟩
  | 8 => ⟨S_, .f32⟩
  | 9 => ⟨S1048576, .f32⟩
  | 10 => ⟨S1048576, .f32⟩
  | 11 => ⟨S1048576, .f32⟩
  | 12 => ⟨S1048576, .f32⟩
  | 13 => ⟨S1048576, .f32⟩
  | 14 => ⟨S1x1048576, .f32⟩
  | 15 => ⟨S1048576, .f32⟩
  | 16 => ⟨S1x1048576, .f32⟩
  | 17 => ⟨S1048576, .i32⟩
  | 18 => ⟨S_, .i32⟩
  | 19 => ⟨S_, .i32⟩
  | 20 => ⟨S_, .i32⟩
  | 21 => ⟨S1048576, .i32⟩
  | 22 => ⟨S1048576, .i32⟩
  | 23 => ⟨S_, .i32⟩
  | 24 => ⟨S1048576, .i32⟩
  | 25 => ⟨S1048576, .i32⟩
  | 26 => ⟨S_, .i32⟩
  | 27 => ⟨S1048576, .i32⟩
  | 28 => ⟨S1048576, .i32⟩
  | 29 => ⟨S_, .i32⟩
  | 30 => ⟨S_, .i32⟩
  | 31 => ⟨S_, .i32⟩
  | 32 => ⟨S1048576, .i32⟩
  | 33 => ⟨S1048576, .i32⟩
  | 34 => ⟨S_, .i32⟩
  | 35 => ⟨S1048576, .i32⟩
  | 36 => ⟨S1048576, .i32⟩
  | 37 => ⟨S1048576, .i32⟩
  | 38 => ⟨S_, .i32⟩
  | 39 => ⟨S_, .i32⟩
  | 40 => ⟨S_, .i32⟩
  | 41 => ⟨S1048576, .i32⟩
  | 42 => ⟨S1048576, .i32⟩
  | 43 => ⟨S_, .i32⟩
  | 44 => ⟨S1048576, .i32⟩
  | 45 => ⟨S1048576, .i32⟩
  | 46 => ⟨S_, .i32⟩
  | 47 => ⟨S1048576, .i32⟩
  | 48 => ⟨S1048576, .i32⟩
  | 49 => ⟨S_, .i32⟩
  | 50 => ⟨S_, .i32⟩
  | 51 => ⟨S_, .i32⟩
  | 52 => ⟨S1048576, .i32⟩
  | 53 => ⟨S1048576, .i32⟩
  | 54 => ⟨S_, .i32⟩
  | 55 => ⟨S1048576, .i32⟩
  | 56 => ⟨S1048576, .i32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i32⟩
  | 63 => ⟨S1048576, .i32⟩
  | 64 => ⟨S_, .i32⟩
  | 65 => ⟨S1048576, .i32⟩
  | 66 => ⟨S1048576, .i1⟩
  | 67 => ⟨S_, .i32⟩
  | 68 => ⟨S1048576, .i32⟩
  | 69 => ⟨S1048576, .i32⟩
  | 70 => ⟨S1048576, .i32⟩
  | 71 => ⟨S1048576x1, .i32⟩
  | 72 => ⟨S1048576x1, .i32⟩
  | 73 => ⟨S1048576x2, .i32⟩
  | 74 => ⟨S32x1048576, .f32⟩
  | 75 => ⟨S_, .i32⟩
  | 76 => ⟨S1048576, .i32⟩
  | 77 => ⟨S1048576, .i1⟩
  | 78 => ⟨S_, .i32⟩
  | 79 => ⟨S1048576, .i32⟩
  | 80 => ⟨S1048576, .i32⟩
  | 81 => ⟨S1048576, .i32⟩
  | 82 => ⟨S_, .i32⟩
  | 83 => ⟨S1048576, .i32⟩
  | 84 => ⟨S1048576, .i1⟩
  | 85 => ⟨S_, .i32⟩
  | 86 => ⟨S1048576, .i32⟩
  | 87 => ⟨S1048576, .i32⟩
  | 88 => ⟨S1048576, .i32⟩
  | 89 => ⟨S1048576x1, .i32⟩
  | 90 => ⟨S1048576x1, .i32⟩
  | 91 => ⟨S1048576x2, .i32⟩
  | 92 => ⟨S32x1048576, .f32⟩
  | 93 => ⟨S_, .i32⟩
  | 94 => ⟨S1048576, .i32⟩
  | 95 => ⟨S1048576, .i1⟩
  | 96 => ⟨S_, .i32⟩
  | 97 => ⟨S1048576, .i32⟩
  | 98 => ⟨S1048576, .i32⟩
  | 99 => ⟨S1048576, .i32⟩
  | 100 => ⟨S_, .i32⟩
  | 101 => ⟨S1048576, .i32⟩
  | 102 => ⟨S1048576, .i1⟩
  | 103 => ⟨S_, .i32⟩
  | 104 => ⟨S1048576, .i32⟩
  | 105 => ⟨S1048576, .i32⟩
  | 106 => ⟨S1048576, .i32⟩
  | 107 => ⟨S1048576x1, .i32⟩
  | 108 => ⟨S1048576x1, .i32⟩
  | 109 => ⟨S1048576x2, .i32⟩
  | 110 => ⟨S32x1048576, .f32⟩
  | 111 => ⟨S_, .i32⟩
  | 112 => ⟨S1048576, .i32⟩
  | 113 => ⟨S1048576, .i1⟩
  | 114 => ⟨S_, .i32⟩
  | 115 => ⟨S1048576, .i32⟩
  | 116 => ⟨S1048576, .i32⟩
  | 117 => ⟨S1048576, .i32⟩
  | 118 => ⟨S_, .i32⟩
  | 119 => ⟨S1048576, .i32⟩
  | 120 => ⟨S1048576, .i1⟩
  | 121 => ⟨S_, .i32⟩
  | 122 => ⟨S1048576, .i32⟩
  | 123 => ⟨S1048576, .i32⟩
  | 124 => ⟨S1048576, .i32⟩
  | 125 => ⟨S1048576x1, .i32⟩
  | 126 => ⟨S1048576x1, .i32⟩
  | 127 => ⟨S1048576x2, .i32⟩
  | _ => ⟨S1048576x3, .f32⟩

abbrev hbmTy0_4 (i : Nat) : BufTy := match i % 128 with
  | 0 => ⟨S32x1048576, .f32⟩
  | 1 => ⟨S_, .f32⟩
  | 2 => ⟨S1x1048576, .f32⟩
  | 3 => ⟨S1x1048576, .f32⟩
  | 4 => ⟨S32x1048576, .f32⟩
  | 5 => ⟨S32x1048576, .f32⟩
  | 6 => ⟨S_, .f32⟩
  | 7 => ⟨S1x1048576, .f32⟩
  | 8 => ⟨S1x1048576, .f32⟩
  | 9 => ⟨S32x1048576, .f32⟩
  | 10 => ⟨S32x1048576, .f32⟩
  | 11 => ⟨S32x1048576, .f32⟩
  | 12 => ⟨S32x1048576, .f32⟩
  | 13 => ⟨S_, .f32⟩
  | 14 => ⟨S1x1048576, .f32⟩
  | 15 => ⟨S1x1048576, .f32⟩
  | 16 => ⟨S32x1048576, .f32⟩
  | 17 => ⟨S32x1048576, .f32⟩
  | 18 => ⟨S32x1048576, .f32⟩
  | 19 => ⟨S_, .f32⟩
  | 20 => ⟨S1x1048576, .f32⟩
  | 21 => ⟨S1x1048576, .f32⟩
  | 22 => ⟨S32x1048576, .f32⟩
  | 23 => ⟨S32x1048576, .f32⟩
  | 24 => ⟨S32x1048576, .f32⟩
  | 25 => ⟨S32x1048576, .f32⟩
  | 26 => ⟨S32x1048576, .f32⟩
  | 27 => ⟨S32x1048576, .f32⟩
  | 28 => ⟨S32x1048576, .f32⟩
  | 29 => ⟨S32x1048576, .f32⟩
  | 30 => ⟨S32x1048576, .f32⟩
  | 31 => ⟨S32x1048576, .f32⟩
  | 32 => ⟨S1048576x32, .f32⟩
  | 33 => ⟨S1048576x96, .f32⟩
  | 34 => ⟨S1048576x64, .f32⟩
  | 35 => ⟨S_, .f32⟩
  | 36 => ⟨S1048576x64, .f32⟩
  | 37 => ⟨S1048576x64, .f32⟩
  | 38 => ⟨S1048576x16, .f32⟩
  | 39 => ⟨S1048576x1, .f32⟩
  | 40 => ⟨S1048576, .f32⟩
  | 41 => ⟨S1048576x15, .f32⟩
  | 42 => ⟨S1048576x64, .f32⟩
  | 43 => ⟨S_, .f32⟩
  | 44 => ⟨S1048576x64, .f32⟩
  | 45 => ⟨S1048576x64, .f32⟩
  | 46 => ⟨S1048576x64, .f32⟩
  | 47 => ⟨S_, .f32⟩
  | 48 => ⟨S1048576x64, .f32⟩
  | 49 => ⟨S1048576x64, .f32⟩
  | 50 => ⟨S1048576x3, .f32⟩
  | 51 => ⟨S1048576x3, .f32⟩
  | 52 => ⟨S1048576x3, .f32⟩
  | 53 => ⟨S_, .f32⟩
  | 54 => ⟨S1048576x3, .f32⟩
  | 55 => ⟨S1048576x3, .f32⟩
  | 56 => ⟨S_, .f32⟩
  | 57 => ⟨S1048576x3, .f32⟩
  | 58 => ⟨S1048576x3, .f32⟩
  | _ => ⟨S1048576x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1048576x3, .f32⟩

abbrev bufTy : (tb : Table) → Fin (tcTables nBuf tb) → BufTy
  | .hbm, ⟨i, _⟩ => hbmTy i
  | _, _ => ⟨S1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_cst_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_cst_7 : Ref sig .tc := ⟨.hbm, 50, rfl⟩
abbrev main_v25 : Ref sig .tc := ⟨.hbm, 51, rfl⟩
abbrev main_v26 : Ref sig .tc := ⟨.hbm, 52, rfl⟩
abbrev main_cst_8 : Ref sig .tc := ⟨.hbm, 53, rfl⟩
abbrev main_v27 : Ref sig .tc := ⟨.hbm, 54, rfl⟩
abbrev main_v28 : Ref sig .tc := ⟨.hbm, 55, rfl⟩
abbrev main_cst_9 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c : Ref sig .tc := ⟨.hbm, 66, rfl⟩
abbrev main_c_10 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v38 : Ref sig .tc := ⟨.hbm, 73, rfl⟩
abbrev main_c_11 : Ref sig .tc := ⟨.hbm, 74, rfl⟩
abbrev main_v39 : Ref sig .tc := ⟨.hbm, 75, rfl⟩
abbrev main_v40 : Ref sig .tc := ⟨.hbm, 76, rfl⟩
abbrev main_c_12 : Ref sig .tc := ⟨.hbm, 77, rfl⟩
abbrev main_c_13 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v41 : Ref sig .tc := ⟨.hbm, 84, rfl⟩
abbrev main_v42 : Ref sig .tc := ⟨.hbm, 85, rfl⟩
abbrev main_c_14 : Ref sig .tc := ⟨.hbm, 86, rfl⟩
abbrev main_c_15 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_v43 : Ref sig .tc := ⟨.hbm, 93, rfl⟩
abbrev main_c_16 : Ref sig .tc := ⟨.hbm, 94, rfl⟩
abbrev main_v44 : Ref sig .tc := ⟨.hbm, 95, rfl⟩
abbrev main_v45 : Ref sig .tc := ⟨.hbm, 96, rfl⟩
abbrev main_c_17 : Ref sig .tc := ⟨.hbm, 97, rfl⟩
abbrev main_c_18 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_v46 : Ref sig .tc := ⟨.hbm, 104, rfl⟩
abbrev main_c_19 : Ref sig .tc := ⟨.hbm, 105, rfl⟩
abbrev main_v47 : Ref sig .tc := ⟨.hbm, 106, rfl⟩
abbrev main_v48 : Ref sig .tc := ⟨.hbm, 107, rfl⟩
abbrev main_c_20 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_c_21 : Ref sig .tc := ⟨.hbm, 112, rfl⟩
abbrev main_v52 : Ref sig .tc := ⟨.hbm, 113, rfl⟩
abbrev main_v53 : Ref sig .tc := ⟨.hbm, 114, rfl⟩
abbrev main_c_22 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_c_23 : Ref sig .tc := ⟨.hbm, 123, rfl⟩
abbrev main_v61 : Ref sig .tc := ⟨.hbm, 124, rfl⟩
abbrev main_v62 : Ref sig .tc := ⟨.hbm, 125, rfl⟩
abbrev main_c_24 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_c_25 : Ref sig .tc := ⟨.hbm, 130, rfl⟩
abbrev main_v66 : Ref sig .tc := ⟨.hbm, 131, rfl⟩
abbrev main_v67 : Ref sig .tc := ⟨.hbm, 132, rfl⟩
abbrev main_c_26 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_c_27 : Ref sig .tc := ⟨.hbm, 141, rfl⟩
abbrev main_v75 : Ref sig .tc := ⟨.hbm, 142, rfl⟩
abbrev main_v76 : Ref sig .tc := ⟨.hbm, 143, rfl⟩
abbrev main_c_28 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_c_29 : Ref sig .tc := ⟨.hbm, 148, rfl⟩
abbrev main_v80 : Ref sig .tc := ⟨.hbm, 149, rfl⟩
abbrev main_v81 : Ref sig .tc := ⟨.hbm, 150, rfl⟩
abbrev main_c_30 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_c_31 : Ref sig .tc := ⟨.hbm, 159, rfl⟩
abbrev main_v89 : Ref sig .tc := ⟨.hbm, 160, rfl⟩
abbrev main_v90 : Ref sig .tc := ⟨.hbm, 161, rfl⟩
abbrev main_c_32 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_c_33 : Ref sig .tc := ⟨.hbm, 166, rfl⟩
abbrev main_v94 : Ref sig .tc := ⟨.hbm, 167, rfl⟩
abbrev main_v95 : Ref sig .tc := ⟨.hbm, 168, rfl⟩
abbrev main_c_34 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_cst_35 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_cst_36 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_cst_37 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_cst_38 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_cst_39 : Ref sig .tc := ⟨.hbm, 209, rfl⟩
abbrev main_v131 : Ref sig .tc := ⟨.hbm, 210, rfl⟩
abbrev main_v132 : Ref sig .tc := ⟨.hbm, 211, rfl⟩
abbrev main_cst_40 : Ref sig .tc := ⟨.hbm, 212, rfl⟩
abbrev main_v133 : Ref sig .tc := ⟨.hbm, 213, rfl⟩
abbrev main_v134 : Ref sig .tc := ⟨.hbm, 214, rfl⟩
abbrev main_cst_41 : Ref sig .tc := ⟨.hbm, 215, rfl⟩
abbrev main_v135 : Ref sig .tc := ⟨.hbm, 216, rfl⟩
abbrev main_v136 : Ref sig .tc := ⟨.hbm, 217, rfl⟩
abbrev main_cst_42 : Ref sig .tc := ⟨.hbm, 218, rfl⟩
abbrev main_v137 : Ref sig .tc := ⟨.hbm, 219, rfl⟩
abbrev main_v138 : Ref sig .tc := ⟨.hbm, 220, rfl⟩
abbrev main_cst_43 : Ref sig .tc := ⟨.hbm, 221, rfl⟩
abbrev main_v139 : Ref sig .tc := ⟨.hbm, 222, rfl⟩
abbrev main_v140 : Ref sig .tc := ⟨.hbm, 223, rfl⟩
abbrev main_cst_44 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_c_45 : Ref sig .tc := ⟨.hbm, 234, rfl⟩
abbrev main_c_46 : Ref sig .tc := ⟨.hbm, 235, rfl⟩
abbrev main_call5_v0 : Ref sig .tc := ⟨.hbm, 236, rfl⟩
abbrev main_call5_v1 : Ref sig .tc := ⟨.hbm, 237, rfl⟩
abbrev main_call5_v2 : Ref sig .tc := ⟨.hbm, 238, rfl⟩
abbrev main_call5_v3 : Ref sig .tc := ⟨.hbm, 239, rfl⟩
abbrev main_call5_v4 : Ref sig .tc := ⟨.hbm, 240, rfl⟩
abbrev main_v150 : Ref sig .tc := ⟨.hbm, 241, rfl⟩
abbrev main_c_47 : Ref sig .tc := ⟨.hbm, 242, rfl⟩
abbrev main_v151 : Ref sig .tc := ⟨.hbm, 243, rfl⟩
abbrev main_v152 : Ref sig .tc := ⟨.hbm, 244, rfl⟩
abbrev main_c_48 : Ref sig .tc := ⟨.hbm, 245, rfl⟩
abbrev main_c_49 : Ref sig .tc := ⟨.hbm, 246, rfl⟩
abbrev main_call6_v0 : Ref sig .tc := ⟨.hbm, 247, rfl⟩
abbrev main_call6_v1 : Ref sig .tc := ⟨.hbm, 248, rfl⟩
abbrev main_call6_v2 : Ref sig .tc := ⟨.hbm, 249, rfl⟩
abbrev main_call6_v3 : Ref sig .tc := ⟨.hbm, 250, rfl⟩
abbrev main_call6_v4 : Ref sig .tc := ⟨.hbm, 251, rfl⟩
abbrev main_v153 : Ref sig .tc := ⟨.hbm, 252, rfl⟩
abbrev main_v154 : Ref sig .tc := ⟨.hbm, 253, rfl⟩
abbrev main_c_50 : Ref sig .tc := ⟨.hbm, 254, rfl⟩
abbrev main_c_51 : Ref sig .tc := ⟨.hbm, 255, rfl⟩
abbrev main_call7_v0 : Ref sig .tc := ⟨.hbm, 256, rfl⟩
abbrev main_call7_v1 : Ref sig .tc := ⟨.hbm, 257, rfl⟩
abbrev main_call7_v2 : Ref sig .tc := ⟨.hbm, 258, rfl⟩
abbrev main_call7_v3 : Ref sig .tc := ⟨.hbm, 259, rfl⟩
abbrev main_call7_v4 : Ref sig .tc := ⟨.hbm, 260, rfl⟩
abbrev main_v155 : Ref sig .tc := ⟨.hbm, 261, rfl⟩
abbrev main_c_52 : Ref sig .tc := ⟨.hbm, 262, rfl⟩
abbrev main_v156 : Ref sig .tc := ⟨.hbm, 263, rfl⟩
abbrev main_v157 : Ref sig .tc := ⟨.hbm, 264, rfl⟩
abbrev main_c_53 : Ref sig .tc := ⟨.hbm, 265, rfl⟩
abbrev main_c_54 : Ref sig .tc := ⟨.hbm, 266, rfl⟩
abbrev main_call8_v0 : Ref sig .tc := ⟨.hbm, 267, rfl⟩
abbrev main_call8_v1 : Ref sig .tc := ⟨.hbm, 268, rfl⟩
abbrev main_call8_v2 : Ref sig .tc := ⟨.hbm, 269, rfl⟩
abbrev main_call8_v3 : Ref sig .tc := ⟨.hbm, 270, rfl⟩
abbrev main_call8_v4 : Ref sig .tc := ⟨.hbm, 271, rfl⟩
abbrev main_v158 : Ref sig .tc := ⟨.hbm, 272, rfl⟩
abbrev main_c_55 : Ref sig .tc := ⟨.hbm, 273, rfl⟩
abbrev main_v159 : Ref sig .tc := ⟨.hbm, 274, rfl⟩
abbrev main_v160 : Ref sig .tc := ⟨.hbm, 275, rfl⟩
abbrev main_c_56 : Ref sig .tc := ⟨.hbm, 276, rfl⟩
abbrev main_v161 : Ref sig .tc := ⟨.hbm, 277, rfl⟩
abbrev main_v162 : Ref sig .tc := ⟨.hbm, 278, rfl⟩
abbrev main_v163 : Ref sig .tc := ⟨.hbm, 279, rfl⟩
abbrev main_c_57 : Ref sig .tc := ⟨.hbm, 280, rfl⟩
abbrev main_v164 : Ref sig .tc := ⟨.hbm, 281, rfl⟩
abbrev main_v165 : Ref sig .tc := ⟨.hbm, 282, rfl⟩
abbrev main_c_58 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_c_59 : Ref sig .tc := ⟨.hbm, 291, rfl⟩
abbrev main_v173 : Ref sig .tc := ⟨.hbm, 292, rfl⟩
abbrev main_v174 : Ref sig .tc := ⟨.hbm, 293, rfl⟩
abbrev main_c_60 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_c_61 : Ref sig .tc := ⟨.hbm, 298, rfl⟩
abbrev main_v178 : Ref sig .tc := ⟨.hbm, 299, rfl⟩
abbrev main_v179 : Ref sig .tc := ⟨.hbm, 300, rfl⟩
abbrev main_c_62 : Ref sig .tc := ⟨.hbm, 301, rfl⟩
abbrev main_v180 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_c_63 : Ref sig .tc := ⟨.hbm, 309, rfl⟩
abbrev main_v187 : Ref sig .tc := ⟨.hbm, 310, rfl⟩
abbrev main_v188 : Ref sig .tc := ⟨.hbm, 311, rfl⟩
abbrev main_c_64 : Ref sig .tc := ⟨.hbm, 312, rfl⟩
abbrev main_v189 : Ref sig .tc := ⟨.hbm, 313, rfl⟩
abbrev main_v190 : Ref sig .tc := ⟨.hbm, 314, rfl⟩
abbrev main_v191 : Ref sig .tc := ⟨.hbm, 315, rfl⟩
abbrev main_c_65 : Ref sig .tc := ⟨.hbm, 316, rfl⟩
abbrev main_v192 : Ref sig .tc := ⟨.hbm, 317, rfl⟩
abbrev main_v193 : Ref sig .tc := ⟨.hbm, 318, rfl⟩
abbrev main_c_66 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_v197 : Ref sig .tc := ⟨.hbm, 323, rfl⟩
abbrev main_v198 : Ref sig .tc := ⟨.hbm, 324, rfl⟩
abbrev main_v199 : Ref sig .tc := ⟨.hbm, 325, rfl⟩
abbrev main_v200 : Ref sig .tc := ⟨.hbm, 326, rfl⟩
abbrev main_c_67 : Ref sig .tc := ⟨.hbm, 327, rfl⟩
abbrev main_v201 : Ref sig .tc := ⟨.hbm, 328, rfl⟩
abbrev main_v202 : Ref sig .tc := ⟨.hbm, 329, rfl⟩
abbrev main_c_68 : Ref sig .tc := ⟨.hbm, 330, rfl⟩
abbrev main_v203 : Ref sig .tc := ⟨.hbm, 331, rfl⟩
abbrev main_v204 : Ref sig .tc := ⟨.hbm, 332, rfl⟩
abbrev main_v205 : Ref sig .tc := ⟨.hbm, 333, rfl⟩
abbrev main_c_69 : Ref sig .tc := ⟨.hbm, 334, rfl⟩
abbrev main_v206 : Ref sig .tc := ⟨.hbm, 335, rfl⟩
abbrev main_v207 : Ref sig .tc := ⟨.hbm, 336, rfl⟩
abbrev main_c_70 : Ref sig .tc := ⟨.hbm, 337, rfl⟩
abbrev main_v208 : Ref sig .tc := ⟨.hbm, 338, rfl⟩
abbrev main_v209 : Ref sig .tc := ⟨.hbm, 339, rfl⟩
abbrev main_v210 : Ref sig .tc := ⟨.hbm, 340, rfl⟩
abbrev main_v211 : Ref sig .tc := ⟨.hbm, 341, rfl⟩
abbrev main_v212 : Ref sig .tc := ⟨.hbm, 342, rfl⟩
abbrev main_v213 : Ref sig .tc := ⟨.hbm, 343, rfl⟩
abbrev main_v214 : Ref sig .tc := ⟨.hbm, 344, rfl⟩
abbrev main_cst_71 : Ref sig .tc := ⟨.hbm, 345, rfl⟩
abbrev main_v215 : Ref sig .tc := ⟨.hbm, 346, rfl⟩
abbrev main_v216 : Ref sig .tc := ⟨.hbm, 347, rfl⟩
abbrev main_v217 : Ref sig .tc := ⟨.hbm, 348, rfl⟩
abbrev main_v218 : Ref sig .tc := ⟨.hbm, 349, rfl⟩
abbrev main_cst_72 : Ref sig .tc := ⟨.hbm, 350, rfl⟩
abbrev main_v219 : Ref sig .tc := ⟨.hbm, 351, rfl⟩
abbrev main_v220 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_v224 : Ref sig .tc := ⟨.hbm, 356, rfl⟩
abbrev main_cst_73 : Ref sig .tc := ⟨.hbm, 357, rfl⟩
abbrev main_v225 : Ref sig .tc := ⟨.hbm, 358, rfl⟩
abbrev main_v226 : Ref sig .tc := ⟨.hbm, 359, rfl⟩
abbrev main_v227 : Ref sig .tc := ⟨.hbm, 360, rfl⟩
abbrev main_v228 : Ref sig .tc := ⟨.hbm, 361, rfl⟩
abbrev main_v229 : Ref sig .tc := ⟨.hbm, 362, rfl⟩
abbrev main_cst_74 : Ref sig .tc := ⟨.hbm, 363, rfl⟩
abbrev main_v230 : Ref sig .tc := ⟨.hbm, 364, rfl⟩
abbrev main_v231 : Ref sig .tc := ⟨.hbm, 365, rfl⟩
abbrev main_v232 : Ref sig .tc := ⟨.hbm, 366, rfl⟩
abbrev main_v233 : Ref sig .tc := ⟨.hbm, 367, rfl⟩
abbrev main_v234 : Ref sig .tc := ⟨.hbm, 368, rfl⟩
abbrev main_v235 : Ref sig .tc := ⟨.hbm, 369, rfl⟩
abbrev main_v236 : Ref sig .tc := ⟨.hbm, 370, rfl⟩
abbrev main_v237 : Ref sig .tc := ⟨.hbm, 371, rfl⟩
abbrev main_v238 : Ref sig .tc := ⟨.hbm, 372, rfl⟩
abbrev main_v239 : Ref sig .tc := ⟨.hbm, 373, rfl⟩
abbrev main_v240 : Ref sig .tc := ⟨.hbm, 374, rfl⟩
abbrev main_v241 : Ref sig .tc := ⟨.hbm, 375, rfl⟩
abbrev main_v242 : Ref sig .tc := ⟨.hbm, 376, rfl⟩
abbrev main_cst_75 : Ref sig .tc := ⟨.hbm, 377, rfl⟩
abbrev main_v243 : Ref sig .tc := ⟨.hbm, 378, rfl⟩
abbrev main_v244 : Ref sig .tc := ⟨.hbm, 379, rfl⟩
abbrev main_cst_76 : Ref sig .tc := ⟨.hbm, 380, rfl⟩
abbrev main_v245 : Ref sig .tc := ⟨.hbm, 381, rfl⟩
abbrev main_v246 : Ref sig .tc := ⟨.hbm, 382, rfl⟩
abbrev main_cst_77 : Ref sig .tc := ⟨.hbm, 383, rfl⟩
abbrev main_v247 : Ref sig .tc := ⟨.hbm, 384, rfl⟩
abbrev main_v248 : Ref sig .tc := ⟨.hbm, 385, rfl⟩
abbrev main_cst_78 : Ref sig .tc := ⟨.hbm, 386, rfl⟩
abbrev main_v249 : Ref sig .tc := ⟨.hbm, 387, rfl⟩
abbrev main_v250 : Ref sig .tc := ⟨.hbm, 388, rfl⟩
abbrev main_cst_79 : Ref sig .tc := ⟨.hbm, 389, rfl⟩
abbrev main_v251 : Ref sig .tc := ⟨.hbm, 390, rfl⟩
abbrev main_v252 : Ref sig .tc := ⟨.hbm, 391, rfl⟩
abbrev main_cst_80 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_v256 : Ref sig .tc := ⟨.hbm, 396, rfl⟩
abbrev main_v257 : Ref sig .tc := ⟨.hbm, 397, rfl⟩
abbrev main_v258 : Ref sig .tc := ⟨.hbm, 398, rfl⟩
abbrev main_v259 : Ref sig .tc := ⟨.hbm, 399, rfl⟩
abbrev main_v260 : Ref sig .tc := ⟨.hbm, 400, rfl⟩
abbrev main_v261 : Ref sig .tc := ⟨.hbm, 401, rfl⟩
abbrev main_c_81 : Ref sig .tc := ⟨.hbm, 402, rfl⟩
abbrev main_c_82 : Ref sig .tc := ⟨.hbm, 403, rfl⟩
abbrev main_call9_v0 : Ref sig .tc := ⟨.hbm, 404, rfl⟩
abbrev main_call9_v1 : Ref sig .tc := ⟨.hbm, 405, rfl⟩
abbrev main_call9_v2 : Ref sig .tc := ⟨.hbm, 406, rfl⟩
abbrev main_call9_v3 : Ref sig .tc := ⟨.hbm, 407, rfl⟩
abbrev main_call9_v4 : Ref sig .tc := ⟨.hbm, 408, rfl⟩
abbrev main_v262 : Ref sig .tc := ⟨.hbm, 409, rfl⟩
abbrev main_c_83 : Ref sig .tc := ⟨.hbm, 410, rfl⟩
abbrev main_v263 : Ref sig .tc := ⟨.hbm, 411, rfl⟩
abbrev main_v264 : Ref sig .tc := ⟨.hbm, 412, rfl⟩
abbrev main_c_84 : Ref sig .tc := ⟨.hbm, 413, rfl⟩
abbrev main_c_85 : Ref sig .tc := ⟨.hbm, 414, rfl⟩
abbrev main_call10_v0 : Ref sig .tc := ⟨.hbm, 415, rfl⟩
abbrev main_call10_v1 : Ref sig .tc := ⟨.hbm, 416, rfl⟩
abbrev main_call10_v2 : Ref sig .tc := ⟨.hbm, 417, rfl⟩
abbrev main_call10_v3 : Ref sig .tc := ⟨.hbm, 418, rfl⟩
abbrev main_call10_v4 : Ref sig .tc := ⟨.hbm, 419, rfl⟩
abbrev main_v265 : Ref sig .tc := ⟨.hbm, 420, rfl⟩
abbrev main_v266 : Ref sig .tc := ⟨.hbm, 421, rfl⟩
abbrev main_c_86 : Ref sig .tc := ⟨.hbm, 422, rfl⟩
abbrev main_c_87 : Ref sig .tc := ⟨.hbm, 423, rfl⟩
abbrev main_call11_v0 : Ref sig .tc := ⟨.hbm, 424, rfl⟩
abbrev main_call11_v1 : Ref sig .tc := ⟨.hbm, 425, rfl⟩
abbrev main_call11_v2 : Ref sig .tc := ⟨.hbm, 426, rfl⟩
abbrev main_call11_v3 : Ref sig .tc := ⟨.hbm, 427, rfl⟩
abbrev main_call11_v4 : Ref sig .tc := ⟨.hbm, 428, rfl⟩
abbrev main_v267 : Ref sig .tc := ⟨.hbm, 429, rfl⟩
abbrev main_c_88 : Ref sig .tc := ⟨.hbm, 430, rfl⟩
abbrev main_v268 : Ref sig .tc := ⟨.hbm, 431, rfl⟩
abbrev main_v269 : Ref sig .tc := ⟨.hbm, 432, rfl⟩
abbrev main_c_89 : Ref sig .tc := ⟨.hbm, 433, rfl⟩
abbrev main_c_90 : Ref sig .tc := ⟨.hbm, 434, rfl⟩
abbrev main_call12_v0 : Ref sig .tc := ⟨.hbm, 435, rfl⟩
abbrev main_call12_v1 : Ref sig .tc := ⟨.hbm, 436, rfl⟩
abbrev main_call12_v2 : Ref sig .tc := ⟨.hbm, 437, rfl⟩
abbrev main_call12_v3 : Ref sig .tc := ⟨.hbm, 438, rfl⟩
abbrev main_call12_v4 : Ref sig .tc := ⟨.hbm, 439, rfl⟩
abbrev main_v270 : Ref sig .tc := ⟨.hbm, 440, rfl⟩
abbrev main_c_91 : Ref sig .tc := ⟨.hbm, 441, rfl⟩
abbrev main_v271 : Ref sig .tc := ⟨.hbm, 442, rfl⟩
abbrev main_v272 : Ref sig .tc := ⟨.hbm, 443, rfl⟩
abbrev main_c_92 : Ref sig .tc := ⟨.hbm, 444, rfl⟩
abbrev main_v273 : Ref sig .tc := ⟨.hbm, 445, rfl⟩
abbrev main_v274 : Ref sig .tc := ⟨.hbm, 446, rfl⟩
abbrev main_v275 : Ref sig .tc := ⟨.hbm, 447, rfl⟩
abbrev main_c_93 : Ref sig .tc := ⟨.hbm, 448, rfl⟩
abbrev main_v276 : Ref sig .tc := ⟨.hbm, 449, rfl⟩
abbrev main_v277 : Ref sig .tc := ⟨.hbm, 450, rfl⟩
abbrev main_c_94 : Ref sig .tc := ⟨.hbm, 451, rfl⟩
abbrev main_v278 : Ref sig .tc := ⟨.hbm, 452, rfl⟩
abbrev main_v279 : Ref sig .tc := ⟨.hbm, 453, rfl⟩
abbrev main_v280 : Ref sig .tc := ⟨.hbm, 454, rfl⟩
abbrev main_v281 : Ref sig .tc := ⟨.hbm, 455, rfl⟩
abbrev main_v282 : Ref sig .tc := ⟨.hbm, 456, rfl⟩
abbrev main_v283 : Ref sig .tc := ⟨.hbm, 457, rfl⟩
abbrev main_v284 : Ref sig .tc := ⟨.hbm, 458, rfl⟩
abbrev main_c_95 : Ref sig .tc := ⟨.hbm, 459, rfl⟩
abbrev main_v285 : Ref sig .tc := ⟨.hbm, 460, rfl⟩
abbrev main_v286 : Ref sig .tc := ⟨.hbm, 461, rfl⟩
abbrev main_c_96 : Ref sig .tc := ⟨.hbm, 462, rfl⟩
abbrev main_v287 : Ref sig .tc := ⟨.hbm, 463, rfl⟩
abbrev main_v288 : Ref sig .tc := ⟨.hbm, 464, rfl⟩
abbrev main_v289 : Ref sig .tc := ⟨.hbm, 465, rfl⟩
abbrev main_c_97 : Ref sig .tc := ⟨.hbm, 466, rfl⟩
abbrev main_v290 : Ref sig .tc := ⟨.hbm, 467, rfl⟩
abbrev main_v291 : Ref sig .tc := ⟨.hbm, 468, rfl⟩
abbrev main_c_98 : Ref sig .tc := ⟨.hbm, 469, rfl⟩
abbrev main_v292 : Ref sig .tc := ⟨.hbm, 470, rfl⟩
abbrev main_v293 : Ref sig .tc := ⟨.hbm, 471, rfl⟩
abbrev main_v294 : Ref sig .tc := ⟨.hbm, 472, rfl⟩
abbrev main_v295 : Ref sig .tc := ⟨.hbm, 473, rfl⟩
abbrev main_v296 : Ref sig .tc := ⟨.hbm, 474, rfl⟩
abbrev main_v297 : Ref sig .tc := ⟨.hbm, 475, rfl⟩
abbrev main_v298 : Ref sig .tc := ⟨.hbm, 476, rfl⟩
abbrev main_c_99 : Ref sig .tc := ⟨.hbm, 477, rfl⟩
abbrev main_v299 : Ref sig .tc := ⟨.hbm, 478, rfl⟩
abbrev main_v300 : Ref sig .tc := ⟨.hbm, 479, rfl⟩
abbrev main_c_100 : Ref sig .tc := ⟨.hbm, 480, rfl⟩
abbrev main_v301 : Ref sig .tc := ⟨.hbm, 481, rfl⟩
abbrev main_v302 : Ref sig .tc := ⟨.hbm, 482, rfl⟩
abbrev main_v303 : Ref sig .tc := ⟨.hbm, 483, rfl⟩
abbrev main_c_101 : Ref sig .tc := ⟨.hbm, 484, rfl⟩
abbrev main_v304 : Ref sig .tc := ⟨.hbm, 485, rfl⟩
abbrev main_v305 : Ref sig .tc := ⟨.hbm, 486, rfl⟩
abbrev main_c_102 : Ref sig .tc := ⟨.hbm, 487, rfl⟩
abbrev main_v306 : Ref sig .tc := ⟨.hbm, 488, rfl⟩
abbrev main_v307 : Ref sig .tc := ⟨.hbm, 489, rfl⟩
abbrev main_v308 : Ref sig .tc := ⟨.hbm, 490, rfl⟩
abbrev main_v309 : Ref sig .tc := ⟨.hbm, 491, rfl⟩
abbrev main_v310 : Ref sig .tc := ⟨.hbm, 492, rfl⟩
abbrev main_v311 : Ref sig .tc := ⟨.hbm, 493, rfl⟩
abbrev main_v312 : Ref sig .tc := ⟨.hbm, 494, rfl⟩
abbrev main_c_103 : Ref sig .tc := ⟨.hbm, 495, rfl⟩
abbrev main_v313 : Ref sig .tc := ⟨.hbm, 496, rfl⟩
abbrev main_v314 : Ref sig .tc := ⟨.hbm, 497, rfl⟩
abbrev main_c_104 : Ref sig .tc := ⟨.hbm, 498, rfl⟩
abbrev main_v315 : Ref sig .tc := ⟨.hbm, 499, rfl⟩
abbrev main_v316 : Ref sig .tc := ⟨.hbm, 500, rfl⟩
abbrev main_v317 : Ref sig .tc := ⟨.hbm, 501, rfl⟩
abbrev main_c_105 : Ref sig .tc := ⟨.hbm, 502, rfl⟩
abbrev main_v318 : Ref sig .tc := ⟨.hbm, 503, rfl⟩
abbrev main_v319 : Ref sig .tc := ⟨.hbm, 504, rfl⟩
abbrev main_c_106 : Ref sig .tc := ⟨.hbm, 505, rfl⟩
abbrev main_v320 : Ref sig .tc := ⟨.hbm, 506, rfl⟩
abbrev main_v321 : Ref sig .tc := ⟨.hbm, 507, rfl⟩
abbrev main_v322 : Ref sig .tc := ⟨.hbm, 508, rfl⟩
abbrev main_v323 : Ref sig .tc := ⟨.hbm, 509, rfl⟩
abbrev main_v324 : Ref sig .tc := ⟨.hbm, 510, rfl⟩
abbrev main_v325 : Ref sig .tc := ⟨.hbm, 511, rfl⟩
abbrev main_v326 : Ref sig .tc := ⟨.hbm, 512, rfl⟩
abbrev main_cst_107 : Ref sig .tc := ⟨.hbm, 513, rfl⟩
abbrev main_v327 : Ref sig .tc := ⟨.hbm, 514, rfl⟩
abbrev main_v328 : Ref sig .tc := ⟨.hbm, 515, rfl⟩
abbrev main_v329 : Ref sig .tc := ⟨.hbm, 516, rfl⟩
abbrev main_v330 : Ref sig .tc := ⟨.hbm, 517, rfl⟩
abbrev main_cst_108 : Ref sig .tc := ⟨.hbm, 518, rfl⟩
abbrev main_v331 : Ref sig .tc := ⟨.hbm, 519, rfl⟩
abbrev main_v332 : Ref sig .tc := ⟨.hbm, 520, rfl⟩
abbrev main_v333 : Ref sig .tc := ⟨.hbm, 521, rfl⟩
abbrev main_v334 : Ref sig .tc := ⟨.hbm, 522, rfl⟩
abbrev main_v335 : Ref sig .tc := ⟨.hbm, 523, rfl⟩
abbrev main_v336 : Ref sig .tc := ⟨.hbm, 524, rfl⟩
abbrev main_cst_109 : Ref sig .tc := ⟨.hbm, 525, rfl⟩
abbrev main_v337 : Ref sig .tc := ⟨.hbm, 526, rfl⟩
abbrev main_v338 : Ref sig .tc := ⟨.hbm, 527, rfl⟩
abbrev main_v339 : Ref sig .tc := ⟨.hbm, 528, rfl⟩
abbrev main_v340 : Ref sig .tc := ⟨.hbm, 529, rfl⟩
abbrev main_v341 : Ref sig .tc := ⟨.hbm, 530, rfl⟩
abbrev main_cst_110 : Ref sig .tc := ⟨.hbm, 531, rfl⟩
abbrev main_v342 : Ref sig .tc := ⟨.hbm, 532, rfl⟩
abbrev main_v343 : Ref sig .tc := ⟨.hbm, 533, rfl⟩
abbrev main_v344 : Ref sig .tc := ⟨.hbm, 534, rfl⟩
abbrev main_v345 : Ref sig .tc := ⟨.hbm, 535, rfl⟩
abbrev main_v346 : Ref sig .tc := ⟨.hbm, 536, rfl⟩
abbrev main_v347 : Ref sig .tc := ⟨.hbm, 537, rfl⟩
abbrev main_v348 : Ref sig .tc := ⟨.hbm, 538, rfl⟩
abbrev main_v349 : Ref sig .tc := ⟨.hbm, 539, rfl⟩
abbrev main_v350 : Ref sig .tc := ⟨.hbm, 540, rfl⟩
abbrev main_v351 : Ref sig .tc := ⟨.hbm, 541, rfl⟩
abbrev main_v352 : Ref sig .tc := ⟨.hbm, 542, rfl⟩
abbrev main_v353 : Ref sig .tc := ⟨.hbm, 543, rfl⟩
abbrev main_v354 : Ref sig .tc := ⟨.hbm, 544, rfl⟩
abbrev main_v355 : Ref sig .tc := ⟨.hbm, 545, rfl⟩
abbrev main_v356 : Ref sig .tc := ⟨.hbm, 546, rfl⟩
abbrev main_call13_cst : Ref sig .tc := ⟨.hbm, 547, rfl⟩
abbrev main_call13_v0 : Ref sig .tc := ⟨.hbm, 548, rfl⟩
abbrev main_v357 : Ref sig .tc := ⟨.hbm, 549, rfl⟩
abbrev main_v358 : Ref sig .tc := ⟨.hbm, 550, rfl⟩
abbrev main_v359 : Ref sig .tc := ⟨.hbm, 551, rfl⟩
abbrev main_v360 : Ref sig .tc := ⟨.hbm, 552, rfl⟩
abbrev main_v361 : Ref sig .tc := ⟨.hbm, 553, rfl⟩
abbrev main_v362 : Ref sig .tc := ⟨.hbm, 554, rfl⟩
abbrev main_call14_cst : Ref sig .tc := ⟨.hbm, 555, rfl⟩
abbrev main_call14_v0 : Ref sig .tc := ⟨.hbm, 556, rfl⟩
abbrev main_v363 : Ref sig .tc := ⟨.hbm, 557, rfl⟩
abbrev main_v364 : Ref sig .tc := ⟨.hbm, 558, rfl⟩
abbrev main_call15_cst : Ref sig .tc := ⟨.hbm, 559, rfl⟩
abbrev main_call15_v0 : Ref sig .tc := ⟨.hbm, 560, rfl⟩
abbrev main_v365 : Ref sig .tc := ⟨.hbm, 561, rfl⟩
abbrev main_v366 : Ref sig .tc := ⟨.hbm, 562, rfl⟩
abbrev main_v367 : Ref sig .tc := ⟨.hbm, 563, rfl⟩
abbrev main_v368 : Ref sig .tc := ⟨.hbm, 564, rfl⟩
abbrev main_cst_111 : Ref sig .tc := ⟨.hbm, 565, rfl⟩
abbrev main_v369 : Ref sig .tc := ⟨.hbm, 566, rfl⟩
abbrev main_v370 : Ref sig .tc := ⟨.hbm, 567, rfl⟩
abbrev main_cst_112 : Ref sig .tc := ⟨.hbm, 568, rfl⟩
abbrev main_v371 : Ref sig .tc := ⟨.hbm, 569, rfl⟩
abbrev main_v372 : Ref sig .tc := ⟨.hbm, 570, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  bcast_S_S1048576x3 : S_.BroadcastsInDim S1048576x3 (![] : Fin 0 → Fin S1048576x3.rank)
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  bcast_S_S1048576 : S_.BroadcastsInDim S1048576 (![] : Fin 0 → Fin S1048576.rank)
  bcast_S1048576_S1x1048576_1 : S1048576.BroadcastsInDim S1x1048576 (![1] : Fin 1 → Fin S1x1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  bcast_S_S1x1048576 : S_.BroadcastsInDim S1x1048576 (![] : Fin 0 → Fin S1x1048576.rank)
  bcast_S1x1048576_S32x1048576_0_1 : S1x1048576.BroadcastsInDim S32x1048576 (![0, 1] : Fin 2 → Fin S32x1048576.rank)
  transposes_S32x1048576_S1048576x32_1_0 : S32x1048576.Transposes [1, 0] S1048576x32
  concatenates_S1048576x32_S1048576x32_S1048576x32_S1048576x96_d1 : Shape.Concatenates [S1048576x32, S1048576x32, S1048576x32] S1048576x96 1
  bcast_S_S1048576x64 : S_.BroadcastsInDim S1048576x64 (![] : Fin 0 → Fin S1048576x64.rank)
  slices_S1048576x16_S1048576x1_0_0 : S1048576x16.Slices ![0, 0] S1048576x1
  slices_S1048576x16_S1048576x15_0_1 : S1048576x16.Slices ![0, 1] S1048576x15
  gather_S32x256x256_S1048576x2_S32x1048576_0_12_n_n_12_1_3211_wf : GatherDims.WF S32x256x256 S1048576x2 S32x1048576 [0] [1, 2] [] [1, 2] [] 1 ![32, 1, 1]
  dot_S1048576x96_S96x64_S1048576x64_1_0_0_1_n_n_wf : DotDims.WF S1048576x96 S96x64 S1048576x64 [1] [0] [0] [1] [] []
  dot_S1048576x64_S64x16_S1048576x16_1_0_0_1_n_n_wf : DotDims.WF S1048576x64 S64x16 S1048576x16 [1] [0] [0] [1] [] []
  dot_S1048576x15_S15x64_S1048576x64_1_0_0_1_n_n_wf : DotDims.WF S1048576x15 S15x64 S1048576x64 [1] [0] [0] [1] [] []
  dot_S1048576x64_S64x64_S1048576x64_1_0_0_1_n_n_wf : DotDims.WF S1048576x64 S64x64 S1048576x64 [1] [0] [0] [1] [] []
  dot_S1048576x64_S64x3_S1048576x3_1_0_0_1_n_n_wf : DotDims.WF S1048576x64 S64x3 S1048576x3 [1] [0] [0] [1] [] []

variable [Facts₀]

def gather_S32x256x256_S1048576x2_S32x1048576_0_12_n_n_12_1_3211 : GatherDims S32x256x256 S1048576x2 S32x1048576 where
  offsetDims := [0]
  collapsedSliceDims := [1, 2]
  operandBatchingDims := []
  startIndicesBatchingDims := []
  startIndexMap := [1, 2]
  indexVectorDim := 1
  sliceSizes := ![32, 1, 1]
  wf := gather_S32x256x256_S1048576x2_S32x1048576_0_12_n_n_12_1_3211_wf
def dot_S1048576x96_S96x64_S1048576x64_1_0_0_1_n_n : DotDims S1048576x96 S96x64 S1048576x64 where
  lhsContracting := [1]
  rhsContracting := [0]
  lhsNonContracting := [0]
  rhsNonContracting := [1]
  lhsBatch := []
  rhsBatch := []
  wf := dot_S1048576x96_S96x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S1048576x15_S15x64_S1048576x64_1_0_0_1_n_n : DotDims S1048576x15 S15x64 S1048576x64 where
  lhsContracting := [1]
  rhsContracting := [0]
  lhsNonContracting := [0]
  rhsNonContracting := [1]
  lhsBatch := []
  rhsBatch := []
  wf := dot_S1048576x15_S15x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf

class Facts : Prop extends Facts₀ where

variable [Facts]
-- ==== Proof.BitsHost.lean ====
/-
  The host side of the program around its one kernel launch.

  @main is a long straight line of array operations (the clamp of the points into the unit cube, three
  bilinear plane samples — four gathers and four weights each —, their concatenation into the feature
  matrix), then the launch, then one reshape of the density column. Here: the contents every buffer has
  when the launch is reached, as a fold of those operations over the launch-time memory; that this is
  what @main reduces to; that no operation before or after the launch writes an argument array (every
  operation writes one buffer of its own, and those are numbered after the twelve arguments); and what
  the one operation after the launch is allowed to touch.
-/
import proofs.«146460_j62938450755822_2_alg».proof.Proof.Gen.Kernel.Launch
import Idealize.ShloMosaic.Lib.Pipeline.FrameBody
import Idealize.ShloMosaic.Lib.Pipeline.FrameSuffix

set_option maxRecDepth 16384

noncomputable section

namespace Cert.Kernel.Host

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! ## Operations that write only buffers numbered from `n` on -/

/-- Every buffer the operation writes is a TensorCore reference whose index is at least `n`. -/
def WritesFrom (n : ℕ) (op : HloOp τ sig (Elt F)) : Prop :=
  ∀ b ∈ op.writes, ∃ y : Ref sig .tc, b = Proc.devRef .tc y ∧ n ≤ y.idx.val

/-- A line of such operations leaves every reference numbered below `n` as it found it. -/
theorem after_below (n : ℕ) (ops : List (HloOp τ sig (Elt F))) (W : Valuation τ sig (Elt F))
    (h : ops.Forall (WritesFrom n)) (r : Ref sig .tc) (hr : r.idx.val < n) :
    StableHlo.after ops W (Proc.devRef .tc r) = W (Proc.devRef .tc r) :=
  StableHlo.after_of_forall_not_mem ops W fun op hop hb => by
    obtain ⟨y, e, hy⟩ := (List.forall_iff_forall_mem.mp h) op hop _ hb
    obtain rfl : r = y := Proc.devRef_injective _ e
    omega

/-- The same for several lines one after the other. -/
theorem after_flatten_below (n : ℕ) : ∀ (opss : List (List (HloOp τ sig (Elt F)))) (W : Valuation τ sig (Elt F)),
    (opss.Forall fun ops => ops.Forall (WritesFrom n)) → ∀ (r : Ref sig .tc), r.idx.val < n →
    StableHlo.after opss.flatten W (Proc.devRef .tc r) = W (Proc.devRef .tc r)
  | [], _, _, _, _ => rfl
  | ops :: opss, W, h, r, hr => by
    have h' := List.forall_iff_forall_mem.mp h
    rw [List.flatten_cons, StableHlo.after_append,
      after_flatten_below n opss _ (List.forall_iff_forall_mem.mpr fun o ho => h' o (List.mem_cons_of_mem _ ho)) r hr,
      after_below n ops W (h' ops List.mem_cons_self) r hr]

/-- One operation at a time: the buffer written is the operation's own result, read off the operation. -/
macro "writes_own" : tactic =>
  `(tactic| (simp only [List.Forall]; repeat' constructor
             all_goals exact fun b hb => ⟨_, Finset.mem_singleton.mp hb, by decide⟩))

theorem high_0 : (hostOps0 : List (HloOp τ sig (Elt F))).Forall (WritesFrom 12) := by writes_own
theorem high_1 : (hostOps0_1 : List (HloOp τ sig (Elt F))).Forall (WritesFrom 12) := by writes_own
theorem high_2 : (hostOps0_2 : List (HloOp τ sig (Elt F))).Forall (WritesFrom 12) := by writes_own
theorem high_3 : (hostOps0_3 : List (HloOp τ sig (Elt F))).Forall (WritesFrom 12) := by writes_own
theorem high_4 : (hostOps0_4 : List (HloOp τ sig (Elt F))).Forall (WritesFrom 12) := by writes_own
theorem high_5 : (hostOps0_5 : List (HloOp τ sig (Elt F))).Forall (WritesFrom 12) := by writes_own
theorem high_6 : (hostOps0_6 : List (HloOp τ sig (Elt F))).Forall (WritesFrom 12) := by writes_own
theorem high_7 : (hostOps0_7 : List (HloOp τ sig (Elt F))).Forall (WritesFrom 12) := by writes_own
theorem high_8 : (hostOps0_8 : List (HloOp τ sig (Elt F))).Forall (WritesFrom 12) := by writes_own
theorem high_9 : (hostOps0_9 : List (HloOp τ sig (Elt F))).Forall (WritesFrom 12) := by writes_own
theorem high_10 : (hostOps0_10 : List (HloOp τ sig (Elt F))).Forall (WritesFrom 12) := by writes_own
theorem high_11 : (hostOps0_11 : List (HloOp τ sig (Elt F))).Forall (WritesFrom 12) := by writes_own
theorem high_12 : (hostOps0_12 : List (HloOp τ sig (Elt F))).Forall (WritesFrom 12) := by writes_own
theorem high_13 : (hostOps0_13 : List (HloOp τ sig (Elt F))).Forall (WritesFrom 12) := by writes_own
theorem high_14 : (hostOps0_14 : List (HloOp τ sig (Elt F))).Forall (WritesFrom 12) := by writes_own
theorem high_15 : (hostOps0_15 : List (HloOp τ sig (Elt F))).Forall (WritesFrom 12) := by writes_own
theorem high_16 : (hostOps0_16 : List (HloOp τ sig (Elt F))).Forall (WritesFrom 12) := by writes_own
theorem high_17 : (hostOps0_17 : List (HloOp τ sig (Elt F))).Forall (WritesFrom 12) := by writes_own
theorem high_18 : (hostOps0_18 : List (HloOp τ sig (Elt F))).Forall (WritesFrom 12) := by writes_own
theorem high_19 : (hostOps0_19 : List (HloOp τ sig (Elt F))).Forall (WritesFrom 12) := by writes_own
theorem high_20 : (hostOps0_20 : List (HloOp τ sig (Elt F))).Forall (WritesFrom 12) := by writes_own
theorem high_21 : (hostOps0_21 : List (HloOp τ sig (Elt F))).Forall (WritesFrom 12) := by writes_own
theorem high_22 : (hostOps0_22 : List (HloOp τ sig (Elt F))).Forall (WritesFrom 12) := by writes_own
theorem high_23 : (hostOps0_23 : List (HloOp τ sig (Elt F))).Forall (WritesFrom 12) := by writes_own
theorem high_24 : (hostOps0_24 : List (HloOp τ sig (Elt F))).Forall (WritesFrom 12) := by writes_own
theorem high_25 : (hostOps0_25 : List (HloOp τ sig (Elt F))).Forall (WritesFrom 12) := by writes_own
theorem high_26 : (hostOps0_26 : List (HloOp τ sig (Elt F))).Forall (WritesFrom 12) := by writes_own
theorem high_tail : (hostOps1 : List (HloOp τ sig (Elt F))).Forall (WritesFrom 12) := by writes_own

/-! ## Nothing is allocated -/

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor
theorem fresh_3 : (hostOps0_3 : List (HloOp τ sig (Elt F))).Forall fun op => op.fresh = ∅ := by
  simp only [List.Forall]; repeat' constructor
theorem fresh_4 : (hostOps0_4 : List (HloOp τ sig (Elt F))).Forall fun op => op.fresh = ∅ := by
  simp only [List.Forall]; repeat' constructor
theorem fresh_5 : (hostOps0_5 : List (HloOp τ sig (Elt F))).Forall fun op => op.fresh = ∅ := by
  simp only [List.Forall]; repeat' constructor
theorem fresh_6 : (hostOps0_6 : List (HloOp τ sig (Elt F))).Forall fun op => op.fresh = ∅ := by
  simp only [List.Forall]; repeat' constructor
theorem fresh_7 : (hostOps0_7 : List (HloOp τ sig (Elt F))).Forall fun op => op.fresh = ∅ := by
  simp only [List.Forall]; repeat' constructor
theorem fresh_8 : (hostOps0_8 : List (HloOp τ sig (Elt F))).Forall fun op => op.fresh = ∅ := by
  simp only [List.Forall]; repeat' constructor
theorem fresh_9 : (hostOps0_9 : List (HloOp τ sig (Elt F))).Forall fun op => op.fresh = ∅ := by
  simp only [List.Forall]; repeat' constructor
theorem fresh_10 : (hostOps0_10 : List (HloOp τ sig (Elt F))).Forall fun op => op.fresh = ∅ := by
  simp only [List.Forall]; repeat' constructor
theorem fresh_11 : (hostOps0_11 : List (HloOp τ sig (Elt F))).Forall fun op => op.fresh = ∅ := by
  simp only [List.Forall]; repeat' constructor
theorem fresh_12 : (hostOps0_12 : List (HloOp τ sig (Elt F))).Forall fun op => op.fresh = ∅ := by
  simp only [List.Forall]; repeat' constructor
theorem fresh_13 : (hostOps0_13 : List (HloOp τ sig (Elt F))).Forall fun op => op.fresh = ∅ := by
  simp only [List.Forall]; repeat' constructor
theorem fresh_14 : (hostOps0_14 : List (HloOp τ sig (Elt F))).Forall fun op => op.fresh = ∅ := by
  simp only [List.Forall]; repeat' constructor
theorem fresh_15 : (hostOps0_15 : List (HloOp τ sig (Elt F))).Forall fun op => op.fresh = ∅ := by
  simp only [List.Forall]; repeat' constructor
theorem fresh_16 : (hostOps0_16 : List (HloOp τ sig (Elt F))).Forall fun op => op.fresh = ∅ := by
  simp only [List.Forall]; repeat' constructor
theorem fresh_17 : (hostOps0_17 : List (HloOp τ sig (Elt F))).Forall fun op => op.fresh = ∅ := by
  simp only [List.Forall]; repeat' constructor
theorem fresh_18 : (hostOps0_18 : List (HloOp τ sig (Elt F))).Forall fun op => op.fresh = ∅ := by
  simp only [List.Forall]; repeat' constructor
theorem fresh_19 : (hostOps0_19 : List (HloOp τ sig (Elt F))).Forall fun op => op.fresh = ∅ := by
  simp only [List.Forall]; repeat' constructor
theorem fresh_20 : (hostOps0_20 : List (HloOp τ sig (Elt F))).Forall fun op => op.fresh = ∅ := by
  simp only [List.Forall]; repeat' constructor
theorem fresh_21 : (hostOps0_21 : List (HloOp τ sig (Elt F))).Forall fun op => op.fresh = ∅ := by
  simp only [List.Forall]; repeat' constructor
theorem fresh_22 : (hostOps0_22 : List (HloOp τ sig (Elt F))).Forall fun op => op.fresh = ∅ := by
  simp only [List.Forall]; repeat' constructor
theorem fresh_23 : (hostOps0_23 : List (HloOp τ sig (Elt F))).Forall fun op => op.fresh = ∅ := by
  simp only [List.Forall]; repeat' constructor
theorem fresh_24 : (hostOps0_24 : List (HloOp τ sig (Elt F))).Forall fun op => op.fresh = ∅ := by
  simp only [List.Forall]; repeat' constructor
theorem fresh_25 : (hostOps0_25 : List (HloOp τ sig (Elt F))).Forall fun op => op.fresh = ∅ := by
  simp only [List.Forall]; repeat' constructor
theorem fresh_26 : (hostOps0_26 : List (HloOp τ sig (Elt F))).Forall fun op => op.fresh = ∅ := by
  simp only [List.Forall]; repeat' constructor
theorem fresh_tail : (hostOps1 : List (HloOp τ sig (Elt F))).Forall fun op => op.fresh = ∅ := by
  simp only [List.Forall]; repeat' constructor

/-! ## @main around the launch -/

/-- The operations before the launch, stretch by stretch (a called function's body is a stretch of its own). -/
abbrev before : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]

variable (m : (ℓ : Loc nD τ sig) → Buf (Elt F) ℓ) (ρ : Dev nD → PrngReg)

/-- What every TensorCore buffer of core `c` holds when the launch is reached. -/
abbrev V0 (c : Dev nD) : Valuation τ sig (Elt F) := StableHlo.after (List.flatten before) (fun b => m (c, b))
/-- The same read at a reference. -/
abbrev V (c : Dev nD) (b : Ref sig .tc) : Buf (Elt F) ((c : Thread nD τ).loc b) := V0 m c (Proc.devRef .tc b)

theorem before_sub : (before (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub⟩

theorem before_fresh : (before (F := F)).Forall fun ops => ops.Forall fun op => op.fresh = ∅ := by
  simp only [List.Forall]
  exact ⟨fresh_0, fresh_1, fresh_2, fresh_3, fresh_4, fresh_5, fresh_6, fresh_7, fresh_8, fresh_9, fresh_10, fresh_11, fresh_12, fresh_13, fresh_14, fresh_15, fresh_16, fresh_17, fresh_18, fresh_19, fresh_20, fresh_21, fresh_22, fresh_23, fresh_24, fresh_25, fresh_26⟩

theorem before_high : (before (F := F)).Forall fun ops => ops.Forall (WritesFrom 12) := by
  simp only [List.Forall]
  exact ⟨high_0, high_1, high_2, high_3, high_4, high_5, high_6, high_7, high_8, high_9, high_10, high_11, high_12, high_13, high_14, high_15, high_16, high_17, high_18, high_19, high_20, high_21, high_22, high_23, high_24, high_25, high_26⟩

/-- @main is the operations before the launch, the launch, and the reshape after it: it reduces to the launch
    continued by that reshape, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main before [hostOps1] before_sub before_fresh main_chain

/-- An argument array (a reference numbered below twelve) is found by the launch as it was at the start. -/
theorem V_arg (c : Dev nD) (r : Ref sig .tc) (hr : r.idx.val < 12) : V m c r = m ((c : Thread nD τ).loc r) :=
  after_flatten_below 12 before _ before_high r hr

/-! ## The reshape after the launch -/

theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh_tail) op hop

/-- It writes its own result, which is none of the launch's arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-- An argument array that is no array of the launch ends, after the reshape, as it was at the start. -/
theorem end_arg (dats : (p : Fin 1) → (c : Dev nD) → Dat τ (Elt F) Unit ℕ (UR sig nD τ) ℕ (cfgs p) c) (c : Dev nD)
    (r : Ref sig .tc) (hr : r.idx.val < 12) (hne : ∀ w, Pipeline.arrRef spec0 w ≠ r) :
    Pipeline.afterTail₀ cfgs dats 0 (V0 m) [hostOps1] c r = m ((c : Thread nD τ).loc r) := by
  unfold Pipeline.afterTail₀
  rw [after_flatten_below 12 [hostOps1] _ (by simp only [List.Forall]; exact high_tail) r hr,
    Pipeline.withArrays_of_ne _ c (V0 m c) _ r hne]
  exact V_arg m c r hr

end Cert.Kernel.Host

end
-- ==== Proof.BitsBody.lean ====
/-
  The kernel body on one tile of points.

  The body reads the tile of the feature matrix and the five weight matrices whole, and stores the two
  result tiles whole: the density column — column 0 of the second layer's output — and the colour — the
  logistic of the third colour layer. So after the body each result buffer holds exactly its one stored
  value (a single piece covering the buffer), a pure function of the six tiles read; the tiles read are
  left as they were.
-/
import proofs.«146460_j62938450755822_2_alg».proof.Proof.Gen.Kernel.Launch
import proofs.«146460_j62938450755822_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rFeat : Rect S8192x96 := Rect.unit (s := S8192x96) ![0, 0] S8192x96.size inb_S8192x96_S8192x96_0_0
abbrev rW1 : Rect S96x64 := Rect.unit (s := S96x64) ![0, 0] S96x64.size inb_S96x64_S96x64_0_0
abbrev rW2 : Rect S64x16 := Rect.unit (s := S64x16) ![0, 0] S64x16.size inb_S64x16_S64x16_0_0
abbrev rC1 : Rect S15x64 := Rect.unit (s := S15x64) ![0, 0] S15x64.size inb_S15x64_S15x64_0_0
abbrev rC2 : Rect S64x64 := Rect.unit (s := S64x64) ![0, 0] S64x64.size inb_S64x64_S64x64_0_0
abbrev rC3 : Rect S64x3 := Rect.unit (s := S64x3) ![0, 0] S64x3.size inb_S64x3_S64x3_0_0
abbrev rSigma : Rect S8192x1 := Rect.unit (s := S8192x1) ![0, 0] S8192x1.size inb_S8192x1_S8192x1_0_0
abbrev rColor : Rect S8192x3 := Rect.unit (s := S8192x3) ![0, 0] S8192x3.size inb_S8192x3_S8192x3_0_0

/-! ## What the body leaves in the two result buffers -/

/-- The density tile: the one store into it, over the feature tile and the two density-net weights. -/
def sigmaTile (x0 : Vec F S8192x96 .f32) (x1 : Vec F S96x64 .f32) (x2 : Vec F S64x16 .f32) : Vec F S8192x1 .f32 :=
  View.canon [⟨rSigma, k0_pay2 (View.ld x0 rFeat) (View.ld x1 rW1) (View.ld x2 rW2)⟩]

/-- The colour tile: the one store into it, over the feature tile and all five weights. -/
def colorTile (x0 : Vec F S8192x96 .f32) (x1 : Vec F S96x64 .f32) (x2 : Vec F S64x16 .f32) (x3 : Vec F S15x64 .f32)
    (x4 : Vec F S64x64 .f32) (x5 : Vec F S64x3 .f32) : Vec F S8192x3 .f32 :=
  View.canon [⟨rColor, k0_pay3 (View.ld x0 rFeat) (View.ld x1 rW1) (View.ld x2 rW2) (View.ld x3 rC1) (View.ld x4 rC2) (View.ld x5 rC3)⟩]

/-- The one store covers the density buffer. -/
theorem sigma_cover (p0 : Vec F S8192x1 .f32) (y : S8192x1.Idx) :
    ∃ pc ∈ ([⟨rSigma, p0⟩] : List (View.Piece (Elt F) S8192x1 .f32)), y ∈ pc.1.set :=
  View.cover_of_tiled [⟨rSigma, p0⟩] S8192x1.size (by rfl) y

/-- The one store covers the colour buffer. -/
theorem color_cover (p0 : Vec F S8192x3 .f32) (y : S8192x3.Idx) :
    ∃ pc ∈ ([⟨rColor, p0⟩] : List (View.Piece (Elt F) S8192x3 .f32)), y ∈ pc.1.set :=
  View.cover_of_tiled [⟨rColor, p0⟩] S8192x3.size (by rfl) y

/-! ## The body's triple -/

set_option maxHeartbeats 4000000 in
/-- On whole buffers — the six read ones at known contents, the two result ones at anything — the body runs to its
    end without a fault, leaves the six as they were and the result buffers at `sigmaTile` and `colorTile`. -/
theorem sound_kernel (c : Dev nD) (E : Set ℕ) (i : grid0.Coords)
    (arg1 : Memref sig .tc .vmem S8192x96 .f32) (harg1 : arg1.IsWhole) (arg2 : Memref sig .tc .vmem S96x64 .f32) (harg2 : arg2.IsWhole)
    (arg3 : Memref sig .tc .vmem S64x16 .f32) (harg3 : arg3.IsWhole) (arg4 : Memref sig .tc .vmem S15x64 .f32) (harg4 : arg4.IsWhole)
    (arg5 : Memref sig .tc .vmem S64x64 .f32) (harg5 : arg5.IsWhole) (arg6 : Memref sig .tc .vmem S64x3 .f32) (harg6 : arg6.IsWhole)
    (arg7 : Memref sig .tc .vmem S8192x1 .f32) (harg7 : arg7.IsWhole) (arg8 : Memref sig .tc .vmem S8192x3 .f32) (harg8 : arg8.IsWhole)
    (x0 : Vec F S8192x96 .f32) (x1 : Vec F S96x64 .f32) (x2 : Vec F S64x16 .f32) (x3 : Vec F S15x64 .f32)
    (x4 : Vec F S64x64 .f32) (x5 : Vec F S64x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (sigmaTile x0 x1 x2)
            ∗ owns (c : Thread nD τ) arg8 fullShare (colorTile x0 x1 x2 x3 x4 x5)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (sigma_cover _)
  iexists _; isplitr
  swap; · iexact H7
  ipureintro
  exact View.read_writes_eq_canon _ _ _ (color_cover _)

end Cert.Kernel.Body

end
-- ==== Proof.BitsFrame.lean ====
/-
  The frame of the program: it runs to the end without a fault and leaves its twelve argument arrays as
  they were.

  The launch walks 128 tiles of 8192 points. At every tile the staging buffer of each of the six inputs
  holds that input's block (the feature tile moves with the grid point; the five weight matrices are
  fetched once and stay), the body leaves them there and puts the density and colour tiles in the two
  result buffers (the body's triple), and these are written back. So the proof data is: the arrays as the
  launch finds them; after the body at a point, each input at its block and each result at the body's
  function of the six input blocks. The library's launch theorem turns the per-point triple into a run of
  @main; the argument arrays end unchanged because no host operation writes them and the launch writes
  only its two result arrays.
-/
import proofs.«146460_j62938450755822_2_alg».proof.Proof.BitsHost
import proofs.«146460_j62938450755822_2_alg».proof.Proof.BitsBody
import proofs.«146460_j62938450755822_2_alg».proof.Proof.Gen.Kernel.Points

set_option maxRecDepth 16384

noncomputable section

namespace Cert.Kernel.Frame

open Cert.Kernel Cert.Kernel.Gen Cert.Kernel.Host Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether it was fetched there or at an earlier
    point with the same block index — for any proof data over the entry contents whose body leaves the block in place. -/
theorem held_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether it was fetched there or at an earlier
    point with the same block index — for any proof data over the entry contents whose body leaves the block in place. -/
theorem held_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether it was fetched there or at an earlier
    point with the same block index — for any proof data over the entry contents whose body leaves the block in place. -/
theorem held_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether it was fetched there or at an earlier
    point with the same block index — for any proof data over the entry contents whose body leaves the block in place. -/
theorem held_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether it was fetched there or at an earlier
    point with the same block index — for any proof data over the entry contents whose body leaves the block in place. -/
theorem held_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether it was fetched there or at an earlier
    point with the same block index — for any proof data over the entry contents whose body leaves the block in place. -/
theorem held_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the launch finds them; after the body at point `t` each input buffer at its block, the
    density buffer at `sigmaTile` and the colour buffer at `colorTile` of the input blocks; the invariant the untouched rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => sigmaTile (iblk m c 0 t) (iblk m c 1 t) (iblk m c 2 t)
    | ⟨7, _⟩ => colorTile (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = sigmaTile (iblk m c 0 t) (iblk m c 1 t) (iblk m c 2 t) := by dsimp only [dats]
theorem after_7 (c : Dev nD) (t : Fin cfg0.N) :
    (dats m 0 c).after 7 t = colorTile (iblk m c 0 t) (iblk m c 1 t) (iblk m c 2 t) (iblk m c 3 t) (iblk m c 4 t) (iblk m c 5 t) := by
  dsimp only [dats]

theorem before_0 (c : Dev nD) (t : Fin cfg0.N) (d) : (dats m 0 c).before 0 t d = iblk m c 0 t :=
  held_0 m (dats m 0 c) (A_eq m c 0) (after_0 m c) t d
theorem before_1 (c : Dev nD) (t : Fin cfg0.N) (d) : (dats m 0 c).before 1 t d = iblk m c 1 t :=
  held_1 m (dats m 0 c) (A_eq m c 1) (after_1 m c) t d
theorem before_2 (c : Dev nD) (t : Fin cfg0.N) (d) : (dats m 0 c).before 2 t d = iblk m c 2 t :=
  held_2 m (dats m 0 c) (A_eq m c 2) (after_2 m c) t d
theorem before_3 (c : Dev nD) (t : Fin cfg0.N) (d) : (dats m 0 c).before 3 t d = iblk m c 3 t :=
  held_3 m (dats m 0 c) (A_eq m c 3) (after_3 m c) t d
theorem before_4 (c : Dev nD) (t : Fin cfg0.N) (d) : (dats m 0 c).before 4 t d = iblk m c 4 t :=
  held_4 m (dats m 0 c) (A_eq m c 4) (after_4 m c) t d
theorem before_5 (c : Dev nD) (t : Fin cfg0.N) (d) : (dats m 0 c).before 5 t d = iblk m c 5 t :=
  held_5 m (dats m 0 c) (A_eq m c 5) (after_5 m c) t d

/-! ## The body at a grid point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: its input buffers hold their blocks, so the body's triple applies; the invariant and the core's
    obligations pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end each array of the launch holds what the library computes
    from the proof data, and every other buffer what the reshape after the launch leaves. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- An argument array that the launch does not stage ends as it was. -/
theorem kept_rest (r : PUnit × MemSt nD τ sig (Elt F))
    (h : Pipeline.FramePost cfgs (dats m) 0 (Pipeline.afterTail₀ cfgs (dats m) 0 (V0 m) [hostOps1]) r) (c : Dev nD)
    (a : Ref sig .tc) (ha : a.idx.val < 12) (hs : a.isScoped = false) (hne : ∀ w, Pipeline.arrRef spec0 w ≠ a) :
    r.2.mem ((c.tc : Thread nD τ).loc a) = m ((c.tc : Thread nD τ).loc a) :=
  ((h c).2 a (Pipeline.mem_restRefs_of a hs hne)).trans (end_arg m (dats m) c a ha hne)

/-- A weight matrix (an input array of the launch) ends as it was: an input array is never written back. -/
theorem kept_in (r : PUnit × MemSt nD τ sig (Elt F))
    (h : Pipeline.FramePost cfgs (dats m) 0 (Pipeline.afterTail₀ cfgs (dats m) 0 (V0 m) [hostOps1]) r) (c : Dev nD)
    (w : Fin cfg0.W) (hw : (cfg0.win w).isOut = false) (hlt : (Pipeline.arrRef spec0 w).idx.val < 12) :
    r.2.mem ((c.tc : Thread nD τ).loc (Pipeline.arrRef spec0 w)) = m ((c.tc : Thread nD τ).loc (Pipeline.arrRef spec0 w)) :=
  ((h c).1 w).trans ((((dats m 0 c).arrAt_in w hw _).trans (A_eq m c w)).trans (V_arg m c _ hlt))

/-- THE FRAME: the statement of `Cert.frame_Kernel` at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
      kept_rest m r h c main_arg0 (by decide) (by decide) (by decide),
      kept_rest m r h c main_arg1 (by decide) (by decide) (by decide),
      kept_rest m r h c main_arg2 (by decide) (by decide) (by decide),
      kept_rest m r h c main_arg3 (by decide) (by decide) (by decide),
      kept_rest m r h c main_arg4 (by decide) (by decide) (by decide),
      kept_rest m r h c main_arg5 (by decide) (by decide) (by decide),
      kept_rest m r h c main_arg6 (by decide) (by decide) (by decide),
      kept_in m r h c 1 rfl (by decide),
      kept_in m r h c 2 rfl (by decide),
      kept_in m r h c 3 rfl (by decide),
      kept_in m r h c 4 rfl (by decide),
      kept_in m r h c 5 rfl (by decide)⟩) (run_main m ρ)

end Cert.Kernel.Frame

end
-- ==== Proof.IdealHost.lean ====
/-
  The host side of the program around its one kernel launch.

  @main is a long straight line of array operations (the clamp of the points into the unit cube, three
  bilinear plane samples — four gathers and four weights each —, their concatenation into the feature
  matrix), then the launch, then one reshape of the density column. Here: the contents every buffer has
  when the launch is reached, as a fold of those operations over the launch-time memory; that this is
  what @main reduces to; that no operation before or after the launch writes an argument array (every
  operation writes one buffer of its own, and those are numbered after the twelve arguments); and what
  the one operation after the launch is allowed to touch.
-/
import proofs.«146460_j62938450755822_2_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Host

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-! ## Operations that write only buffers numbered from `n` on -/

/-- Every buffer the operation writes is a TensorCore reference whose index is at least `n`. -/
def WritesFrom (n : ℕ) (op : HloOp τ sig (Elt F)) : Prop :=
  ∀ b ∈ op.writes, ∃ y : Ref sig .tc, b = Proc.devRef .tc y ∧ n ≤ y.idx.val

/-- A line of such operations leaves every reference numbered below `n` as it found it. -/
theorem after_below (n : ℕ) (ops : List (HloOp τ sig (Elt F))) (W : Valuation τ sig (Elt F))
    (h : ops.Forall (WritesFrom n)) (r : Ref sig .tc) (hr : r.idx.val < n) :
    StableHlo.after ops W (Proc.devRef .tc r) = W (Proc.devRef .tc r) :=
  StableHlo.after_of_forall_not_mem ops W fun op hop hb => by
    obtain ⟨y, e, hy⟩ := (List.forall_iff_forall_mem.mp h) op hop _ hb
    obtain rfl : r = y := Proc.devRef_injective _ e
    omega

/-- The same for several lines one after the other. -/
theorem after_flatten_below (n : ℕ) : ∀ (opss : List (List (HloOp τ sig (Elt F)))) (W : Valuation τ sig (Elt F)),
    (opss.Forall fun ops => ops.Forall (WritesFrom n)) → ∀ (r : Ref sig .tc), r.idx.val < n →
    StableHlo.after opss.flatten W (Proc.devRef .tc r) = W (Proc.devRef .tc r)
  | [], _, _, _, _ => rfl
  | ops :: opss, W, h, r, hr => by
    have h' := List.forall_iff_forall_mem.mp h
    rw [List.flatten_cons, StableHlo.after_append,
      after_flatten_below n opss _ (List.forall_iff_forall_mem.mpr fun o ho => h' o (List.mem_cons_of_mem _ ho)) r hr,
      after_below n ops W (h' ops List.mem_cons_self) r hr]

/-- One operation at a time: the buffer written is the operation's own result, read off the operation. -/
macro "writes_own" : tactic =>
  `(tactic| (simp only [List.Forall]; repeat' constructor
             all_goals exact fun b hb => ⟨_, Finset.mem_singleton.mp hb, by decide⟩))

theorem high_0 : (hostOps0 : List (HloOp τ sig (Elt F))).Forall (WritesFrom 12) := by writes_own
theorem high_1 : (hostOps0_1 : List (HloOp τ sig (Elt F))).Forall (WritesFrom 12) := by writes_own
theorem high_2 : (hostOps0_2 : List (HloOp τ sig (Elt F))).Forall (WritesFrom 12) := by writes_own
theorem high_3 : (hostOps0_3 : List (HloOp τ sig (Elt F))).Forall (WritesFrom 12) := by writes_own
theorem high_4 : (hostOps0_4 : List (HloOp τ sig (Elt F))).Forall (WritesFrom 12) := by writes_own
theorem high_5 : (hostOps0_5 : List (HloOp τ sig (Elt F))).Forall (WritesFrom 12) := by writes_own
theorem high_6 : (hostOps0_6 : List (HloOp τ sig (Elt F))).Forall (WritesFrom 12) := by writes_own
theorem high_7 : (hostOps0_7 : List (HloOp τ sig (Elt F))).Forall (WritesFrom 12) := by writes_own
theorem high_8 : (hostOps0_8 : List (HloOp τ sig (Elt F))).Forall (WritesFrom 12) := by writes_own
theorem high_9 : (hostOps0_9 : List (HloOp τ sig (Elt F))).Forall (WritesFrom 12) := by writes_own
theorem high_10 : (hostOps0_10 : List (HloOp τ sig (Elt F))).Forall (WritesFrom 12) := by writes_own
theorem high_11 : (hostOps0_11 : List (HloOp τ sig (Elt F))).Forall (WritesFrom 12) := by writes_own
theorem high_12 : (hostOps0_12 : List (HloOp τ sig (Elt F))).Forall (WritesFrom 12) := by writes_own
theorem high_13 : (hostOps0_13 : List (HloOp τ sig (Elt F))).Forall (WritesFrom 12) := by writes_own
theorem high_14 : (hostOps0_14 : List (HloOp τ sig (Elt F))).Forall (WritesFrom 12) := by writes_own
theorem high_15 : (hostOps0_15 : List (HloOp τ sig (Elt F))).Forall (WritesFrom 12) := by writes_own
theorem high_16 : (hostOps0_16 : List (HloOp τ sig (Elt F))).Forall (WritesFrom 12) := by writes_own
theorem high_17 : (hostOps0_17 : List (HloOp τ sig (Elt F))).Forall (WritesFrom 12) := by writes_own
theorem high_18 : (hostOps0_18 : List (HloOp τ sig (Elt F))).Forall (WritesFrom 12) := by writes_own
theorem high_19 : (hostOps0_19 : List (HloOp τ sig (Elt F))).Forall (WritesFrom 12) := by writes_own
theorem high_20 : (hostOps0_20 : List (HloOp τ sig (Elt F))).Forall (WritesFrom 12) := by writes_own
theorem high_21 : (hostOps0_21 : List (HloOp τ sig (Elt F))).Forall (WritesFrom 12) := by writes_own
theorem high_22 : (hostOps0_22 : List (HloOp τ sig (Elt F))).Forall (WritesFrom 12) := by writes_own
theorem high_23 : (hostOps0_23 : List (HloOp τ sig (Elt F))).Forall (WritesFrom 12) := by writes_own
theorem high_24 : (hostOps0_24 : List (HloOp τ sig (Elt F))).Forall (WritesFrom 12) := by writes_own
theorem high_25 : (hostOps0_25 : List (HloOp τ sig (Elt F))).Forall (WritesFrom 12) := by writes_own
theorem high_26 : (hostOps0_26 : List (HloOp τ sig (Elt F))).Forall (WritesFrom 12) := by writes_own
theorem high_tail : (hostOps1 : List (HloOp τ sig (Elt F))).Forall (WritesFrom 12) := by writes_own

/-! ## Nothing is allocated -/

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor
theorem fresh_3 : (hostOps0_3 : List (HloOp τ sig (Elt F))).Forall fun op => op.fresh = ∅ := by
  simp only [List.Forall]; repeat' constructor
theorem fresh_4 : (hostOps0_4 : List (HloOp τ sig (Elt F))).Forall fun op => op.fresh = ∅ := by
  simp only [List.Forall]; repeat' constructor
theorem fresh_5 : (hostOps0_5 : List (HloOp τ sig (Elt F))).Forall fun op => op.fresh = ∅ := by
  simp only [List.Forall]; repeat' constructor
theorem fresh_6 : (hostOps0_6 : List (HloOp τ sig (Elt F))).Forall fun op => op.fresh = ∅ := by
  simp only [List.Forall]; repeat' constructor
theorem fresh_7 : (hostOps0_7 : List (HloOp τ sig (Elt F))).Forall fun op => op.fresh = ∅ := by
  simp only [List.Forall]; repeat' constructor
theorem fresh_8 : (hostOps0_8 : List (HloOp τ sig (Elt F))).Forall fun op => op.fresh = ∅ := by
  simp only [List.Forall]; repeat' constructor
theorem fresh_9 : (hostOps0_9 : List (HloOp τ sig (Elt F))).Forall fun op => op.fresh = ∅ := by
  simp only [List.Forall]; repeat' constructor
theorem fresh_10 : (hostOps0_10 : List (HloOp τ sig (Elt F))).Forall fun op => op.fresh = ∅ := by
  simp only [List.Forall]; repeat' constructor
theorem fresh_11 : (hostOps0_11 : List (HloOp τ sig (Elt F))).Forall fun op => op.fresh = ∅ := by
  simp only [List.Forall]; repeat' constructor
theorem fresh_12 : (hostOps0_12 : List (HloOp τ sig (Elt F))).Forall fun op => op.fresh = ∅ := by
  simp only [List.Forall]; repeat' constructor
theorem fresh_13 : (hostOps0_13 : List (HloOp τ sig (Elt F))).Forall fun op => op.fresh = ∅ := by
  simp only [List.Forall]; repeat' constructor
theorem fresh_14 : (hostOps0_14 : List (HloOp τ sig (Elt F))).Forall fun op => op.fresh = ∅ := by
  simp only [List.Forall]; repeat' constructor
theorem fresh_15 : (hostOps0_15 : List (HloOp τ sig (Elt F))).Forall fun op => op.fresh = ∅ := by
  simp only [List.Forall]; repeat' constructor
theorem fresh_16 : (hostOps0_16 : List (HloOp τ sig (Elt F))).Forall fun op => op.fresh = ∅ := by
  simp only [List.Forall]; repeat' constructor
theorem fresh_17 : (hostOps0_17 : List (HloOp τ sig (Elt F))).Forall fun op => op.fresh = ∅ := by
  simp only [List.Forall]; repeat' constructor
theorem fresh_18 : (hostOps0_18 : List (HloOp τ sig (Elt F))).Forall fun op => op.fresh = ∅ := by
  simp only [List.Forall]; repeat' constructor
theorem fresh_19 : (hostOps0_19 : List (HloOp τ sig (Elt F))).Forall fun op => op.fresh = ∅ := by
  simp only [List.Forall]; repeat' constructor
theorem fresh_20 : (hostOps0_20 : List (HloOp τ sig (Elt F))).Forall fun op => op.fresh = ∅ := by
  simp only [List.Forall]; repeat' constructor
theorem fresh_21 : (hostOps0_21 : List (HloOp τ sig (Elt F))).Forall fun op => op.fresh = ∅ := by
  simp only [List.Forall]; repeat' constructor
theorem fresh_22 : (hostOps0_22 : List (HloOp τ sig (Elt F))).Forall fun op => op.fresh = ∅ := by
  simp only [List.Forall]; repeat' constructor
theorem fresh_23 : (hostOps0_23 : List (HloOp τ sig (Elt F))).Forall fun op => op.fresh = ∅ := by
  simp only [List.Forall]; repeat' constructor
theorem fresh_24 : (hostOps0_24 : List (HloOp τ sig (Elt F))).Forall fun op => op.fresh = ∅ := by
  simp only [List.Forall]; repeat' constructor
theorem fresh_25 : (hostOps0_25 : List (HloOp τ sig (Elt F))).Forall fun op => op.fresh = ∅ := by
  simp only [List.Forall]; repeat' constructor
theorem fresh_26 : (hostOps0_26 : List (HloOp τ sig (Elt F))).Forall fun op => op.fresh = ∅ := by
  simp only [List.Forall]; repeat' constructor
theorem fresh_tail : (hostOps1 : List (HloOp τ sig (Elt F))).Forall fun op => op.fresh = ∅ := by
  simp only [List.Forall]; repeat' constructor

/-! ## @main around the launch -/

/-- The operations before the launch, stretch by stretch (a called function's body is a stretch of its own). -/
abbrev before : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]

variable (m : (ℓ : Loc nD τ sig) → Buf (Elt F) ℓ) (ρ : Dev nD → PrngReg)

/-- What every TensorCore buffer of core `c` holds when the launch is reached. -/
abbrev V0 (c : Dev nD) : Valuation τ sig (Elt F) := StableHlo.after (List.flatten before) (fun b => m (c, b))
/-- The same read at a reference. -/
abbrev V (c : Dev nD) (b : Ref sig .tc) : Buf (Elt F) ((c : Thread nD τ).loc b) := V0 m c (Proc.devRef .tc b)

theorem before_sub : (before (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub⟩

theorem before_fresh : (before (F := F)).Forall fun ops => ops.Forall fun op => op.fresh = ∅ := by
  simp only [List.Forall]
  exact ⟨fresh_0, fresh_1, fresh_2, fresh_3, fresh_4, fresh_5, fresh_6, fresh_7, fresh_8, fresh_9, fresh_10, fresh_11, fresh_12, fresh_13, fresh_14, fresh_15, fresh_16, fresh_17, fresh_18, fresh_19, fresh_20, fresh_21, fresh_22, fresh_23, fresh_24, fresh_25, fresh_26⟩

theorem before_high : (before (F := F)).Forall fun ops => ops.Forall (WritesFrom 12) := by
  simp only [List.Forall]
  exact ⟨high_0, high_1, high_2, high_3, high_4, high_5, high_6, high_7, high_8, high_9, high_10, high_11, high_12, high_13, high_14, high_15, high_16, high_17, high_18, high_19, high_20, high_21, high_22, high_23, high_24, high_25, high_26⟩

/-- @main is the operations before the launch, the launch, and the reshape after it: it reduces to the launch
    continued by that reshape, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main before [hostOps1] before_sub before_fresh main_chain

/-- An argument array (a reference numbered below twelve) is found by the launch as it was at the start. -/
theorem V_arg (c : Dev nD) (r : Ref sig .tc) (hr : r.idx.val < 12) : V m c r = m ((c : Thread nD τ).loc r) :=
  after_flatten_below 12 before _ before_high r hr

/-! ## The reshape after the launch -/

theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh_tail) op hop

/-- It writes its own result, which is none of the launch's arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-- An argument array that is no array of the launch ends, after the reshape, as it was at the start. -/
theorem end_arg (dats : (p : Fin 1) → (c : Dev nD) → Dat τ (Elt F) Unit ℕ (UR sig nD τ) ℕ (cfgs p) c) (c : Dev nD)
    (r : Ref sig .tc) (hr : r.idx.val < 12) (hne : ∀ w, Pipeline.arrRef spec0 w ≠ r) :
    Pipeline.afterTail₀ cfgs dats 0 (V0 m) [hostOps1] c r = m ((c : Thread nD τ).loc r) := by
  unfold Pipeline.afterTail₀
  rw [after_flatten_below 12 [hostOps1] _ (by simp only [List.Forall]; exact high_tail) r hr,
    Pipeline.withArrays_of_ne _ c (V0 m c) _ r hne]
  exact V_arg m c r hr

end Cert.KernelIdeal.Host

end
-- ==== Proof.IdealBody.lean ====
/-
  The kernel body on one tile of points.

  The body reads the tile of the feature matrix and the five weight matrices whole, and stores the two
  result tiles whole: the density column — column 0 of the second layer's output — and the colour — the
  logistic of the third colour layer. So after the body each result buffer holds exactly its one stored
  value (a single piece covering the buffer), a pure function of the six tiles read; the tiles read are
  left as they were.
-/
import proofs.«146460_j62938450755822_2_alg».proof.Proof.Gen.KernelIdeal.Launch
import proofs.«146460_j62938450755822_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rFeat : Rect S8192x96 := Rect.unit (s := S8192x96) ![0, 0] S8192x96.size inb_S8192x96_S8192x96_0_0
abbrev rW1 : Rect S96x64 := Rect.unit (s := S96x64) ![0, 0] S96x64.size inb_S96x64_S96x64_0_0
abbrev rW2 : Rect S64x16 := Rect.unit (s := S64x16) ![0, 0] S64x16.size inb_S64x16_S64x16_0_0
abbrev rC1 : Rect S15x64 := Rect.unit (s := S15x64) ![0, 0] S15x64.size inb_S15x64_S15x64_0_0
abbrev rC2 : Rect S64x64 := Rect.unit (s := S64x64) ![0, 0] S64x64.size inb_S64x64_S64x64_0_0
abbrev rC3 : Rect S64x3 := Rect.unit (s := S64x3) ![0, 0] S64x3.size inb_S64x3_S64x3_0_0
abbrev rSigma : Rect S8192x1 := Rect.unit (s := S8192x1) ![0, 0] S8192x1.size inb_S8192x1_S8192x1_0_0
abbrev rColor : Rect S8192x3 := Rect.unit (s := S8192x3) ![0, 0] S8192x3.size inb_S8192x3_S8192x3_0_0

/-! ## What the body leaves in the two result buffers -/

/-- The density tile: the one store into it, over the feature tile and the two density-net weights. -/
def sigmaTile (x0 : Vec F S8192x96 .f32) (x1 : Vec F S96x64 .f32) (x2 : Vec F S64x16 .f32) : Vec F S8192x1 .f32 :=
  View.canon [⟨rSigma, k0_pay2 (View.ld x0 rFeat) (View.ld x1 rW1) (View.ld x2 rW2)⟩]

/-- The colour tile: the one store into it, over the feature tile and all five weights. -/
def colorTile (x0 : Vec F S8192x96 .f32) (x1 : Vec F S96x64 .f32) (x2 : Vec F S64x16 .f32) (x3 : Vec F S15x64 .f32)
    (x4 : Vec F S64x64 .f32) (x5 : Vec F S64x3 .f32) : Vec F S8192x3 .f32 :=
  View.canon [⟨rColor, k0_pay3 (View.ld x0 rFeat) (View.ld x1 rW1) (View.ld x2 rW2) (View.ld x3 rC1) (View.ld x4 rC2) (View.ld x5 rC3)⟩]

/-- The one store covers the density buffer. -/
theorem sigma_cover (p0 : Vec F S8192x1 .f32) (y : S8192x1.Idx) :
    ∃ pc ∈ ([⟨rSigma, p0⟩] : List (View.Piece (Elt F) S8192x1 .f32)), y ∈ pc.1.set :=
  View.cover_of_tiled [⟨rSigma, p0⟩] S8192x1.size (by rfl) y

/-- The one store covers the colour buffer. -/
theorem color_cover (p0 : Vec F S8192x3 .f32) (y : S8192x3.Idx) :
    ∃ pc ∈ ([⟨rColor, p0⟩] : List (View.Piece (Elt F) S8192x3 .f32)), y ∈ pc.1.set :=
  View.cover_of_tiled [⟨rColor, p0⟩] S8192x3.size (by rfl) y

/-! ## The body's triple -/

set_option maxHeartbeats 4000000 in
/-- On whole buffers — the six read ones at known contents, the two result ones at anything — the body runs to its
    end without a fault, leaves the six as they were and the result buffers at `sigmaTile` and `colorTile`. -/
theorem sound_kernel (c : Dev nD) (E : Set ℕ) (i : grid0.Coords)
    (arg1 : Memref sig .tc .vmem S8192x96 .f32) (harg1 : arg1.IsWhole) (arg2 : Memref sig .tc .vmem S96x64 .f32) (harg2 : arg2.IsWhole)
    (arg3 : Memref sig .tc .vmem S64x16 .f32) (harg3 : arg3.IsWhole) (arg4 : Memref sig .tc .vmem S15x64 .f32) (harg4 : arg4.IsWhole)
    (arg5 : Memref sig .tc .vmem S64x64 .f32) (harg5 : arg5.IsWhole) (arg6 : Memref sig .tc .vmem S64x3 .f32) (harg6 : arg6.IsWhole)
    (arg7 : Memref sig .tc .vmem S8192x1 .f32) (harg7 : arg7.IsWhole) (arg8 : Memref sig .tc .vmem S8192x3 .f32) (harg8 : arg8.IsWhole)
    (x0 : Vec F S8192x96 .f32) (x1 : Vec F S96x64 .f32) (x2 : Vec F S64x16 .f32) (x3 : Vec F S15x64 .f32)
    (x4 : Vec F S64x64 .f32) (x5 : Vec F S64x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (sigmaTile x0 x1 x2)
            ∗ owns (c : Thread nD τ) arg8 fullShare (colorTile x0 x1 x2 x3 x4 x5)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (sigma_cover _)
  iexists _; isplitr
  swap; · iexact H7
  ipureintro
  exact View.read_writes_eq_canon _ _ _ (color_cover _)

end Cert.KernelIdeal.Body

end
-- ==== Proof.IdealFrame.lean ====
/-
  The frame of the program: it runs to the end without a fault and leaves its twelve argument arrays as
  they were.

  The launch walks 128 tiles of 8192 points. At every tile the staging buffer of each of the six inputs
  holds that input's block (the feature tile moves with the grid point; the five weight matrices are
  fetched once and stay), the body leaves them there and puts the density and colour tiles in the two
  result buffers (the body's triple), and these are written back. So the proof data is: the arrays as the
  launch finds them; after the body at a point, each input at its block and each result at the body's
  function of the six input blocks. The library's launch theorem turns the per-point triple into a run of
  @main; the argument arrays end unchanged because no host operation writes them and the launch writes
  only its two result arrays.
-/
import proofs.«146460_j62938450755822_2_alg».proof.Proof.IdealHost
import proofs.«146460_j62938450755822_2_alg».proof.Proof.IdealBody
import proofs.«146460_j62938450755822_2_alg».proof.Proof.Gen.KernelIdeal.Points

set_option maxRecDepth 16384

noncomputable section

namespace Cert.KernelIdeal.Frame

open Cert.KernelIdeal Cert.KernelIdeal.Gen Cert.KernelIdeal.Host Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether it was fetched there or at an earlier
    point with the same block index — for any proof data over the entry contents whose body leaves the block in place. -/
theorem held_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether it was fetched there or at an earlier
    point with the same block index — for any proof data over the entry contents whose body leaves the block in place. -/
theorem held_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether it was fetched there or at an earlier
    point with the same block index — for any proof data over the entry contents whose body leaves the block in place. -/
theorem held_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether it was fetched there or at an earlier
    point with the same block index — for any proof data over the entry contents whose body leaves the block in place. -/
theorem held_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether it was fetched there or at an earlier
    point with the same block index — for any proof data over the entry contents whose body leaves the block in place. -/
theorem held_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether it was fetched there or at an earlier
    point with the same block index — for any proof data over the entry contents whose body leaves the block in place. -/
theorem held_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the launch finds them; after the body at point `t` each input buffer at its block, the
    density buffer at `sigmaTile` and the colour buffer at `colorTile` of the input blocks; the invariant the untouched rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => sigmaTile (iblk m c 0 t) (iblk m c 1 t) (iblk m c 2 t)
    | ⟨7, _⟩ => colorTile (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = sigmaTile (iblk m c 0 t) (iblk m c 1 t) (iblk m c 2 t) := by dsimp only [dats]
theorem after_7 (c : Dev nD) (t : Fin cfg0.N) :
    (dats m 0 c).after 7 t = colorTile (iblk m c 0 t) (iblk m c 1 t) (iblk m c 2 t) (iblk m c 3 t) (iblk m c 4 t) (iblk m c 5 t) := by
  dsimp only [dats]

theorem before_0 (c : Dev nD) (t : Fin cfg0.N) (d) : (dats m 0 c).before 0 t d = iblk m c 0 t :=
  held_0 m (dats m 0 c) (A_eq m c 0) (after_0 m c) t d
theorem before_1 (c : Dev nD) (t : Fin cfg0.N) (d) : (dats m 0 c).before 1 t d = iblk m c 1 t :=
  held_1 m (dats m 0 c) (A_eq m c 1) (after_1 m c) t d
theorem before_2 (c : Dev nD) (t : Fin cfg0.N) (d) : (dats m 0 c).before 2 t d = iblk m c 2 t :=
  held_2 m (dats m 0 c) (A_eq m c 2) (after_2 m c) t d
theorem before_3 (c : Dev nD) (t : Fin cfg0.N) (d) : (dats m 0 c).before 3 t d = iblk m c 3 t :=
  held_3 m (dats m 0 c) (A_eq m c 3) (after_3 m c) t d
theorem before_4 (c : Dev nD) (t : Fin cfg0.N) (d) : (dats m 0 c).before 4 t d = iblk m c 4 t :=
  held_4 m (dats m 0 c) (A_eq m c 4) (after_4 m c) t d
theorem before_5 (c : Dev nD) (t : Fin cfg0.N) (d) : (dats m 0 c).before 5 t d = iblk m c 5 t :=
  held_5 m (dats m 0 c) (A_eq m c 5) (after_5 m c) t d

/-! ## The body at a grid point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: its input buffers hold their blocks, so the body's triple applies; the invariant and the core's
    obligations pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end each array of the launch holds what the library computes
    from the proof data, and every other buffer what the reshape after the launch leaves. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- An argument array that the launch does not stage ends as it was. -/
theorem kept_rest (r : PUnit × MemSt nD τ sig (Elt F))
    (h : Pipeline.FramePost cfgs (dats m) 0 (Pipeline.afterTail₀ cfgs (dats m) 0 (V0 m) [hostOps1]) r) (c : Dev nD)
    (a : Ref sig .tc) (ha : a.idx.val < 12) (hs : a.isScoped = false) (hne : ∀ w, Pipeline.arrRef spec0 w ≠ a) :
    r.2.mem ((c.tc : Thread nD τ).loc a) = m ((c.tc : Thread nD τ).loc a) :=
  ((h c).2 a (Pipeline.mem_restRefs_of a hs hne)).trans (end_arg m (dats m) c a ha hne)

/-- A weight matrix (an input array of the launch) ends as it was: an input array is never written back. -/
theorem kept_in (r : PUnit × MemSt nD τ sig (Elt F))
    (h : Pipeline.FramePost cfgs (dats m) 0 (Pipeline.afterTail₀ cfgs (dats m) 0 (V0 m) [hostOps1]) r) (c : Dev nD)
    (w : Fin cfg0.W) (hw : (cfg0.win w).isOut = false) (hlt : (Pipeline.arrRef spec0 w).idx.val < 12) :
    r.2.mem ((c.tc : Thread nD τ).loc (Pipeline.arrRef spec0 w)) = m ((c.tc : Thread nD τ).loc (Pipeline.arrRef spec0 w)) :=
  ((h c).1 w).trans ((((dats m 0 c).arrAt_in w hw _).trans (A_eq m c w)).trans (V_arg m c _ hlt))

/-- THE FRAME: the statement of `Cert.frame_KernelIdeal` at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
      kept_rest m r h c main_arg0 (by decide) (by decide) (by decide),
      kept_rest m r h c main_arg1 (by decide) (by decide) (by decide),
      kept_rest m r h c main_arg2 (by decide) (by decide) (by decide),
      kept_rest m r h c main_arg3 (by decide) (by decide) (by decide),
      kept_rest m r h c main_arg4 (by decide) (by decide) (by decide),
      kept_rest m r h c main_arg5 (by decide) (by decide) (by decide),
      kept_rest m r h c main_arg6 (by decide) (by decide) (by decide),
      kept_in m r h c 1 rfl (by decide),
      kept_in m r h c 2 rfl (by decide),
      kept_in m r h c 3 rfl (by decide),
      kept_in m r h c 4 rfl (by decide),
      kept_in m r h c 5 rfl (by decide)⟩) (run_main m ρ)

end Cert.KernelIdeal.Frame

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.MlpSpec.lean ====
/-
  What both programs compute, per point, from the point's 96 plane features and the five weight
  matrices, at the exact instance (extended reals, exact operations; a change of float format is the
  identity there, so the kernel's bf16 casts are invisible).

    hidden  = relu (feat · W1)                     64 values
    out16   = hidden · W2                          16 values;  density = out16[0]
    c1      = relu (out16[1..15] · C1)             64 values
    c2      = relu (c1 · C2)                       64 values
    colour  = logistic (c2 · C3)                   3 values

  where relu x = max x 0 with the zero both programs spell as the f32 pattern 0x00000000, each product is
  the plain sum over the contracted axis, and the logistic is the kernel's one operation, which at the
  exact instance IS the reference's 1 / (1 + exp (−x)).
-/
import proofs.«146460_j62938450755822_2_alg».proof.Proof.LibDense

noncomputable section

namespace Cert.MlpSpec

open Idealize.ShloMosaic Idealize.ShloMosaic.ValueIdx Cert.LibDense

/-- A matrix of extended reals, indexed as the programs' [r, c] arrays are. -/
abbrev Mat (r c : ℕ) : Type := (⟨2, ![r, c]⟩ : Shape).Idx → EReal

/-- max x 0, the zero written as both programs write it. -/
def relu (x : EReal) : EReal :=
  FloatOps.maximumf (F := Ideal) (φ := .f32) x (FloatOps.ofBits (F := Ideal) .f32 0x00000000#32)

/-- The second layer's 16 outputs for one point. -/
def out16 (x : Fin 96 → EReal) (W1 : Mat 96 64) (W2 : Mat 64 16) : Fin 16 → EReal :=
  dense (fun j => relu (dense x W1 j)) W2

/-- Outputs 1 … 15 feed the colour net. -/
def colourIn (o : Fin 16 → EReal) : Fin 15 → EReal := fun k => o ⟨k.val + 1, by omega⟩

/-- The colour net's last pre-activation (3 values) for one point. -/
def pre3 (x : Fin 96 → EReal) (W1 : Mat 96 64) (W2 : Mat 64 16) (C1 : Mat 15 64) (C2 : Mat 64 64) (C3 : Mat 64 3) :
    Fin 3 → EReal :=
  dense (fun j => relu (dense (fun j => relu (dense (colourIn (out16 x W1 W2)) C1 j)) C2 j)) C3

/-- The colour of one point. -/
def colour (x : Fin 96 → EReal) (W1 : Mat 96 64) (W2 : Mat 64 16) (C1 : Mat 15 64) (C2 : Mat 64 64) (C3 : Mat 64 3)
    (j : Fin 3) : EReal :=
  FloatOps.logistic (F := Ideal) (φ := .f32) (pre3 x W1 W2 C1 C2 C3 j)

/-- The density of one point. -/
def density (x : Fin 96 → EReal) (W1 : Mat 96 64) (W2 : Mat 64 16) : EReal := out16 x W1 W2 0

/-- The f32 pattern of 1.0 denotes 1. -/
theorem one_f32 : FloatOps.ofBits (F := Ideal) .f32 0x3F800000#32 = (1 : EReal) := by
  show Ideal.ofBits .f32 0x3F800000#32 = 1
  simp [Ideal.ofBits, Ideal.ieee, -EReal.coe_mul]; norm_num

/-- The logistic is 1 / (1 + exp (−x)), in the host's operations with the host's literal ones. -/
theorem logistic_host (x : EReal) :
    FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) x)))
      = FloatOps.logistic (F := Ideal) (φ := .f32) x := by
  rw [one_f32]; rfl

/-! ## The two result arrays of a whole run, from the feature matrix -/

/-- The colour array: row r is the colour of the point whose features are row r of `feat`. -/
def colourArr (feat : Mat 1048576 96) (W1 : Mat 96 64) (W2 : Mat 64 16) (C1 : Mat 15 64) (C2 : Mat 64 64) (C3 : Mat 64 3) :
    Mat 1048576 3 :=
  fun i => colour (fun k => feat (ix2 (i 0) k)) W1 W2 C1 C2 C3 (i 1)

/-- The density column, as the [N, 1] array the kernel writes. -/
def densityCol (feat : Mat 1048576 96) (W1 : Mat 96 64) (W2 : Mat 64 16) : Mat 1048576 1 :=
  fun i => density (fun k => feat (ix2 (i 0) k)) W1 W2

/-- The density vector, as the [N] array both programs return. -/
def densityVec (feat : Mat 1048576 96) (W1 : Mat 96 64) (W2 : Mat 64 16) : (⟨1, ![1048576]⟩ : Shape).Idx → EReal :=
  fun i => density (fun k => feat (ix2 (i 0) k)) W1 W2

end Cert.MlpSpec

end
-- ==== Proof.IdealTile.lean ====
/-
  The kernel body's two stored values, entry by entry, at the exact instance.

  Row p of the tile's density value is the density of the point whose features are row p of the feature
  tile, and row p of its colour value is that point's colour: each matrix-unit product into a zero
  accumulator is the plain sum over the contracted axis, the bf16 casts and the same-shape cast are the
  identity, the slices of the 16 outputs read columns 0 and 1 … 15, and relu and the logistic act entry by
  entry.
-/
import proofs.«146460_j62938450755822_2_alg».proof.Proof.Gen.KernelIdeal.Skeleton
import proofs.«146460_j62938450755822_2_alg».proof.Proof.MlpSpec
import Idealize.ShloMosaic.Lib.Pipeline.Value

set_option maxRecDepth 16384

noncomputable section

namespace Cert.KernelIdeal.Tile

open Cert.KernelIdeal Cert.KernelIdeal.Gen
open Idealize.ShloMosaic Idealize.ShloMosaic.ValueIdx Cert.LibDense Cert.MlpSpec

/-! ## Where the five products read their operands -/

theorem d1_l0 (j : S8192x64.Idx) (q : dot_S8192x96_S96x64_S8192x64_1_0_0_1_n_n.contr.Idx) : (dot_S8192x96_S96x64_S8192x64_1_0_0_1_n_n.lhsIdx j q 0).val = (j 0).val := by
  unfold DotDims.lhsIdx
  rw [dif_neg (show ¬(0 : Fin S8192x96.rank) ∈ dot_S8192x96_S96x64_S8192x64_1_0_0_1_n_n.lhsBatch by decide), dif_pos (show (0 : Fin S8192x96.rank) ∈ dot_S8192x96_S96x64_S8192x64_1_0_0_1_n_n.lhsNonContracting by decide)]
  rfl
theorem d1_l1 (j : S8192x64.Idx) (q : dot_S8192x96_S96x64_S8192x64_1_0_0_1_n_n.contr.Idx) : (dot_S8192x96_S96x64_S8192x64_1_0_0_1_n_n.lhsIdx j q 1).val = (q ⟨0, by decide⟩).val :=
  dot_S8192x96_S96x64_S8192x64_1_0_0_1_n_n.lhsIdx_val_of_single rfl j q
theorem d1_r0 (j : S8192x64.Idx) (q : dot_S8192x96_S96x64_S8192x64_1_0_0_1_n_n.contr.Idx) : (dot_S8192x96_S96x64_S8192x64_1_0_0_1_n_n.rhsIdx j q 0).val = (q ⟨0, by decide⟩).val :=
  dot_S8192x96_S96x64_S8192x64_1_0_0_1_n_n.rhsIdx_val_of_single rfl j q
theorem d1_r1 (j : S8192x64.Idx) (q : dot_S8192x96_S96x64_S8192x64_1_0_0_1_n_n.contr.Idx) : (dot_S8192x96_S96x64_S8192x64_1_0_0_1_n_n.rhsIdx j q 1).val = (j 1).val := by
  unfold DotDims.rhsIdx
  rw [dif_neg (show ¬(1 : Fin S96x64.rank) ∈ dot_S8192x96_S96x64_S8192x64_1_0_0_1_n_n.rhsBatch by decide), dif_pos (show (1 : Fin S96x64.rank) ∈ dot_S8192x96_S96x64_S8192x64_1_0_0_1_n_n.rhsNonContracting by decide)]
  rfl
theorem d2_l0 (j : S8192x16.Idx) (q : dot_S8192x64_S64x16_S8192x16_1_0_0_1_n_n.contr.Idx) : (dot_S8192x64_S64x16_S8192x16_1_0_0_1_n_n.lhsIdx j q 0).val = (j 0).val := by
  unfold DotDims.lhsIdx
  rw [dif_neg (show ¬(0 : Fin S8192x64.rank) ∈ dot_S8192x64_S64x16_S8192x16_1_0_0_1_n_n.lhsBatch by decide), dif_pos (show (0 : Fin S8192x64.rank) ∈ dot_S8192x64_S64x16_S8192x16_1_0_0_1_n_n.lhsNonContracting by decide)]
  rfl
theorem d2_l1 (j : S8192x16.Idx) (q : dot_S8192x64_S64x16_S8192x16_1_0_0_1_n_n.contr.Idx) : (dot_S8192x64_S64x16_S8192x16_1_0_0_1_n_n.lhsIdx j q 1).val = (q ⟨0, by decide⟩).val :=
  dot_S8192x64_S64x16_S8192x16_1_0_0_1_n_n.lhsIdx_val_of_single rfl j q
theorem d2_r0 (j : S8192x16.Idx) (q : dot_S8192x64_S64x16_S8192x16_1_0_0_1_n_n.contr.Idx) : (dot_S8192x64_S64x16_S8192x16_1_0_0_1_n_n.rhsIdx j q 0).val = (q ⟨0, by decide⟩).val :=
  dot_S8192x64_S64x16_S8192x16_1_0_0_1_n_n.rhsIdx_val_of_single rfl j q
theorem d2_r1 (j : S8192x16.Idx) (q : dot_S8192x64_S64x16_S8192x16_1_0_0_1_n_n.contr.Idx) : (dot_S8192x64_S64x16_S8192x16_1_0_0_1_n_n.rhsIdx j q 1).val = (j 1).val := by
  unfold DotDims.rhsIdx
  rw [dif_neg (show ¬(1 : Fin S64x16.rank) ∈ dot_S8192x64_S64x16_S8192x16_1_0_0_1_n_n.rhsBatch by decide), dif_pos (show (1 : Fin S64x16.rank) ∈ dot_S8192x64_S64x16_S8192x16_1_0_0_1_n_n.rhsNonContracting by decide)]
  rfl
theorem d3_l0 (j : S8192x64.Idx) (q : dot_S8192x15_S15x64_S8192x64_1_0_0_1_n_n.contr.Idx) : (dot_S8192x15_S15x64_S8192x64_1_0_0_1_n_n.lhsIdx j q 0).val = (j 0).val := by
  unfold DotDims.lhsIdx
  rw [dif_neg (show ¬(0 : Fin S8192x15.rank) ∈ dot_S8192x15_S15x64_S8192x64_1_0_0_1_n_n.lhsBatch by decide), dif_pos (show (0 : Fin S8192x15.rank) ∈ dot_S8192x15_S15x64_S8192x64_1_0_0_1_n_n.lhsNonContracting by decide)]
  rfl
theorem d3_l1 (j : S8192x64.Idx) (q : dot_S8192x15_S15x64_S8192x64_1_0_0_1_n_n.contr.Idx) : (dot_S8192x15_S15x64_S8192x64_1_0_0_1_n_n.lhsIdx j q 1).val = (q ⟨0, by decide⟩).val :=
  dot_S8192x15_S15x64_S8192x64_1_0_0_1_n_n.lhsIdx_val_of_single rfl j q
theorem d3_r0 (j : S8192x64.Idx) (q : dot_S8192x15_S15x64_S8192x64_1_0_0_1_n_n.contr.Idx) : (dot_S8192x15_S15x64_S8192x64_1_0_0_1_n_n.rhsIdx j q 0).val = (q ⟨0, by decide⟩).val :=
  dot_S8192x15_S15x64_S8192x64_1_0_0_1_n_n.rhsIdx_val_of_single rfl j q
theorem d3_r1 (j : S8192x64.Idx) (q : dot_S8192x15_S15x64_S8192x64_1_0_0_1_n_n.contr.Idx) : (dot_S8192x15_S15x64_S8192x64_1_0_0_1_n_n.rhsIdx j q 1).val = (j 1).val := by
  unfold DotDims.rhsIdx
  rw [dif_neg (show ¬(1 : Fin S15x64.rank) ∈ dot_S8192x15_S15x64_S8192x64_1_0_0_1_n_n.rhsBatch by decide), dif_pos (show (1 : Fin S15x64.rank) ∈ dot_S8192x15_S15x64_S8192x64_1_0_0_1_n_n.rhsNonContracting by decide)]
  rfl
theorem d4_l0 (j : S8192x64.Idx) (q : dot_S8192x64_S64x64_S8192x64_1_0_0_1_n_n.contr.Idx) : (dot_S8192x64_S64x64_S8192x64_1_0_0_1_n_n.lhsIdx j q 0).val = (j 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem d4_l1 (j : S8192x64.Idx) (q : dot_S8192x64_S64x64_S8192x64_1_0_0_1_n_n.contr.Idx) : (dot_S8192x64_S64x64_S8192x64_1_0_0_1_n_n.lhsIdx j q 1).val = (q ⟨0, by decide⟩).val :=
  dot_S8192x64_S64x64_S8192x64_1_0_0_1_n_n.lhsIdx_val_of_single rfl j q
theorem d4_r0 (j : S8192x64.Idx) (q : dot_S8192x64_S64x64_S8192x64_1_0_0_1_n_n.contr.Idx) : (dot_S8192x64_S64x64_S8192x64_1_0_0_1_n_n.rhsIdx j q 0).val = (q ⟨0, by decide⟩).val :=
  dot_S8192x64_S64x64_S8192x64_1_0_0_1_n_n.rhsIdx_val_of_single rfl j q
theorem d4_r1 (j : S8192x64.Idx) (q : dot_S8192x64_S64x64_S8192x64_1_0_0_1_n_n.contr.Idx) : (dot_S8192x64_S64x64_S8192x64_1_0_0_1_n_n.rhsIdx j q 1).val = (j 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl
theorem d5_l0 (j : S8192x3.Idx) (q : dot_S8192x64_S64x3_S8192x3_1_0_0_1_n_n.contr.Idx) : (dot_S8192x64_S64x3_S8192x3_1_0_0_1_n_n.lhsIdx j q 0).val = (j 0).val := by
  unfold DotDims.lhsIdx
  rw [dif_neg (show ¬(0 : Fin S8192x64.rank) ∈ dot_S8192x64_S64x3_S8192x3_1_0_0_1_n_n.lhsBatch by decide), dif_pos (show (0 : Fin S8192x64.rank) ∈ dot_S8192x64_S64x3_S8192x3_1_0_0_1_n_n.lhsNonContracting by decide)]
  rfl
theorem d5_l1 (j : S8192x3.Idx) (q : dot_S8192x64_S64x3_S8192x3_1_0_0_1_n_n.contr.Idx) : (dot_S8192x64_S64x3_S8192x3_1_0_0_1_n_n.lhsIdx j q 1).val = (q ⟨0, by decide⟩).val :=
  dot_S8192x64_S64x3_S8192x3_1_0_0_1_n_n.lhsIdx_val_of_single rfl j q
theorem d5_r0 (j : S8192x3.Idx) (q : dot_S8192x64_S64x3_S8192x3_1_0_0_1_n_n.contr.Idx) : (dot_S8192x64_S64x3_S8192x3_1_0_0_1_n_n.rhsIdx j q 0).val = (q ⟨0, by decide⟩).val :=
  dot_S8192x64_S64x3_S8192x3_1_0_0_1_n_n.rhsIdx_val_of_single rfl j q
theorem d5_r1 (j : S8192x3.Idx) (q : dot_S8192x64_S64x3_S8192x3_1_0_0_1_n_n.contr.Idx) : (dot_S8192x64_S64x3_S8192x3_1_0_0_1_n_n.rhsIdx j q 1).val = (j 1).val := by
  unfold DotDims.rhsIdx
  rw [dif_neg (show ¬(1 : Fin S64x3.rank) ∈ dot_S8192x64_S64x3_S8192x3_1_0_0_1_n_n.rhsBatch by decide), dif_pos (show (1 : Fin S64x3.rank) ∈ dot_S8192x64_S64x3_S8192x3_1_0_0_1_n_n.rhsNonContracting by decide)]
  rfl

/-! ## The two slices of the second layer's output -/

/-- Column 0 of a [8192, 16] value, as a [8192, 1] value. -/
theorem slice_first (y : FVec Ideal S8192x16 .f32) (p : Fin 8192) (z : Fin 1) :
    extractStridedSlice S8192x1 ![0, 0] y slices_S8192x16_o0_0_S8192x1 (ix2 p z) = y (ix2 p 0) := by
  refine extractStridedSlice_apply ![0, 0] y slices_S8192x16_o0_0_S8192x1 (ix2 p z) (ix2 p 0) ?_
  intro a
  have hz : z.val = 0 := by have := z.isLt; omega
  match a with
  | ⟨0, _⟩ => show p.val = 0 + p.val; omega
  | ⟨1, _⟩ => show (0 : ℕ) = 0 + z.val; omega

/-- Columns 1 … 15 of a [8192, 16] value, as a [8192, 15] value. -/
theorem slice_rest (y : FVec Ideal S8192x16 .f32) (p : Fin 8192) (k : Fin 15) :
    extractStridedSlice S8192x15 ![0, 1] y slices_S8192x16_o0_1_S8192x15 (ix2 p k) = y (ix2 p ⟨k.val + 1, by omega⟩) := by
  refine extractStridedSlice_apply ![0, 1] y slices_S8192x16_o0_1_S8192x15 (ix2 p k) (ix2 p ⟨k.val + 1, by omega⟩) ?_
  intro a
  match a with
  | ⟨0, _⟩ => show p.val = 0 + p.val; omega
  | ⟨1, _⟩ => show k.val + 1 = 1 + k.val; omega

/-! ## The second layer's outputs, the density and the colour of row `p` -/

/-- Entry (p, j) of the second layer's output on a tile. -/
theorem out16_apply (x0 : Vec Ideal S8192x96 .f32) (x1 : Vec Ideal S96x64 .f32) (x2 : Vec Ideal S64x16 .f32)
    (p : Fin 8192) (j : Fin 16) :
    k0_pay1 (F := Ideal) x0 x1 x2 (ix2 p j) = out16 (fun k => x0 (ix2 p k)) x1 x2 j := by
  unfold k0_pay1
  refine (matmul_zero_plain dot_S8192x64_S64x16_S8192x16_1_0_0_1_n_n none rfl rfl d2_l0 d2_l1 d2_r0 d2_r1 _ _ p j).trans ?_
  unfold out16
  refine congrArg (fun f => dense f x2 j) (funext fun k => ?_)
  show FloatOps.maximumf (F := Ideal) (φ := .f32) (FloatOps.matmul dot_S8192x96_S96x64_S8192x64_1_0_0_1_n_n none _ _ _ (ix2 p k)) _ = _
  unfold relu
  refine congrArg (fun v => FloatOps.maximumf (F := Ideal) (φ := .f32) v _) ?_
  refine (matmul_zero_plain dot_S8192x96_S96x64_S8192x64_1_0_0_1_n_n none rfl rfl d1_l0 d1_l1 d1_r0 d1_r1 _ _ p k).trans ?_
  refine congrArg (fun f => dense f x1 k) (funext fun k' => ?_)
  show shapeCast S8192x96 x0 shapeCasts_S8192x96_S8192x96 (ix2 p k') = x0 (ix2 p k')
  rw [shapeCast_self]

/-- Row p of the density value. -/
theorem density_apply (x0 : Vec Ideal S8192x96 .f32) (x1 : Vec Ideal S96x64 .f32) (x2 : Vec Ideal S64x16 .f32)
    (p : Fin 8192) (z : Fin 1) :
    k0_pay2 (F := Ideal) x0 x1 x2 (ix2 p z) = density (fun k => x0 (ix2 p k)) x1 x2 := by
  unfold k0_pay2
  exact (slice_first (k0_pay1 (F := Ideal) x0 x1 x2) p z).trans (out16_apply x0 x1 x2 p 0)

/-- Entry (p, j) of the colour value. -/
theorem colour_apply (x0 : Vec Ideal S8192x96 .f32) (x1 : Vec Ideal S96x64 .f32) (x2 : Vec Ideal S64x16 .f32)
    (x3 : Vec Ideal S15x64 .f32) (x4 : Vec Ideal S64x64 .f32) (x5 : Vec Ideal S64x3 .f32) (p : Fin 8192) (j : Fin 3) :
    k0_pay3 (F := Ideal) x0 x1 x2 x3 x4 x5 (ix2 p j) = colour (fun k => x0 (ix2 p k)) x1 x2 x3 x4 x5 j := by
  unfold k0_pay3
  unfold colour
  show FloatOps.logistic (F := Ideal) (φ := .f32) (FloatOps.matmul dot_S8192x64_S64x3_S8192x3_1_0_0_1_n_n none _ _ _ (ix2 p j)) = _
  refine congrArg (fun v => FloatOps.logistic (F := Ideal) (φ := .f32) v) ?_
  refine (matmul_zero_plain dot_S8192x64_S64x3_S8192x3_1_0_0_1_n_n none rfl rfl d5_l0 d5_l1 d5_r0 d5_r1 _ _ p j).trans ?_
  unfold pre3
  refine congrArg (fun f => dense f x5 j) (funext fun k => ?_)
  show FloatOps.maximumf (F := Ideal) (φ := .f32) (FloatOps.matmul dot_S8192x64_S64x64_S8192x64_1_0_0_1_n_n none _ _ _ (ix2 p k)) _ = _
  unfold relu
  refine congrArg (fun v => FloatOps.maximumf (F := Ideal) (φ := .f32) v _) ?_
  refine (matmul_zero_plain dot_S8192x64_S64x64_S8192x64_1_0_0_1_n_n none rfl rfl d4_l0 d4_l1 d4_r0 d4_r1 _ _ p k).trans ?_
  refine congrArg (fun f => dense f x4 k) (funext fun k1 => ?_)
  show FloatOps.maximumf (F := Ideal) (φ := .f32) (FloatOps.matmul dot_S8192x15_S15x64_S8192x64_1_0_0_1_n_n none _ _ _ (ix2 p k1)) _ = _
  refine congrArg (fun v => FloatOps.maximumf (F := Ideal) (φ := .f32) v _) ?_
  refine (matmul_zero_plain dot_S8192x15_S15x64_S8192x64_1_0_0_1_n_n none rfl rfl d3_l0 d3_l1 d3_r0 d3_r1 _ _ p k1).trans ?_
  refine congrArg (fun f => dense f x3 k1) (funext fun k2 => ?_)
  unfold colourIn
  exact (slice_rest (k0_pay1 (F := Ideal) x0 x1 x2) p k2).trans (out16_apply x0 x1 x2 p ⟨k2.val + 1, by omega⟩)

end Cert.KernelIdeal.Tile

end
-- ==== Proof.IdealArrays.lean ====
/-
  From tiles to arrays: what the idealized kernel program's two results hold after a run.

  Grid point t stages rows 8192·t … 8192·t + 8191 of the feature matrix and writes back the same rows of
  the two result arrays; the five weight matrices are staged whole at every point. So what point t writes
  back is block t of one whole-array function — the colour (the density) of every point, row by row —,
  the 128 blocks cover all 1,048,576 rows, and the result arrays end holding that function of the feature
  matrix the launch found and of the weight arguments. The density vector the program returns is the
  density column reshaped.
-/
import proofs.«146460_j62938450755822_2_alg».proof.Proof.IdealFrame
import proofs.«146460_j62938450755822_2_alg».proof.Proof.IdealTile

set_option maxRecDepth 16384

noncomputable section

namespace Cert.KernelIdeal.Arrays

open Cert.KernelIdeal Cert.KernelIdeal.Gen Cert.KernelIdeal.Host Cert.KernelIdeal.Body Cert.KernelIdeal.Frame Cert.KernelIdeal.Tile
open Idealize.ShloMosaic Idealize.ShloMosaic.TcCoe Idealize.ShloMosaic.ValueIdx Cert.LibDense Cert.MlpSpec
open Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the feature window and the two result windows sit at block (t, 0), the weight
    windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The feature matrix as the launch finds it. -/
abbrev feat (c : Dev nD) : Mat 1048576 96 := V m c main_v355

/-! ## The input blocks -/

/-- Row p of the feature tile at point t is row 8192·t + p of the feature matrix. -/
theorem feat_block (c : Dev nD) (t : Fin cfg0.N) (p : Fin 8192) (k : Fin 96) (r : Fin 1048576) (hr : r.val = t.val * 8192 + p.val) :
    iblk m c 0 t (ix2 p k) = feat m c (ix2 r k) := by
  obtain ⟨e0, e1, -⟩ := idx_facts t
  show V m c main_v355 (((cfg0.win 0).blk t).view.emb (ix2 p k)) = V m c main_v355 (ix2 r k)
  refine congrArg (V m c main_v355) (funext fun a => Fin.ext ?_)
  match a with
  | ⟨0, _⟩ => show win0_0.index t (0 : Fin 2) * 8192 + 1 * p.val = r.val; omega
  | ⟨1, _⟩ => show win0_0.index t (1 : Fin 2) * 96 + 1 * k.val = k.val; omega

/-- A weight window's block is the whole weight matrix, as it was at the start. -/
theorem w1_block (c : Dev nD) (t : Fin cfg0.N) : iblk m c 1 t = m ((c : Thread nD τ).loc main_arg7) := by
  obtain ⟨-, -, e0, e1, -⟩ := idx_facts t
  funext y
  show V m c main_arg7 (((cfg0.win 1).blk t).view.emb y) = _
  rw [V_arg m c main_arg7 (by decide)]
  refine congrArg (m ((c : Thread nD τ).loc main_arg7)) (funext fun a => Fin.ext ?_)
  match a with
  | ⟨0, _⟩ => show win0_1.index t (0 : Fin 2) * 96 + 1 * (y 0).val = (y 0).val; omega
  | ⟨1, _⟩ => show win0_1.index t (1 : Fin 2) * 64 + 1 * (y 1).val = (y 1).val; omega
theorem w2_block (c : Dev nD) (t : Fin cfg0.N) : iblk m c 2 t = m ((c : Thread nD τ).loc main_arg8) := by
  obtain ⟨-, -, -, -, e0, e1, -⟩ := idx_facts t
  funext y
  show V m c main_arg8 (((cfg0.win 2).blk t).view.emb y) = _
  rw [V_arg m c main_arg8 (by decide)]
  refine congrArg (m ((c : Thread nD τ).loc main_arg8)) (funext fun a => Fin.ext ?_)
  match a with
  | ⟨0, _⟩ => show win0_2.index t (0 : Fin 2) * 64 + 1 * (y 0).val = (y 0).val; omega
  | ⟨1, _⟩ => show win0_2.index t (1 : Fin 2) * 16 + 1 * (y 1).val = (y 1).val; omega
theorem c1_block (c : Dev nD) (t : Fin cfg0.N) : iblk m c 3 t = m ((c : Thread nD τ).loc main_arg9) := by
  obtain ⟨-, -, -, -, -, -, e0, e1, -⟩ := idx_facts t
  funext y
  show V m c main_arg9 (((cfg0.win 3).blk t).view.emb y) = _
  rw [V_arg m c main_arg9 (by decide)]
  refine congrArg (m ((c : Thread nD τ).loc main_arg9)) (funext fun a => Fin.ext ?_)
  match a with
  | ⟨0, _⟩ => show win0_3.index t (0 : Fin 2) * 15 + 1 * (y 0).val = (y 0).val; omega
  | ⟨1, _⟩ => show win0_3.index t (1 : Fin 2) * 64 + 1 * (y 1).val = (y 1).val; omega
theorem c2_block (c : Dev nD) (t : Fin cfg0.N) : iblk m c 4 t = m ((c : Thread nD τ).loc main_arg10) := by
  obtain ⟨-, -, -, -, -, -, -, -, e0, e1, -⟩ := idx_facts t
  funext y
  show V m c main_arg10 (((cfg0.win 4).blk t).view.emb y) = _
  rw [V_arg m c main_arg10 (by decide)]
  refine congrArg (m ((c : Thread nD τ).loc main_arg10)) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega
theorem c3_block (c : Dev nD) (t : Fin cfg0.N) : iblk m c 5 t = m ((c : Thread nD τ).loc main_arg11) := by
  obtain ⟨-, -, -, -, -, -, -, -, -, -, e0, e1, -⟩ := idx_facts t
  funext y
  show V m c main_arg11 (((cfg0.win 5).blk t).view.emb y) = _
  rw [V_arg m c main_arg11 (by decide)]
  refine congrArg (m ((c : Thread nD τ).loc main_arg11)) (funext fun a => Fin.ext ?_)
  match a with
  | ⟨0, _⟩ => show win0_5.index t (0 : Fin 2) * 64 + 1 * (y 0).val = (y 0).val; omega
  | ⟨1, _⟩ => show win0_5.index t (1 : Fin 2) * 3 + 1 * (y 1).val = (y 1).val; omega

/-! ## The two result arrays -/

/-- The colour of every point, from what the launch finds. -/
def colourOut (c : Dev nD) : Mat 1048576 3 :=
  colourArr (feat m c) (m ((c : Thread nD τ).loc main_arg7)) (m ((c : Thread nD τ).loc main_arg8)) (m ((c : Thread nD τ).loc main_arg9))
    (m ((c : Thread nD τ).loc main_arg10)) (m ((c : Thread nD τ).loc main_arg11))

/-- The density of every point, as a column. -/
def densityOut (c : Dev nD) : Mat 1048576 1 :=
  densityCol (feat m c) (m ((c : Thread nD τ).loc main_arg7)) (m ((c : Thread nD τ).loc main_arg8))

/-- What point t writes back into the colour array is block t of `colourOut`. -/
theorem colour_flushed (c : Dev nD) (t : Fin cfg0.N) :
    (dats m 0 c).flushed 7 t = ((cfg0.win 7).blk t).view.read (Elt Ideal) (colourOut m c) := by
  show (cfg0.win 7).cut (grid0.coords t) ((dats m 0 c).after 7 t) = _
  rw [after_7]
  unfold colorTile
  rw [View.canon_unit_zero hz]
  simp only [View.ld_unit_zero (S := S8192x96) hz, View.ld_unit_zero (S := S96x64) hz, View.ld_unit_zero (S := S64x16) hz,
    View.ld_unit_zero (S := S15x64) hz, View.ld_unit_zero (S := S64x64) hz, View.ld_unit_zero (S := S64x3) hz]
  rw [w1_block, w2_block, c1_block, c2_block, c3_block]
  funext j
  obtain ⟨p, q, rfl⟩ : ∃ (p : Fin 8192) (q : Fin 3), j = ix2 p q := ⟨j 0, j 1, eq_ix2 j⟩
  obtain ⟨-, -, -, -, -, -, -, -, -, -, -, -, -, -, e0, e1⟩ := idx_facts t
  have ht : t.val < 128 := lt_of_lt_of_eq t.isLt N_0
  refine (colour_apply (iblk m c 0 t) (m ((c : Thread nD τ).loc main_arg7)) (m ((c : Thread nD τ).loc main_arg8))
    (m ((c : Thread nD τ).loc main_arg9)) (m ((c : Thread nD τ).loc main_arg10)) (m ((c : Thread nD τ).loc main_arg11)) p q).trans ?_
  show _ = colourOut m c (((cfg0.win 7).blk t).view.emb (ix2 p q))
  unfold colourOut colourArr
  have hq : (((cfg0.win 7).blk t).view.emb (ix2 p q)) 1 = q := Fin.ext (by
    show win0_7.index t (1 : Fin 2) * 3 + 1 * q.val = q.val; omega)
  have hrow : ((((cfg0.win 7).blk t).view.emb (ix2 p q)) 0).val = t.val * 8192 + p.val := by
    show win0_7.index t (0 : Fin 2) * 8192 + 1 * p.val = _; omega
  rw [hq]
  refine congrArg (fun x => colour x _ _ _ _ _ q) (funext fun k => ?_)
  exact feat_block m c t p k _ hrow

/-- What point t writes back into the density column is block t of `densityOut`. -/
theorem density_flushed (c : Dev nD) (t : Fin cfg0.N) :
    (dats m 0 c).flushed 6 t = ((cfg0.win 6).blk t).view.read (Elt Ideal) (densityOut m c) := by
  show (cfg0.win 6).cut (grid0.coords t) ((dats m 0 c).after 6 t) = _
  rw [after_6]
  unfold sigmaTile
  rw [View.canon_unit_zero hz]
  simp only [View.ld_unit_zero (S := S8192x96) hz, View.ld_unit_zero (S := S96x64) hz, View.ld_unit_zero (S := S64x16) hz]
  rw [w1_block, w2_block]
  funext j
  obtain ⟨p, q, rfl⟩ : ∃ (p : Fin 8192) (q : Fin 1), j = ix2 p q := ⟨j 0, j 1, eq_ix2 j⟩
  obtain ⟨-, -, -, -, -, -, -, -, -, -, -, -, e0, e1, -⟩ := idx_facts t
  refine (density_apply (iblk m c 0 t) (m ((c : Thread nD τ).loc main_arg7)) (m ((c : Thread nD τ).loc main_arg8)) p q).trans ?_
  show _ = densityOut m c (((cfg0.win 6).blk t).view.emb (ix2 p q))
  unfold densityOut densityCol
  have hrow : ((((cfg0.win 6).blk t).view.emb (ix2 p q)) 0).val = t.val * 8192 + p.val := by
    show win0_6.index t (0 : Fin 2) * 8192 + 1 * p.val = _; omega
  refine congrArg (fun x => density x _ _) (funext fun k => ?_)
  exact feat_block m c t p k _ hrow

/-- Row r of the colour array lies in block r / 8192. -/
theorem colour_cover (i : S1048576x3.Idx) :
    ∃ t : Fin cfg0.N, (cfg0.win 7).flush t = true ∧ i ∈ ((cfg0.win 7).blk t).view.set := by
  have hi0 : (i 0).val < 1048576 := (i 0).isLt
  have hi1 : (i 1).val < 3 := (i 1).isLt
  have hlt : (i 0).val / 8192 < cfg0.N := Nat.lt_of_lt_of_eq (by omega) N_0.symm
  refine ⟨⟨(i 0).val / 8192, hlt⟩, flush0_7 _, ?_⟩
  obtain ⟨-, -, -, -, -, -, -, -, -, -, -, -, -, -, e0, e1⟩ := idx_facts ⟨(i 0).val / 8192, hlt⟩
  show i ∈ ((View.whole main_v356_1).slice (win0_7.rect ⟨(i 0).val / 8192, hlt⟩)).set
  rw [View.set_slice_whole, Rect.mem_set_unit]
  intro a
  match a with
  | ⟨0, _⟩ =>
    show win0_7.index _ (0 : Fin 2) * 8192 ≤ (i 0).val ∧ (i 0).val < win0_7.index _ (0 : Fin 2) * 8192 + 8192
    rw [e0]; show (i 0).val / 8192 * 8192 ≤ (i 0).val ∧ (i 0).val < (i 0).val / 8192 * 8192 + 8192; omega
  | ⟨1, _⟩ =>
    show win0_7.index _ (1 : Fin 2) * 3 ≤ (i 1).val ∧ (i 1).val < win0_7.index _ (1 : Fin 2) * 3 + 3
    rw [e1]; omega

/-- Row r of the density column lies in block r / 8192. -/
theorem density_cover (i : S1048576x1.Idx) :
    ∃ t : Fin cfg0.N, (cfg0.win 6).flush t = true ∧ i ∈ ((cfg0.win 6).blk t).view.set := by
  have hi0 : (i 0).val < 1048576 := (i 0).isLt
  have hi1 : (i 1).val < 1 := (i 1).isLt
  have hlt : (i 0).val / 8192 < cfg0.N := Nat.lt_of_lt_of_eq (by omega) N_0.symm
  refine ⟨⟨(i 0).val / 8192, hlt⟩, flush0_6 _, ?_⟩
  obtain ⟨-, -, -, -, -, -, -, -, -, -, -, -, e0, e1, -⟩ := idx_facts ⟨(i 0).val / 8192, hlt⟩
  show i ∈ ((View.whole main_v356_0).slice (win0_6.rect ⟨(i 0).val / 8192, hlt⟩)).set
  rw [View.set_slice_whole, Rect.mem_set_unit]
  intro a
  match a with
  | ⟨0, _⟩ =>
    show win0_6.index _ (0 : Fin 2) * 8192 ≤ (i 0).val ∧ (i 0).val < win0_6.index _ (0 : Fin 2) * 8192 + 8192
    rw [e0]; show (i 0).val / 8192 * 8192 ≤ (i 0).val ∧ (i 0).val < (i 0).val / 8192 * 8192 + 8192; omega
  | ⟨1, _⟩ =>
    show win0_6.index _ (1 : Fin 2) * 1 ≤ (i 1).val ∧ (i 1).val < win0_6.index _ (1 : Fin 2) * 1 + 1
    rw [e1]; omega

/-- The colour array after the run. -/
theorem colour_final (c : Dev nD) : (dats m 0 c).arrAt 7 cfg0.N = colourOut m c :=
  (dats m 0 c).arrAt_eq_of_cover 7 (colourOut m c) (fun t _ => colour_flushed m c t) colour_cover

/-- The density column after the launch. -/
theorem density_final (c : Dev nD) : (dats m 0 c).arrAt 6 cfg0.N = densityOut m c :=
  (dats m 0 c).arrAt_eq_of_cover 6 (densityOut m c) (fun t _ => density_flushed m c t) density_cover

/-- The density vector the program returns: the column read as a vector. -/
def densityRet (c : Dev nD) : (⟨1, ![1048576]⟩ : Shape).Idx → EReal :=
  densityVec (feat m c) (m ((c : Thread nD τ).loc main_arg7)) (m ((c : Thread nD τ).loc main_arg8))

/-- The reshape after the launch turns the density column into the density vector. -/
theorem density_tail (c : Dev nD) :
    Pipeline.afterTail₀ cfgs (dats m) 0 (V0 m) [hostOps1] c main_v357 = densityRet m c := by
  unfold Pipeline.afterTail₀
  show StableHlo.after hostOps1 _ (Proc.devRef .tc main_v357) = _
  after_results
  rw [(Pipeline.withArrays_arr spec0 launch0.win.arr_inj c _ _ 6).trans (density_final m c)]
  funext i
  obtain ⟨r, rfl⟩ : ∃ r : Fin 1048576, i = ix1 r := ⟨i 0, eq_ix1 i⟩
  refine (shapeCast_apply (densityOut m c) shapeCasts_S1048576x1_S1048576 (ix1 r) (ix2 r 0) ?_).trans ?_
  · simp only [Shape.rowMajor_val_two, Shape.rowMajor_val_one]
    show r.val * 1 + 0 = r.val; omega
  · rfl

/-! ## The run, read -/

/-- Every weakly fair execution of the idealized kernel program terminates, with the colour result at `colourOut`, the
    density result at `densityRet`, and the twelve arguments unchanged. -/
theorem run : θ_run defs (onTc (τ := τ) (main (F := Ideal))) ⟨m, fun _ => 0, ρ⟩ fun r => ∀ c : Dev nD,
      r.2.mem ((c.tc : Thread nD τ).loc main_v356_1) = colourOut m c
      ∧ r.2.mem ((c.tc : Thread nD τ).loc main_v357) = densityRet m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨
      ((h c).1 7).trans (colour_final m c),
      ((h c).2 main_v357 (Pipeline.mem_restRefs_of main_v357 (by decide) (by decide))).trans (density_tail m c),
      kept_rest m r h c main_arg0 (by decide) (by decide) (by decide),
      kept_rest m r h c main_arg1 (by decide) (by decide) (by decide),
      kept_rest m r h c main_arg2 (by decide) (by decide) (by decide),
      kept_rest m r h c main_arg3 (by decide) (by decide) (by decide),
      kept_rest m r h c main_arg4 (by decide) (by decide) (by decide),
      kept_rest m r h c main_arg5 (by decide) (by decide) (by decide),
      kept_rest m r h c main_arg6 (by decide) (by decide) (by decide),
      kept_in m r h c 1 rfl (by decide),
      kept_in m r h c 2 rfl (by decide),
      kept_in m r h c 3 rfl (by decide),
      kept_in m r h c 4 rfl (by decide),
      kept_in m r h c 5 rfl (by decide)⟩) (run_main m ρ)

end Cert.KernelIdeal.Arrays

end
-- ==== Proof.RefTile.lean ====
/-
  The reference's last operations — the five products, three relus and the logistic spelt
  1 / (1 + exp (−x)), as whole-array host operations of its feature matrix and the five weight matrices —
  read entry by entry at the exact instance.

  At row r and column j each product is the plain sum over the contracted axis with row r of its left
  operand; relu and the elementwise steps act on the entry; the two slices of the 16 outputs read columns
  0 and 1 … 15; the reshape reads the density column as a vector. So row r of the colour term is the
  colour, and entry r of the density term the density, of the point whose features are row r.
-/
import proofs.«146460_j62938450755822_2_alg».proof.Proof.Gen.ReferenceIdeal
import proofs.«146460_j62938450755822_2_alg».proof.Proof.MlpSpec
import Idealize.ShloMosaic.Lib.Pipeline.Value

set_option maxRecDepth 16384

noncomputable section

namespace Cert.ReferenceIdeal.Tile

open Cert.ReferenceIdeal Cert.ReferenceIdeal.Gen
open Idealize.ShloMosaic Idealize.ShloMosaic.ValueIdx Cert.LibDense Cert.MlpSpec

/-- The host's product, read at (r, c): the textbook entry. -/
theorem dotGeneral_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    Host.dotGeneral d prec l r (ix2 a b) = dense (fun k => l (ix2 a k)) r b :=
  (Ideal.dotGeneral_apply d prec .single l r (ix2 a b)).trans
    (sum_contr_plain d hr hs (ix2 a b) (hl0 _) (hl1 _) (hr0 _) (hr1 _) l r)

/-! ## Where the five products read their operands -/

theorem r1_l0 (j : S1048576x64.Idx) (q : dot_S1048576x96_S96x64_S1048576x64_1_0_0_1_n_n.contr.Idx) : (dot_S1048576x96_S96x64_S1048576x64_1_0_0_1_n_n.lhsIdx j q 0).val = (j 0).val := by
  unfold DotDims.lhsIdx
  rw [dif_neg (show ¬(0 : Fin S1048576x96.rank) ∈ dot_S1048576x96_S96x64_S1048576x64_1_0_0_1_n_n.lhsBatch by decide), dif_pos (show (0 : Fin S1048576x96.rank) ∈ dot_S1048576x96_S96x64_S1048576x64_1_0_0_1_n_n.lhsNonContracting by decide)]
  rfl
theorem r1_l1 (j : S1048576x64.Idx) (q : dot_S1048576x96_S96x64_S1048576x64_1_0_0_1_n_n.contr.Idx) : (dot_S1048576x96_S96x64_S1048576x64_1_0_0_1_n_n.lhsIdx j q 1).val = (q ⟨0, by decide⟩).val :=
  dot_S1048576x96_S96x64_S1048576x64_1_0_0_1_n_n.lhsIdx_val_of_single rfl j q
theorem r1_r0 (j : S1048576x64.Idx) (q : dot_S1048576x96_S96x64_S1048576x64_1_0_0_1_n_n.contr.Idx) : (dot_S1048576x96_S96x64_S1048576x64_1_0_0_1_n_n.rhsIdx j q 0).val = (q ⟨0, by decide⟩).val :=
  dot_S1048576x96_S96x64_S1048576x64_1_0_0_1_n_n.rhsIdx_val_of_single rfl j q
theorem r1_r1 (j : S1048576x64.Idx) (q : dot_S1048576x96_S96x64_S1048576x64_1_0_0_1_n_n.contr.Idx) : (dot_S1048576x96_S96x64_S1048576x64_1_0_0_1_n_n.rhsIdx j q 1).val = (j 1).val := by
  unfold DotDims.rhsIdx
  rw [dif_neg (show ¬(1 : Fin S96x64.rank) ∈ dot_S1048576x96_S96x64_S1048576x64_1_0_0_1_n_n.rhsBatch by decide), dif_pos (show (1 : Fin S96x64.rank) ∈ dot_S1048576x96_S96x64_S1048576x64_1_0_0_1_n_n.rhsNonContracting by decide)]
  rfl
theorem r2_l0 (j : S1048576x16.Idx) (q : dot_S1048576x64_S64x16_S1048576x16_1_0_0_1_n_n.contr.Idx) : (dot_S1048576x64_S64x16_S1048576x16_1_0_0_1_n_n.lhsIdx j q 0).val = (j 0).val := by
  unfold DotDims.lhsIdx
  rw [dif_neg (show ¬(0 : Fin S1048576x64.rank) ∈ dot_S1048576x64_S64x16_S1048576x16_1_0_0_1_n_n.lhsBatch by decide), dif_pos (show (0 : Fin S1048576x64.rank) ∈ dot_S1048576x64_S64x16_S1048576x16_1_0_0_1_n_n.lhsNonContracting by decide)]
  rfl
theorem r2_l1 (j : S1048576x16.Idx) (q : dot_S1048576x64_S64x16_S1048576x16_1_0_0_1_n_n.contr.Idx) : (dot_S1048576x64_S64x16_S1048576x16_1_0_0_1_n_n.lhsIdx j q 1).val = (q ⟨0, by decide⟩).val :=
  dot_S1048576x64_S64x16_S1048576x16_1_0_0_1_n_n.lhsIdx_val_of_single rfl j q
theorem r2_r0 (j : S1048576x16.Idx) (q : dot_S1048576x64_S64x16_S1048576x16_1_0_0_1_n_n.contr.Idx) : (dot_S1048576x64_S64x16_S1048576x16_1_0_0_1_n_n.rhsIdx j q 0).val = (q ⟨0, by decide⟩).val :=
  dot_S1048576x64_S64x16_S1048576x16_1_0_0_1_n_n.rhsIdx_val_of_single rfl j q
theorem r2_r1 (j : S1048576x16.Idx) (q : dot_S1048576x64_S64x16_S1048576x16_1_0_0_1_n_n.contr.Idx) : (dot_S1048576x64_S64x16_S1048576x16_1_0_0_1_n_n.rhsIdx j q 1).val = (j 1).val := by
  unfold DotDims.rhsIdx
  rw [dif_neg (show ¬(1 : Fin S64x16.rank) ∈ dot_S1048576x64_S64x16_S1048576x16_1_0_0_1_n_n.rhsBatch by decide), dif_pos (show (1 : Fin S64x16.rank) ∈ dot_S1048576x64_S64x16_S1048576x16_1_0_0_1_n_n.rhsNonContracting by decide)]
  rfl
theorem r3_l0 (j : S1048576x64.Idx) (q : dot_S1048576x15_S15x64_S1048576x64_1_0_0_1_n_n.contr.Idx) : (dot_S1048576x15_S15x64_S1048576x64_1_0_0_1_n_n.lhsIdx j q 0).val = (j 0).val := by
  unfold DotDims.lhsIdx
  rw [dif_neg (show ¬(0 : Fin S1048576x15.rank) ∈ dot_S1048576x15_S15x64_S1048576x64_1_0_0_1_n_n.lhsBatch by decide), dif_pos (show (0 : Fin S1048576x15.rank) ∈ dot_S1048576x15_S15x64_S1048576x64_1_0_0_1_n_n.lhsNonContracting by decide)]
  rfl
theorem r3_l1 (j : S1048576x64.Idx) (q : dot_S1048576x15_S15x64_S1048576x64_1_0_0_1_n_n.contr.Idx) : (dot_S1048576x15_S15x64_S1048576x64_1_0_0_1_n_n.lhsIdx j q 1).val = (q ⟨0, by decide⟩).val :=
  dot_S1048576x15_S15x64_S1048576x64_1_0_0_1_n_n.lhsIdx_val_of_single rfl j q
theorem r3_r0 (j : S1048576x64.Idx) (q : dot_S1048576x15_S15x64_S1048576x64_1_0_0_1_n_n.contr.Idx) : (dot_S1048576x15_S15x64_S1048576x64_1_0_0_1_n_n.rhsIdx j q 0).val = (q ⟨0, by decide⟩).val :=
  dot_S1048576x15_S15x64_S1048576x64_1_0_0_1_n_n.rhsIdx_val_of_single rfl j q
theorem r3_r1 (j : S1048576x64.Idx) (q : dot_S1048576x15_S15x64_S1048576x64_1_0_0_1_n_n.contr.Idx) : (dot_S1048576x15_S15x64_S1048576x64_1_0_0_1_n_n.rhsIdx j q 1).val = (j 1).val := by
  unfold DotDims.rhsIdx
  rw [dif_neg (show ¬(1 : Fin S15x64.rank) ∈ dot_S1048576x15_S15x64_S1048576x64_1_0_0_1_n_n.rhsBatch by decide), dif_pos (show (1 : Fin S15x64.rank) ∈ dot_S1048576x15_S15x64_S1048576x64_1_0_0_1_n_n.rhsNonContracting by decide)]
  rfl
theorem r4_l0 (j : S1048576x64.Idx) (q : dot_S1048576x64_S64x64_S1048576x64_1_0_0_1_n_n.contr.Idx) : (dot_S1048576x64_S64x64_S1048576x64_1_0_0_1_n_n.lhsIdx j q 0).val = (j 0).val := by
  unfold DotDims.lhsIdx
  rw [dif_neg (show ¬(0 : Fin S1048576x64.rank) ∈ dot_S1048576x64_S64x64_S1048576x64_1_0_0_1_n_n.lhsBatch by decide), dif_pos (show (0 : Fin S1048576x64.rank) ∈ dot_S1048576x64_S64x64_S1048576x64_1_0_0_1_n_n.lhsNonContracting by decide)]
  rfl
theorem r4_l1 (j : S1048576x64.Idx) (q : dot_S1048576x64_S64x64_S1048576x64_1_0_0_1_n_n.contr.Idx) : (dot_S1048576x64_S64x64_S1048576x64_1_0_0_1_n_n.lhsIdx j q 1).val = (q ⟨0, by decide⟩).val :=
  dot_S1048576x64_S64x64_S1048576x64_1_0_0_1_n_n.lhsIdx_val_of_single rfl j q
theorem r4_r0 (j : S1048576x64.Idx) (q : dot_S1048576x64_S64x64_S1048576x64_1_0_0_1_n_n.contr.Idx) : (dot_S1048576x64_S64x64_S1048576x64_1_0_0_1_n_n.rhsIdx j q 0).val = (q ⟨0, by decide⟩).val :=
  dot_S1048576x64_S64x64_S1048576x64_1_0_0_1_n_n.rhsIdx_val_of_single rfl j q
theorem r4_r1 (j : S1048576x64.Idx) (q : dot_S1048576x64_S64x64_S1048576x64_1_0_0_1_n_n.contr.Idx) : (dot_S1048576x64_S64x64_S1048576x64_1_0_0_1_n_n.rhsIdx j q 1).val = (j 1).val := by
  unfold DotDims.rhsIdx
  rw [dif_neg (show ¬(1 : Fin S64x64.rank) ∈ dot_S1048576x64_S64x64_S1048576x64_1_0_0_1_n_n.rhsBatch by decide), dif_pos (show (1 : Fin S64x64.rank) ∈ dot_S1048576x64_S64x64_S1048576x64_1_0_0_1_n_n.rhsNonContracting by decide)]
  rfl
theorem r5_l0 (j : S1048576x3.Idx) (q : dot_S1048576x64_S64x3_S1048576x3_1_0_0_1_n_n.contr.Idx) : (dot_S1048576x64_S64x3_S1048576x3_1_0_0_1_n_n.lhsIdx j q 0).val = (j 0).val := by
  unfold DotDims.lhsIdx
  rw [dif_neg (show ¬(0 : Fin S1048576x64.rank) ∈ dot_S1048576x64_S64x3_S1048576x3_1_0_0_1_n_n.lhsBatch by decide), dif_pos (show (0 : Fin S1048576x64.rank) ∈ dot_S1048576x64_S64x3_S1048576x3_1_0_0_1_n_n.lhsNonContracting by decide)]
  rfl
theorem r5_l1 (j : S1048576x3.Idx) (q : dot_S1048576x64_S64x3_S1048576x3_1_0_0_1_n_n.contr.Idx) : (dot_S1048576x64_S64x3_S1048576x3_1_0_0_1_n_n.lhsIdx j q 1).val = (q ⟨0, by decide⟩).val :=
  dot_S1048576x64_S64x3_S1048576x3_1_0_0_1_n_n.lhsIdx_val_of_single rfl j q
theorem r5_r0 (j : S1048576x3.Idx) (q : dot_S1048576x64_S64x3_S1048576x3_1_0_0_1_n_n.contr.Idx) : (dot_S1048576x64_S64x3_S1048576x3_1_0_0_1_n_n.rhsIdx j q 0).val = (q ⟨0, by decide⟩).val :=
  dot_S1048576x64_S64x3_S1048576x3_1_0_0_1_n_n.rhsIdx_val_of_single rfl j q
theorem r5_r1 (j : S1048576x3.Idx) (q : dot_S1048576x64_S64x3_S1048576x3_1_0_0_1_n_n.contr.Idx) : (dot_S1048576x64_S64x3_S1048576x3_1_0_0_1_n_n.rhsIdx j q 1).val = (j 1).val := by
  unfold DotDims.rhsIdx
  rw [dif_neg (show ¬(1 : Fin S64x3.rank) ∈ dot_S1048576x64_S64x3_S1048576x3_1_0_0_1_n_n.rhsBatch by decide), dif_pos (show (1 : Fin S64x3.rank) ∈ dot_S1048576x64_S64x3_S1048576x3_1_0_0_1_n_n.rhsNonContracting by decide)]
  rfl

/-! ## The reference's tail as terms of its feature matrix -/

/-- The second layer's output, all rows. -/
def out16T (feat : FVec Ideal S1048576x96 .f32) (w1 : FVec Ideal S96x64 .f32) (w2 : FVec Ideal S64x16 .f32) :
    FVec Ideal S1048576x16 .f32 :=
  Host.dotGeneral dot_S1048576x64_S64x16_S1048576x16_1_0_0_1_n_n none
    (maximumf (Host.dotGeneral dot_S1048576x96_S96x64_S1048576x64_1_0_0_1_n_n none feat w1) (broadcastInDim S1048576x64 ![] bcast_S_S1048576x64 (constant (F := Ideal) S_ .f32 0x00000000#32))) w2

/-- The colour result. -/
def colourT (feat : FVec Ideal S1048576x96 .f32) (w1 : FVec Ideal S96x64 .f32) (w2 : FVec Ideal S64x16 .f32)
    (c1 : FVec Ideal S15x64 .f32) (c2 : FVec Ideal S64x64 .f32) (c3 : FVec Ideal S64x3 .f32) : FVec Ideal S1048576x3 .f32 :=
  Host.divf (broadcastInDim S1048576x3 ![] bcast_S_S1048576x3 (constant (F := Ideal) S_ .f32 0x3F800000#32))
    (addf (broadcastInDim S1048576x3 ![] bcast_S_S1048576x3 (constant (F := Ideal) S_ .f32 0x3F800000#32))
      (Host.exp (Host.negf (Host.dotGeneral dot_S1048576x64_S64x3_S1048576x3_1_0_0_1_n_n none
        (maximumf (Host.dotGeneral dot_S1048576x64_S64x64_S1048576x64_1_0_0_1_n_n none
          (maximumf (Host.dotGeneral dot_S1048576x15_S15x64_S1048576x64_1_0_0_1_n_n none
            (extractStridedSlice S1048576x15 ![0, 1] (out16T feat w1 w2) slices_S1048576x16_S1048576x15_0_1) c1) (broadcastInDim S1048576x64 ![] bcast_S_S1048576x64 (constant (F := Ideal) S_ .f32 0x00000000#32))) c2)
          (broadcastInDim S1048576x64 ![] bcast_S_S1048576x64 (constant (F := Ideal) S_ .f32 0x00000000#32))) c3))))

/-- The density result. -/
def densityT (feat : FVec Ideal S1048576x96 .f32) (w1 : FVec Ideal S96x64 .f32) (w2 : FVec Ideal S64x16 .f32) :
    FVec Ideal S1048576 .f32 :=
  shapeCast S1048576 (extractStridedSlice S1048576x1 ![0, 0] (out16T feat w1 w2) slices_S1048576x16_S1048576x1_0_0)
    shapeCasts_S1048576x1_S1048576

/-! ## Entry by entry -/

theorem slice_first (y : FVec Ideal S1048576x16 .f32) (p : Fin 1048576) (z : Fin 1) :
    extractStridedSlice S1048576x1 ![0, 0] y slices_S1048576x16_S1048576x1_0_0 (ix2 p z) = y (ix2 p 0) := by
  refine extractStridedSlice_apply ![0, 0] y slices_S1048576x16_S1048576x1_0_0 (ix2 p z) (ix2 p 0) ?_
  intro a
  have hz : z.val = 0 := by have := z.isLt; omega
  match a with
  | ⟨0, _⟩ => show p.val = 0 + p.val; omega
  | ⟨1, _⟩ => show (0 : ℕ) = 0 + z.val; omega

theorem slice_rest (y : FVec Ideal S1048576x16 .f32) (p : Fin 1048576) (k : Fin 15) :
    extractStridedSlice S1048576x15 ![0, 1] y slices_S1048576x16_S1048576x15_0_1 (ix2 p k) = y (ix2 p ⟨k.val + 1, by omega⟩) := by
  refine extractStridedSlice_apply ![0, 1] y slices_S1048576x16_S1048576x15_0_1 (ix2 p k) (ix2 p ⟨k.val + 1, by omega⟩) ?_
  intro a
  match a with
  | ⟨0, _⟩ => show p.val = 0 + p.val; omega
  | ⟨1, _⟩ => show k.val + 1 = 1 + k.val; omega

/-- A broadcast of a scalar, read anywhere, is the scalar. -/
theorem zero64_apply (i : S1048576x64.Idx) :
    (broadcastInDim S1048576x64 ![] bcast_S_S1048576x64 (constant (F := Ideal) S_ .f32 0x00000000#32)) i = FloatOps.ofBits (F := Ideal) .f32 0x00000000#32 :=
  broadcastInDim_apply _ bcast_S_S1048576x64 (constant (F := Ideal) S_ .f32 0x00000000#32) i (fun a => a.elim0) (fun a => a.elim0)

theorem one3_apply (i : S1048576x3.Idx) :
    (broadcastInDim S1048576x3 ![] bcast_S_S1048576x3 (constant (F := Ideal) S_ .f32 0x3F800000#32)) i = FloatOps.ofBits (F := Ideal) .f32 0x3F800000#32 :=
  broadcastInDim_apply _ bcast_S_S1048576x3 (constant (F := Ideal) S_ .f32 0x3F800000#32) i (fun a => a.elim0) (fun a => a.elim0)

/-- Entry (r, j) of the second layer's output. -/
theorem out16T_apply (feat : FVec Ideal S1048576x96 .f32) (w1 : FVec Ideal S96x64 .f32) (w2 : FVec Ideal S64x16 .f32)
    (r : Fin 1048576) (j : Fin 16) :
    out16T feat w1 w2 (ix2 r j) = out16 (fun k => feat (ix2 r k)) w1 w2 j := by
  unfold out16T
  refine (dotGeneral_plain dot_S1048576x64_S64x16_S1048576x16_1_0_0_1_n_n none rfl rfl r2_l0 r2_l1 r2_r0 r2_r1 _ _ r j).trans ?_
  unfold out16
  refine congrArg (fun f => dense f w2 j) (funext fun k => ?_)
  show FloatOps.maximumf (F := Ideal) (φ := .f32) (Host.dotGeneral dot_S1048576x96_S96x64_S1048576x64_1_0_0_1_n_n none feat w1 (ix2 r k))
    ((broadcastInDim S1048576x64 ![] bcast_S_S1048576x64 (constant (F := Ideal) S_ .f32 0x00000000#32)) (ix2 r k)) = _
  unfold relu
  rw [zero64_apply]
  refine congrArg (fun v => FloatOps.maximumf (F := Ideal) (φ := .f32) v _) ?_
  exact dotGeneral_plain dot_S1048576x96_S96x64_S1048576x64_1_0_0_1_n_n none rfl rfl r1_l0 r1_l1 r1_r0 r1_r1 feat w1 r k

/-- Entry r of the density term. -/
theorem densityT_eq (feat : FVec Ideal S1048576x96 .f32) (w1 : FVec Ideal S96x64 .f32) (w2 : FVec Ideal S64x16 .f32) :
    densityT feat w1 w2 = densityVec feat w1 w2 := by
  funext i
  obtain ⟨r, rfl⟩ : ∃ r : Fin 1048576, i = ix1 r := ⟨i 0, eq_ix1 i⟩
  unfold densityT densityVec density
  refine (shapeCast_apply _ shapeCasts_S1048576x1_S1048576 (ix1 r) (ix2 r 0) ?_).trans ?_
  · simp only [Shape.rowMajor_val_two, Shape.rowMajor_val_one]
    show r.val * 1 + 0 = r.val; omega
  · exact (slice_first (out16T feat w1 w2) r 0).trans (out16T_apply feat w1 w2 r 0)

/-- Row r of the colour term. -/
theorem colourT_eq (feat : FVec Ideal S1048576x96 .f32) (w1 : FVec Ideal S96x64 .f32) (w2 : FVec Ideal S64x16 .f32)
    (c1 : FVec Ideal S15x64 .f32) (c2 : FVec Ideal S64x64 .f32) (c3 : FVec Ideal S64x3 .f32) :
    colourT feat w1 w2 c1 c2 c3 = colourArr feat w1 w2 c1 c2 c3 := by
  funext i
  obtain ⟨r, j, rfl⟩ : ∃ (r : Fin 1048576) (j : Fin 3), i = ix2 r j := ⟨i 0, i 1, eq_ix2 i⟩
  unfold colourT colourArr colour
  show FloatOps.hostDivf (F := Ideal) (φ := .f32) ((broadcastInDim S1048576x3 ![] bcast_S_S1048576x3 (constant (F := Ideal) S_ .f32 0x3F800000#32)) (ix2 r j))
    (FloatOps.addf (F := Ideal) (φ := .f32) ((broadcastInDim S1048576x3 ![] bcast_S_S1048576x3 (constant (F := Ideal) S_ .f32 0x3F800000#32)) (ix2 r j))
      (FloatOps.hostUnary (F := Ideal) (φ := .f32) .exp (FloatOps.hostNegf (F := Ideal) (φ := .f32)
        (Host.dotGeneral dot_S1048576x64_S64x3_S1048576x3_1_0_0_1_n_n none _ c3 (ix2 r j))))) = _
  rw [one3_apply, logistic_host]
  refine congrArg (fun v => FloatOps.logistic (F := Ideal) (φ := .f32) v) ?_
  refine (dotGeneral_plain dot_S1048576x64_S64x3_S1048576x3_1_0_0_1_n_n none rfl rfl r5_l0 r5_l1 r5_r0 r5_r1 _ c3 r j).trans ?_
  unfold pre3
  refine congrArg (fun f => dense f c3 j) (funext fun k => ?_)
  show FloatOps.maximumf (F := Ideal) (φ := .f32) (Host.dotGeneral dot_S1048576x64_S64x64_S1048576x64_1_0_0_1_n_n none _ c2 (ix2 r k))
    ((broadcastInDim S1048576x64 ![] bcast_S_S1048576x64 (constant (F := Ideal) S_ .f32 0x00000000#32)) (ix2 r k)) = _
  unfold relu
  rw [zero64_apply]
  refine congrArg (fun v => FloatOps.maximumf (F := Ideal) (φ := .f32) v _) ?_
  refine (dotGeneral_plain dot_S1048576x64_S64x64_S1048576x64_1_0_0_1_n_n none rfl rfl r4_l0 r4_l1 r4_r0 r4_r1 _ c2 r k).trans ?_
  refine congrArg (fun f => dense f c2 k) (funext fun k1 => ?_)
  show FloatOps.maximumf (F := Ideal) (φ := .f32) (Host.dotGeneral dot_S1048576x15_S15x64_S1048576x64_1_0_0_1_n_n none _ c1 (ix2 r k1))
    ((broadcastInDim S1048576x64 ![] bcast_S_S1048576x64 (constant (F := Ideal) S_ .f32 0x00000000#32)) (ix2 r k1)) = _
  rw [zero64_apply]
  refine congrArg (fun v => FloatOps.maximumf (F := Ideal) (φ := .f32) v _) ?_
  refine (dotGeneral_plain dot_S1048576x15_S15x64_S1048576x64_1_0_0_1_n_n none rfl rfl r3_l0 r3_l1 r3_r0 r3_r1 _ c1 r k1).trans ?_
  refine congrArg (fun f => dense f c1 k1) (funext fun k2 => ?_)
  unfold colourIn
  exact (slice_rest (out16T feat w1 w2) r k2).trans (out16T_apply feat w1 w2 r ⟨k2.val + 1, by omega⟩)

end Cert.ReferenceIdeal.Tile

end
-- ==== Proof.LibWrites.lean ====
/-
  Host operations that write only buffers numbered from `n` on.

  A straight line of host operations each of which writes one result buffer of its own, all of them
  numbered `n` or higher among the TensorCore references, leaves every reference numbered below `n` as
  it found it. With the program's arguments numbered first, this is "no host operation writes an
  argument".
-/
import Idealize.ShloMosaic.Lib.StableHlo.Run

noncomputable section

namespace Idealize.ShloMosaic.StableHlo

open Idealize.ShloMosaic.TcCoe

variable {τ : Topo} {sig : RefSig} {Val : EltTy → Type}

/-- Every buffer the operation writes is a TensorCore reference whose index is at least `n`. -/
def WritesFrom (n : ℕ) (op : HloOp τ sig Val) : Prop :=
  ∀ b ∈ op.writes, ∃ y : Ref sig .tc, b = Proc.devRef .tc y ∧ n ≤ y.idx.val

/-- A line of such operations leaves every reference numbered below `n` as it found it. -/
theorem after_below (n : ℕ) (ops : List (HloOp τ sig Val)) (W : Valuation τ sig Val)
    (h : ops.Forall (WritesFrom n)) (r : Ref sig .tc) (hr : r.idx.val < n) :
    after ops W (Proc.devRef .tc r) = W (Proc.devRef .tc r) :=
  after_of_forall_not_mem ops W fun op hop hb => by
    obtain ⟨y, e, hy⟩ := (List.forall_iff_forall_mem.mp h) op hop _ hb
    obtain rfl : r = y := Proc.devRef_injective _ e
    omega

/-- Any stretch cut from the front or the back of such a line is such a line. -/
theorem WritesFrom.take (n k : ℕ) (ops : List (HloOp τ sig Val)) (h : ops.Forall (WritesFrom n)) :
    (ops.take k).Forall (WritesFrom n) :=
  List.forall_iff_forall_mem.mpr fun op hop => (List.forall_iff_forall_mem.mp h) op (List.mem_of_mem_take hop)

theorem WritesFrom.drop (n k : ℕ) (ops : List (HloOp τ sig Val)) (h : ops.Forall (WritesFrom n)) :
    (ops.drop k).Forall (WritesFrom n) :=
  List.forall_iff_forall_mem.mpr fun op hop => (List.forall_iff_forall_mem.mp h) op (List.mem_of_mem_drop hop)

/-- One operation at a time over a literal line: the buffer written is the operation's own result. -/
macro "writes_own" : tactic =>
  `(tactic| (simp only [List.Forall]; repeat' constructor
             all_goals exact fun b hb => ⟨_, Finset.mem_singleton.mp hb, by decide⟩))

/-- Two lines one after the other. -/
theorem after_two : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_two l₁ l₂]

/-- A line run in two stretches. -/
theorem after_take_drop (k : ℕ) (ops : List (HloOp τ sig Val)) (W : Valuation τ sig Val) :
    after ops W = after (ops.drop k) (after (ops.take k) W) := by
  rw [← after_two, List.take_append_drop]

end Idealize.ShloMosaic.StableHlo

end
-- ==== Proof.LibNary3.lean ====
/-
  A host operation of three operands, read back with each operand at its own buffer.

  The result of an operation over a literal family of three buffers (a concatenation of three arrays) is
  its function applied to the three buffers' contents, each named at its own reference — not as one
  function of the position in the family —, so that the contents of each operand can be computed further.
-/
import Idealize.ShloMosaic.Lib.StableHlo.Run

noncomputable section

namespace Idealize.ShloMosaic.StableHlo

open Idealize.ShloMosaic.TcCoe

variable {τ : Topo} {sig : RefSig} {Val : EltTy → Type}

/-- What a three-operand operation leaves in its result buffer: its function of the three operands' contents. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference left out of the pattern's index, for rewriting in one pass. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.RefRun2.lean ====
/-
  The reference's run, read back.

  The reference is a straight line of 559 host operations. Every weakly fair execution runs them in
  order, so at the end each buffer holds the fold of the operations over the launch memory. No operation
  writes an argument (each writes its own result buffer, numbered after the twelve arguments). The first
  534 operations build the feature matrix (buffer 355); the last 25 — the five products, the relus and the
  logistic — read only that matrix and the five weight arguments, and compose to the colour and density
  terms of Proof/RefTile.lean. So the two results are the colour and the density of every point of the
  reference's feature matrix.
-/
import proofs.«146460_j62938450755822_2_alg».proof.Proof.RefOps
import proofs.«146460_j62938450755822_2_alg».proof.Proof.RefTile
import proofs.«146460_j62938450755822_2_alg».proof.Proof.LibWrites
import proofs.«146460_j62938450755822_2_alg».proof.Proof.LibNary3

set_option maxRecDepth 65536

noncomputable section

namespace Cert.ReferenceIdeal.Run2

open Cert.ReferenceIdeal Cert.ReferenceIdeal.Gen Cert.ReferenceIdeal.Value Cert.ReferenceIdeal.Tile
open Idealize.ShloMosaic Idealize.ShloMosaic.TcCoe Idealize.ShloMosaic.StableHlo Idealize.SL.Sem Cert.MlpSpec

/-- No operation writes an argument: each writes its own result, numbered from twelve on. -/
theorem ops_high {F : FTy → Type} [FloatOps F] : (ops (F := F)).Forall (WritesFrom 12) := by writes_own

set_option maxHeartbeats 0 in
/-- Every weakly fair execution terminates with each buffer at the fold of the operations over the launch memory. -/
theorem run_all {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (fun b => m (c, b)) (Proc.devRef .tc b) :=
  run_seq scopedRefs_eq scopedSems_eq defs main (fun _ => ops) main_eq (fun _ => ops_sub) m ρ

variable (m : (ℓ : Loc nD τ sig) → Buf (Elt Ideal) ℓ) (ρ : Dev nD → PrngReg)

/-- The reference's feature matrix: buffer 355 after the first 534 operations. -/
abbrev feat (c : Dev nD) : Mat 1048576 96 :=
  after (List.take 534 (ops (F := Ideal))) (fun b => m (c, b)) (Proc.devRef .tc main_v355)

/-- An argument is as it was after the first 534 operations, -/
theorem pre_arg (c : Dev nD) (r : Ref sig .tc) (hr : r.idx.val < 12) :
    after (List.take 534 (ops (F := Ideal))) (fun b => m (c, b)) (Proc.devRef .tc r) = m ((c.tc : Thread nD τ).loc r) :=
  after_below 12 _ _ (WritesFrom.take 12 534 _ ops_high) r hr

/-- and at the end. -/
theorem end_arg (c : Dev nD) (r : Ref sig .tc) (hr : r.idx.val < 12) :
    after (ops (F := Ideal)) (fun b => m (c, b)) (Proc.devRef .tc r) = m ((c.tc : Thread nD τ).loc r) :=
  after_below 12 _ _ ops_high r hr

set_option maxHeartbeats 0 in
/-- The last 25 operations compose to the colour term of the feature buffer and the weight arguments. -/
theorem tail_colour (W1 : Valuation τ sig (Elt Ideal)) :
    after (List.drop 534 (ops (F := Ideal))) W1 (Proc.devRef .tc main_v372)
      = colourT (W1 (Proc.devRef .tc main_v355)) (W1 (Proc.devRef .tc main_arg7)) (W1 (Proc.devRef .tc main_arg8))
          (W1 (Proc.devRef .tc main_arg9)) (W1 (Proc.devRef .tc main_arg10)) (W1 (Proc.devRef .tc main_arg11)) := by
  simp only [ops, List.drop_succ_cons, List.drop_zero]
  simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 0 in
/-- And to the density term. -/
theorem tail_density (W1 : Valuation τ sig (Elt Ideal)) :
    after (List.drop 534 (ops (F := Ideal))) W1 (Proc.devRef .tc main_v360)
      = densityT (W1 (Proc.devRef .tc main_v355)) (W1 (Proc.devRef .tc main_arg7)) (W1 (Proc.devRef .tc main_arg8)) := by
  simp only [ops, List.drop_succ_cons, List.drop_zero]
  simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']
  rfl

/-- The colour result is the colour of every point of the feature matrix. -/
theorem colour_result (c : Dev nD) :
    after (ops (F := Ideal)) (fun b => m (c, b)) (Proc.devRef .tc main_v372)
      = colourArr (feat m c) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [after_take_drop 534 ops (fun b => m (c, b)), tail_colour, colourT_eq,
    pre_arg m c main_arg7 (by decide), pre_arg m c main_arg8 (by decide), pre_arg m c main_arg9 (by decide),
    pre_arg m c main_arg10 (by decide), pre_arg m c main_arg11 (by decide)]

/-- The density result is the density of every point of the feature matrix. -/
theorem density_result (c : Dev nD) :
    after (ops (F := Ideal)) (fun b => m (c, b)) (Proc.devRef .tc main_v360)
      = densityVec (feat m c) (m ((c.tc : Thread nD τ).loc main_arg7)) (m ((c.tc : Thread nD τ).loc main_arg8)) := by
  rw [after_take_drop 534 ops (fun b => m (c, b)), tail_density, densityT_eq,
    pre_arg m c main_arg7 (by decide), pre_arg m c main_arg8 (by decide)]

/-- Every weakly fair execution of the idealized reference terminates, with the colour result the colour and the density
    result the density of every point of its feature matrix, and the twelve arguments unchanged. -/
theorem run : θ_run defs (onTc (τ := τ) (main (F := Ideal))) ⟨m, fun _ => 0, ρ⟩ fun r => ∀ c : Dev nD,
      r.2.mem ((c.tc : Thread nD τ).loc main_v372) = colourArr (feat m c) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v360) = densityVec (feat m c) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨
      (h c main_v372).trans (colour_result m c),
      (h c main_v360).trans (density_result m c),
      (h c main_arg0).trans (end_arg m c main_arg0 (by decide)),
      (h c main_arg1).trans (end_arg m c main_arg1 (by decide)),
      (h c main_arg2).trans (end_arg m c main_arg2 (by decide)),
      (h c main_arg3).trans (end_arg m c main_arg3 (by decide)),
      (h c main_arg4).trans (end_arg m c main_arg4 (by decide)),
      (h c main_arg5).trans (end_arg m c main_arg5 (by decide)),
      (h c main_arg6).trans (end_arg m c main_arg6 (by decide)),
      (h c main_arg7).trans (end_arg m c main_arg7 (by decide)),
      (h c main_arg8).trans (end_arg m c main_arg8 (by decide)),
      (h c main_arg9).trans (end_arg m c main_arg9 (by decide)),
      (h c main_arg10).trans (end_arg m c main_arg10 (by decide)),
      (h c main_arg11).trans (end_arg m c main_arg11 (by decide))⟩) (run_all m ρ)

end Cert.ReferenceIdeal.Run2

end
-- ==== Proof.Features.lean ====
/-
  The two programs' feature matrices are one function of the arguments.

  The kernel program reaches the launch, and the reference its first product, through the same host
  operations in the same order on the same literals: the clamp of the points into the unit cube, and per
  plane the two pixel coordinates, their floors and fractional parts, the four clamped corner indices, the
  four gathers and the bilinear blend, the transpose, and last the concatenation of the three planes'
  blocks. Each block is therefore the fold of those operations over the program's launch memory read at
  the block's buffer, that is, the operations' composed term of the arguments the block depends on.
  Computed out, the two programs' terms for a block are the same term once the arguments agree (they differ
  only in which program's copy of a shape or of a dimension record they name). So the reference's two
  results are the kernel program's.
-/
import proofs.«146460_j62938450755822_2_alg».proof.Proof.IdealArrays
import proofs.«146460_j62938450755822_2_alg».proof.Proof.RefRun2

set_option maxRecDepth 1000000

noncomputable section

namespace Cert.Features

open Idealize.ShloMosaic Idealize.ShloMosaic.TcCoe Idealize.ShloMosaic.StableHlo Idealize.SL.Sem Cert.MlpSpec

/-! A concatenation's operands sit inside a list of (shape, contents) pairs whose evidence depends on the list; naming the
    pair concatenation the prelude uses lets its operands be computed further. -/

/-- Two index columns side by side, in the kernel program's shapes. -/
def cat2K {α : Type} (p q : Cert.KernelIdeal.S1048576x1.Idx → α) : Cert.KernelIdeal.S1048576x2.Idx → α :=
  concatenate Cert.KernelIdeal.S1048576x2 1 [⟨Cert.KernelIdeal.S1048576x1, p⟩, ⟨Cert.KernelIdeal.S1048576x1, q⟩] Cert.KernelIdeal.Facts₀.concatenates_S1048576x1_S1048576x1_S1048576x2_d1
theorem cat2K_eq {α : Type} (p q : Cert.KernelIdeal.S1048576x1.Idx → α) :
    concatenate Cert.KernelIdeal.S1048576x2 1 [⟨Cert.KernelIdeal.S1048576x1, p⟩, ⟨Cert.KernelIdeal.S1048576x1, q⟩] Cert.KernelIdeal.Facts₀.concatenates_S1048576x1_S1048576x1_S1048576x2_d1 = cat2K p q := rfl
/-- Two index columns side by side, in the reference's shapes. -/
def cat2R {α : Type} (p q : Cert.ReferenceIdeal.S1048576x1.Idx → α) : Cert.ReferenceIdeal.S1048576x2.Idx → α :=
  concatenate Cert.ReferenceIdeal.S1048576x2 1 [⟨Cert.ReferenceIdeal.S1048576x1, p⟩, ⟨Cert.ReferenceIdeal.S1048576x1, q⟩] Cert.ReferenceIdeal.Facts₀.concatenates_S1048576x1_S1048576x1_S1048576x2_d1
theorem cat2R_eq {α : Type} (p q : Cert.ReferenceIdeal.S1048576x1.Idx → α) :
    concatenate Cert.ReferenceIdeal.S1048576x2 1 [⟨Cert.ReferenceIdeal.S1048576x1, p⟩, ⟨Cert.ReferenceIdeal.S1048576x1, q⟩] Cert.ReferenceIdeal.Facts₀.concatenates_S1048576x1_S1048576x1_S1048576x2_d1 = cat2R p q := rfl

/-- After any line ending in the last concatenation, the feature buffer holds the three blocks, each as the line before the
    concatenation leaves it, side by side (kernel program). -/
theorem last_concatK (ops : List (HloOp Cert.KernelIdeal.τ Cert.KernelIdeal.sig (Elt Ideal))) (W : Valuation Cert.KernelIdeal.τ Cert.KernelIdeal.sig (Elt Ideal)) :
    after (ops ++ [StableHlo.nary ![Cert.KernelIdeal.main_v130, Cert.KernelIdeal.main_v242, Cert.KernelIdeal.main_v354] Cert.KernelIdeal.main_v355 (fun u => concatenate Cert.KernelIdeal.S1048576x96 1 [⟨Cert.KernelIdeal.S1048576x32, u 0⟩, ⟨Cert.KernelIdeal.S1048576x32, u 1⟩, ⟨Cert.KernelIdeal.S1048576x32, u 2⟩] Cert.KernelIdeal.Facts₀.concatenates_S1048576x32_S1048576x32_S1048576x32_S1048576x96_d1)]) W (Proc.devRef .tc Cert.KernelIdeal.main_v355)
      = concatenate Cert.KernelIdeal.S1048576x96 1
          [⟨Cert.KernelIdeal.S1048576x32, after ops W (Proc.devRef .tc Cert.KernelIdeal.main_v130)⟩, ⟨Cert.KernelIdeal.S1048576x32, after ops W (Proc.devRef .tc Cert.KernelIdeal.main_v242)⟩,
           ⟨Cert.KernelIdeal.S1048576x32, after ops W (Proc.devRef .tc Cert.KernelIdeal.main_v354)⟩]
          Cert.KernelIdeal.Facts₀.concatenates_S1048576x32_S1048576x32_S1048576x32_S1048576x96_d1 := by
  rw [after_two, after_cons, after_nil, nary_result]
  rfl

/-- After any line ending in the last concatenation, the feature buffer holds the three blocks, each as the line before the
    concatenation leaves it, side by side (reference). -/
theorem last_concatR (ops : List (HloOp Cert.ReferenceIdeal.τ Cert.ReferenceIdeal.sig (Elt Ideal))) (W : Valuation Cert.ReferenceIdeal.τ Cert.ReferenceIdeal.sig (Elt Ideal)) :
    after (ops ++ [StableHlo.nary ![Cert.ReferenceIdeal.main_v130, Cert.ReferenceIdeal.main_v242, Cert.ReferenceIdeal.main_v354] Cert.ReferenceIdeal.main_v355 (fun u => concatenate Cert.ReferenceIdeal.S1048576x96 1 [⟨Cert.ReferenceIdeal.S1048576x32, u 0⟩, ⟨Cert.ReferenceIdeal.S1048576x32, u 1⟩, ⟨Cert.ReferenceIdeal.S1048576x32, u 2⟩] Cert.ReferenceIdeal.Facts₀.concatenates_S1048576x32_S1048576x32_S1048576x32_S1048576x96_d1)]) W (Proc.devRef .tc Cert.ReferenceIdeal.main_v355)
      = concatenate Cert.ReferenceIdeal.S1048576x96 1
          [⟨Cert.ReferenceIdeal.S1048576x32, after ops W (Proc.devRef .tc Cert.ReferenceIdeal.main_v130)⟩, ⟨Cert.ReferenceIdeal.S1048576x32, after ops W (Proc.devRef .tc Cert.ReferenceIdeal.main_v242)⟩,
           ⟨Cert.ReferenceIdeal.S1048576x32, after ops W (Proc.devRef .tc Cert.ReferenceIdeal.main_v354)⟩]
          Cert.ReferenceIdeal.Facts₀.concatenates_S1048576x32_S1048576x32_S1048576x32_S1048576x96_d1 := by
  rw [after_two, after_cons, after_nil, nary_result]
  rfl

/-- The kernel program's operations before the launch end with the concatenation. -/
theorem splitK : List.flatten (Cert.KernelIdeal.Host.before (F := Ideal))
    = List.take 533 (List.flatten (Cert.KernelIdeal.Host.before (F := Ideal))) ++ [StableHlo.nary ![Cert.KernelIdeal.main_v130, Cert.KernelIdeal.main_v242, Cert.KernelIdeal.main_v354] Cert.KernelIdeal.main_v355 (fun u => concatenate Cert.KernelIdeal.S1048576x96 1 [⟨Cert.KernelIdeal.S1048576x32, u 0⟩, ⟨Cert.KernelIdeal.S1048576x32, u 1⟩, ⟨Cert.KernelIdeal.S1048576x32, u 2⟩] Cert.KernelIdeal.Facts₀.concatenates_S1048576x32_S1048576x32_S1048576x32_S1048576x96_d1)] := by
  simp only [Cert.KernelIdeal.Host.before, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26,
    List.flatten_cons, List.flatten_nil, List.append_nil, List.cons_append, List.nil_append, List.take_succ_cons, List.take_zero]

/-- The reference's first 534 operations end with the concatenation. -/
theorem splitR : List.take 534 (Cert.ReferenceIdeal.Value.ops (F := Ideal))
    = List.take 533 (Cert.ReferenceIdeal.Value.ops (F := Ideal)) ++ [StableHlo.nary ![Cert.ReferenceIdeal.main_v130, Cert.ReferenceIdeal.main_v242, Cert.ReferenceIdeal.main_v354] Cert.ReferenceIdeal.main_v355 (fun u => concatenate Cert.ReferenceIdeal.S1048576x96 1 [⟨Cert.ReferenceIdeal.S1048576x32, u 0⟩, ⟨Cert.ReferenceIdeal.S1048576x32, u 1⟩, ⟨Cert.ReferenceIdeal.S1048576x32, u 2⟩] Cert.ReferenceIdeal.Facts₀.concatenates_S1048576x32_S1048576x32_S1048576x32_S1048576x96_d1)] := by
  simp only [Cert.ReferenceIdeal.Value.ops, List.take_succ_cons, List.take_zero, List.cons_append, List.nil_append]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

set_option maxHeartbeats 0 in
/-- Block v130: the same term of the arguments in the two programs. -/
theorem block_v130 (e0 : m' (c, Proc.devRef .tc Cert.ReferenceIdeal.main_arg0) = m (c, Proc.devRef .tc Cert.KernelIdeal.main_arg0))
    (e2 : m' (c, Proc.devRef .tc Cert.ReferenceIdeal.main_arg2) = m (c, Proc.devRef .tc Cert.KernelIdeal.main_arg2))
    (e3 : m' (c, Proc.devRef .tc Cert.ReferenceIdeal.main_arg3) = m (c, Proc.devRef .tc Cert.KernelIdeal.main_arg3))
    (e4 : m' (c, Proc.devRef .tc Cert.ReferenceIdeal.main_arg4) = m (c, Proc.devRef .tc Cert.KernelIdeal.main_arg4))
    (e5 : m' (c, Proc.devRef .tc Cert.ReferenceIdeal.main_arg5) = m (c, Proc.devRef .tc Cert.KernelIdeal.main_arg5))
    (e6 : m' (c, Proc.devRef .tc Cert.ReferenceIdeal.main_arg6) = m (c, Proc.devRef .tc Cert.KernelIdeal.main_arg6)) :
    (after (List.take 533 (Cert.ReferenceIdeal.Value.ops (F := Ideal))) (fun b => m' (c, b)) (Proc.devRef .tc Cert.ReferenceIdeal.main_v130) : Mat 1048576 32)
      = after (List.take 533 (List.flatten (Cert.KernelIdeal.Host.before (F := Ideal)))) (fun b => m (c, b)) (Proc.devRef .tc Cert.KernelIdeal.main_v130) := by
  simp only [Cert.ReferenceIdeal.Value.ops, Cert.KernelIdeal.Host.before, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26,
    List.flatten_cons, List.flatten_nil, List.append_nil, List.cons_append, List.nil_append, List.take_succ_cons, List.take_zero]
  simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne', cat2K_eq, cat2R_eq]
  rw [e0, e2, e5, e6]
  rfl

set_option maxHeartbeats 0 in
/-- Block v242: the same term of the arguments in the two programs. -/
theorem block_v242 (e0 : m' (c, Proc.devRef .tc Cert.ReferenceIdeal.main_arg0) = m (c, Proc.devRef .tc Cert.KernelIdeal.main_arg0))
    (e2 : m' (c, Proc.devRef .tc Cert.ReferenceIdeal.main_arg2) = m (c, Proc.devRef .tc Cert.KernelIdeal.main_arg2))
    (e3 : m' (c, Proc.devRef .tc Cert.ReferenceIdeal.main_arg3) = m (c, Proc.devRef .tc Cert.KernelIdeal.main_arg3))
    (e4 : m' (c, Proc.devRef .tc Cert.ReferenceIdeal.main_arg4) = m (c, Proc.devRef .tc Cert.KernelIdeal.main_arg4))
    (e5 : m' (c, Proc.devRef .tc Cert.ReferenceIdeal.main_arg5) = m (c, Proc.devRef .tc Cert.KernelIdeal.main_arg5))
    (e6 : m' (c, Proc.devRef .tc Cert.ReferenceIdeal.main_arg6) = m (c, Proc.devRef .tc Cert.KernelIdeal.main_arg6)) :
    (after (List.take 533 (Cert.ReferenceIdeal.Value.ops (F := Ideal))) (fun b => m' (c, b)) (Proc.devRef .tc Cert.ReferenceIdeal.main_v242) : Mat 1048576 32)
      = after (List.take 533 (List.flatten (Cert.KernelIdeal.Host.before (F := Ideal)))) (fun b => m (c, b)) (Proc.devRef .tc Cert.KernelIdeal.main_v242) := by
  simp only [Cert.ReferenceIdeal.Value.ops, Cert.KernelIdeal.Host.before, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26,
    List.flatten_cons, List.flatten_nil, List.append_nil, List.cons_append, List.nil_append, List.take_succ_cons, List.take_zero]
  simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne', cat2K_eq, cat2R_eq]
  rw [e0, e3, e5, e6]
  rfl

set_option maxHeartbeats 0 in
/-- Block v354: the same term of the arguments in the two programs. -/
theorem block_v354 (e0 : m' (c, Proc.devRef .tc Cert.ReferenceIdeal.main_arg0) = m (c, Proc.devRef .tc Cert.KernelIdeal.main_arg0))
    (e2 : m' (c, Proc.devRef .tc Cert.ReferenceIdeal.main_arg2) = m (c, Proc.devRef .tc Cert.KernelIdeal.main_arg2))
    (e3 : m' (c, Proc.devRef .tc Cert.ReferenceIdeal.main_arg3) = m (c, Proc.devRef .tc Cert.KernelIdeal.main_arg3))
    (e4 : m' (c, Proc.devRef .tc Cert.ReferenceIdeal.main_arg4) = m (c, Proc.devRef .tc Cert.KernelIdeal.main_arg4))
    (e5 : m' (c, Proc.devRef .tc Cert.ReferenceIdeal.main_arg5) = m (c, Proc.devRef .tc Cert.KernelIdeal.main_arg5))
    (e6 : m' (c, Proc.devRef .tc Cert.ReferenceIdeal.main_arg6) = m (c, Proc.devRef .tc Cert.KernelIdeal.main_arg6)) :
    (after (List.take 533 (Cert.ReferenceIdeal.Value.ops (F := Ideal))) (fun b => m' (c, b)) (Proc.devRef .tc Cert.ReferenceIdeal.main_v354) : Mat 1048576 32)
      = after (List.take 533 (List.flatten (Cert.KernelIdeal.Host.before (F := Ideal)))) (fun b => m (c, b)) (Proc.devRef .tc Cert.KernelIdeal.main_v354) := by
  simp only [Cert.ReferenceIdeal.Value.ops, Cert.KernelIdeal.Host.before, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26,
    List.flatten_cons, List.flatten_nil, List.append_nil, List.cons_append, List.nil_append, List.take_succ_cons, List.take_zero]
  simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne', cat2K_eq, cat2R_eq]
  rw [e0, e4, e5, e6]
  rfl

/-- With agreeing arguments the reference's feature matrix is the one the kernel program's launch finds. -/
theorem feat_agree (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Run2.feat m' c = Cert.KernelIdeal.Arrays.feat m c := by
  obtain ⟨h0, h1, h2, h3, h4, h5, h6, h7, h8, h9, h10, h11⟩ := hagree
  show after (List.take 534 (Cert.ReferenceIdeal.Value.ops (F := Ideal))) (fun b => m' (c, b)) (Proc.devRef .tc Cert.ReferenceIdeal.main_v355)
    = after (List.flatten Cert.KernelIdeal.Host.before) (fun b => m (c, b)) (Proc.devRef .tc Cert.KernelIdeal.main_v355)
  rw [splitR, splitK, last_concatR, last_concatK,
    block_v130 m m' c h0 h2 h3 h4 h5 h6, block_v242 m m' c h0 h2 h3 h4 h5 h6, block_v354 m m' c h0 h2 h3 h4 h5 h6]

/-- With agreeing arguments the reference's colour result is the kernel program's. -/
theorem colour_agree (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    colourArr (Cert.ReferenceIdeal.Run2.feat m' c) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      = Cert.KernelIdeal.Arrays.colourOut m c := by
  rw [feat_agree m m' c hagree]
  obtain ⟨h0, h1, h2, h3, h4, h5, h6, h7, h8, h9, h10, h11⟩ := hagree
  rw [h7, h8, h9, h10, h11]
  rfl

/-- With agreeing arguments the reference's density result is the kernel program's. -/
theorem density_agree (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    densityVec (Cert.ReferenceIdeal.Run2.feat m' c) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      = Cert.KernelIdeal.Arrays.densityRet m c := by
  rw [feat_agree m m' c hagree]
  obtain ⟨h0, h1, h2, h3, h4, h5, h6, h7, h8, h9, h10, h11⟩ := hagree
  rw [h7, h8]
  rfl

end Cert.Features

end
-- ==== Proof.lean ====
/-
  The certificate: a fused tiny MLP (density net and colour net of a tri-plane field) as one Pallas
  kernel tiled over 1,048,576 points, against the same MLP written with jnp on the host, after an
  identical host prelude (clamp into the unit cube, three bilinear plane samples, concatenation).

  Frames. Each of the two kernel programs (word level and idealized) runs to the end without a fault and
  leaves its arguments alone: the host operations before and after the launch write only their own
  result buffers, the launch's per-tile body is a straight line of whole-buffer loads and two
  whole-buffer stores, and the library's launch theorem does the rest (Proof/BitsFrame.lean,
  Proof/IdealFrame.lean, the same text at the two instances). The reference is host operations only; its
  frame is its run.

  Values, at the exact instance. The kernel's colour array ends at `colourArr` and its density at
  `densityVec` of the feature matrix the launch finds and of the weight arguments (Proof/IdealArrays.lean,
  over Proof/IdealTile.lean), and the reference's two results are the same two functions of the
  reference's own feature matrix (Proof/RefRun2.lean, over Proof/RefTile.lean). The two feature matrices are one function of the
  arguments: both programs reach them by the same host operations, so each is the operations'
  composed term of its program's arguments, and those terms coincide once the arguments agree
  (Proof/Features.lean). The idealization rewrote nothing, so `preserves` is trivial.
-/
import proofs.«146460_j62938450755822_2_alg».proof.Defs
import proofs.«146460_j62938450755822_2_alg».proof.Proof.Gen.Kernel
import proofs.«146460_j62938450755822_2_alg».proof.Proof.Gen.KernelIdeal
import proofs.«146460_j62938450755822_2_alg».proof.Proof.Gen.ReferenceIdeal
import proofs.«146460_j62938450755822_2_alg».proof.Proof.Gen.Pre_finite_inputs
import proofs.«146460_j62938450755822_2_alg».proof.Proof.BitsFrame
import proofs.«146460_j62938450755822_2_alg».proof.Proof.IdealFrame
import proofs.«146460_j62938450755822_2_alg».proof.Proof.IdealArrays
import proofs.«146460_j62938450755822_2_alg».proof.Proof.RefRun2
import proofs.«146460_j62938450755822_2_alg».proof.Proof.Features

noncomputable section

namespace Cert.Proof

open Idealize.ShloMosaic Idealize.SL.Sem

theorem frame_k : @Cert.frame_Kernel Cert.Kernel.Gen.facts Cert.Pre_finite_inputs.Gen.facts :=
  fun m ρ _ => Cert.Kernel.Frame.frame m ρ

theorem frame_ki : @Cert.frame_KernelIdeal Cert.KernelIdeal.Gen.facts Cert.Pre_finite_inputs.Gen.facts :=
  fun m ρ _ => Cert.KernelIdeal.Frame.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Run2.run m ρ)

/-- Both idealized programs end with the colour and the density of every point of one feature matrix. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Arrays.colourOut m c, fun c => Cert.KernelIdeal.Arrays.densityRet m c,
    Cert.KernelIdeal.Arrays.run m ρ, ?_⟩
  refine (θ_run Cert.ReferenceIdeal.defs _ _).mono (fun _ h c => ⟨?_, ?_, (h c).2.2⟩) (Cert.ReferenceIdeal.Run2.run m' ρ')
  · exact (h c).1.trans (Cert.Features.colour_agree m m' c (hagree c))
  · exact (h c).2.1.trans (Cert.Features.density_agree m m' c (hagree c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
